-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_1)) (v1 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_1) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x256 .f32) (main_arg3 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256x1 : Shape := ⟨2, ![256, 1]⟩
abbrev S256 : Shape := ⟨1, ![256]⟩
abbrev S1x256 : Shape := ⟨2, ![1, 256]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x8192 : Shape := ⟨2, ![1, 8192]⟩
abbrev S_ : Shape := ⟨0, ![]⟩
abbrev S1x1024 : Shape := ⟨2, ![1, 1024]⟩
abbrev S1024x1024 : Shape := ⟨2, ![1024, 1024]⟩
abbrev S1x512 : Shape := ⟨2, ![1, 512]⟩

abbrev nBuf : Space → Nat
  | .hbm => 28
  | .vmem => 37
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S256, .f32⟩
  | .hbm, ⟨6, _⟩ => ⟨S1x256, .f32⟩
  | .hbm, ⟨7, _⟩ => ⟨S256x1, .f32⟩
  | .hbm, ⟨8, _⟩ => ⟨S256, .f32⟩
  | .hbm, ⟨9, _⟩ => ⟨S1x256, .f32⟩
  | .hbm, ⟨10, _⟩ => ⟨S8192x256, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S_, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x8192, .f32⟩
  | .hbm, ⟨27, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1x512, .f32⟩
  | .local _ .vmem, ⟨23, _⟩ => ⟨S1x512, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x512, .f32⟩
  | .local _ .vmem, ⟨29, _⟩ => ⟨S1024x512, .f32⟩
  | .local _ .vmem, ⟨30, _⟩ => ⟨S512x256, .f32⟩
  | .local _ .vmem, ⟨31, _⟩ => ⟨S512x256, .f32⟩
  | .local _ .vmem, ⟨32, _⟩ => ⟨S1024x512, .f32⟩
  | .local _ .vmem, ⟨33, _⟩ => ⟨S1024x512, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_19 : BitVec 32 := 0#32
  let v37 : BitVec 1 := Scalar.cmpi .ne v36 c0_i32_19
  v37

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  slices_S512x1_S256x1_0_0 : S512x1.Slices ![0, 0] S256x1
  shapeCasts_S256x1_S256 : S256x1.ShapeCasts S256
  shapeCasts_S256_S1x256 : S256.ShapeCasts S1x256
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  reducesTo_S8192x1_S_d0_1 : S8192x1.ReducesTo [0, 1] S_
  h_S_ : 0 < S_.numel
  bcast_S_S8192x1 : S_.BroadcastsInDim S8192x1 (![] : Fin 0 → Fin S8192x1.rank)
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x256_S1024x256 : S1024x256.ShapeCasts S1024x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  shapeCasts_S512x256_S512x256 : S512x256.ShapeCasts S512x256
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S8192x1.size a
  hwx2_0 : ∀ i : grid2.Coords, EltTy.bits .f32 = 32 ∨ (Rect.block (s := S8192x1) S1024x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x8192.size a
  hwx2_1 : ∀ i : grid2.Coords, EltTy.bits .f32 = 32 ∨ (Rect.block (s := S1x8192) S1x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x8192.size a
  hwx2_4 : ∀ i : grid2.Coords, EltTy.bits .f32 = 32 ∨ (Rect.block (s := S8192x8192) S1024x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S8192x256.size a
  hwx2_5 : ∀ i : grid2.Coords, EltTy.bits .f32 = 32 ∨ (Rect.block (s := S8192x256) S512x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x8192.size a
  hwx2_6 : ∀ i : grid2.Coords, EltTy.bits .f32 = 32 ∨ (Rect.block (s := S8192x8192) S1024x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x256.size a ≤ S8192x256.size a
  hwx2_7 : ∀ i : grid2.Coords, EltTy.bits .f32 = 32 ∨ (Rect.block (s := S8192x256) S1024x256.size (cc2_transform_7 i) (hinb2_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6_1) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_0) S512x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v17_0) S1024x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v17_1) S1024x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S8192x256 : Shape := ⟨2, ![8192, 256]⟩
abbrev S256x1 : Shape := ⟨2, ![256, 1]⟩
abbrev S8192x1 : Shape := ⟨2, ![8192, 1]⟩
abbrev S8192 : Shape := ⟨1, ![8192]⟩
abbrev S1x8192 : Shape := ⟨2, ![1, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x1, .f32⟩
  | .hbm, ⟨4, _⟩ => ⟨S8192x256, .f32⟩
  | .hbm, ⟨5, _⟩ => ⟨S256x1, .f32⟩
  | .hbm, ⟨6, _⟩ => ⟨S8192x1, .f32⟩
  | .hbm, ⟨7, _⟩ => ⟨S8192, .f32⟩
  | .hbm, ⟨8, _⟩ => ⟨S256x1, .f32⟩
  | .hbm, ⟨9, _⟩ => ⟨S8192x1, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .i1⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S512x1_S256x1_0_0 : S512x1.Slices ![0, 0] S256x1
  shapeCasts_S8192x1_S8192 : S8192x1.ShapeCasts S8192
  slices_S512x1_S256x1_256_0 : S512x1.Slices ![256, 0] S256x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.R0Body.lean ====
/- REGION 0 of @main (custom_call 0, `cc0__kernel_m_body`, a grid of 8 points over 7 windows), at a parameter `V` — the
   TensorCore's buffer contents when the region is entered: each window's block at a point, what the body leaves in
   each output window's staging buffer as a function of the input blocks, the body's triple, the pipeline's proof data
   `Hand.dat0`, and the body obligation `Hand.body_obligation0`.

   The body has one control case. It reads input windows 0–3 whole, and writes each output window whole through one
   rectangle: window 4 the product `k0_pay1` of windows 0 and 1, window 5 the row sums `k0_pay2` of that product
   against window 2, window 6 the row sums `k0_pay3` of it against window 3. (It also reads each output buffer before
   writing it; what it reads there is used nowhere.) So after the body every input buffer holds its block and every
   output buffer a closed form of the input blocks, and the invariant is the one of a body that touches nothing else:
   the scoped rest and the generator register, untouched. -/
import proofs.«152824_j20873541058924_2_alg».proof.Proof.Gen.KernelIdeal.Launch
import proofs.«152824_j20873541058924_2_alg».proof.Proof.Gen.KernelIdeal.Skeleton
import proofs.«152824_j20873541058924_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the thousands: the elaborator recurses once per coordinate of a long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not, for any proof data whose array is `V`'s (`hA`) and whose body leaves the block in place (`hafter`): an
    unfetched input's block index has not moved since the point before, so the block found is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not, for any proof data whose array is `V`'s (`hA`) and whose body leaves the block in place (`hafter`): an
    unfetched input's block index has not moved since the point before, so the block found is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not, for any proof data whose array is `V`'s (`hA`) and whose body leaves the block in place (`hafter`): an
    unfetched input's block index has not moved since the point before, so the block found is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not, for any proof data whose array is `V`'s (`hA`) and whose body leaves the block in place (`hafter`): an
    unfetched input's block index has not moved since the point before, so the block found is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1024x512 := Rect.unit (s := S1024x512) ![0, 0] S1024x512.size inb_S1024x512_S1024x512_0_0
abbrev rB : Rect S512x256 := Rect.unit (s := S512x256) ![0, 0] S512x256.size inb_S512x256_S512x256_0_0
abbrev rV : Rect S1x256 := Rect.unit (s := S1x256) ![0, 0] S1x256.size inb_S1x256_S1x256_0_0
abbrev rH : Rect S1024x256 := Rect.unit (s := S1024x256) ![0, 0] S1024x256.size inb_S1024x256_S1024x256_0_0
abbrev rC : Rect S1024x1 := Rect.unit (s := S1024x1) ![0, 0] S1024x1.size inb_S1024x1_S1024x1_0_0

/-! ## What the body leaves in each output window's buffer -/

/-- Window 4's staging buffer after the body, from the blocks of windows 0 and 1: its one store, as a piece. -/
def out0_4 (x0 : Vec F S1024x512 .f32) (x1 : Vec F S512x256 .f32) : Vec F S1024x256 .f32 :=
  View.canon [⟨rH, k0_pay1 (View.ld x0 rA) (View.ld x1 rB)⟩]

/-- Window 5's, from the blocks of windows 0, 1 and 2. -/
def out0_5 (x0 : Vec F S1024x512 .f32) (x1 : Vec F S512x256 .f32) (x2 : Vec F S1x256 .f32) : Vec F S1024x1 .f32 :=
  View.canon [⟨rC, k0_pay2 (View.ld x0 rA) (View.ld x1 rB) (View.ld x2 rV)⟩]

/-- Window 6's, from the blocks of windows 0, 1 and 3. -/
def out0_6 (x0 : Vec F S1024x512 .f32) (x1 : Vec F S512x256 .f32) (x3 : Vec F S1x256 .f32) : Vec F S1024x1 .f32 :=
  View.canon [⟨rC, k0_pay3 (View.ld x0 rA) (View.ld x1 rB) (View.ld x3 rV)⟩]

/-- One whole-buffer store tiles the buffer, so it covers it. -/
theorem cover0_4 (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

theorem cover0_5 (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The kernel body on whole staging memrefs, the inputs' at contents `x0 … x3` and the outputs' at anything, runs to
    the continuation holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__kernel_m_body i arg1 harg1 arg2 harg2 arg3 harg3 arg4 harg4 arg5 harg5 arg6 harg6 arg7 harg7) K := by
  simp only [cc0__kernel_m_body_eq_skeleton]; unfold cc0__kernel_m_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core `c`: the arrays as the region finds them (`V`); after the body at point `t`
    each input's buffer at its block and each output's at `out0_W` of the input blocks; the invariant that of a body
    touching nothing but its windows (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and every window's current staging
    buffer at what it then holds, the windows one by one; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Runs.lean ====
/-
  The row-sum kernel (the second of the three kernel regions): what its runs share.

  The grid is 8 row tiles by 8 column tiles, walked row tile by row tile. At the first column tile of a row tile
  the body clears its accumulator (a 1024 x 1 scratch); at every column tile it adds to the accumulator the row sums
  of exp (leaky (src + dst) - m) over that tile's 1024 columns; at the last column tile it copies the accumulator
  into the output block. So the two branch conditions depend on the column coordinate only, and a point is in one
  of three cases: first column (A), a middle column (B), last column (C).
-/
import proofs.«152824_j20873541058924_2_alg».proof.Proof.Gen.KernelIdeal.Launch
import proofs.«152824_j20873541058924_2_alg».proof.Proof.Gen.KernelIdeal.Skeleton
import proofs.«152824_j20873541058924_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first column tile": the accumulator is cleared. -/
abbrev cond1_0 (i : grid1.Coords) : Prop := (Scalar.cmpi .ne (Scalar.extui (Scalar.cmpi .eq (BitVec.ofNat 32 (i 1).val) 0#32)) 0#32) = 1#1
/-- It holds exactly at the points whose number is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column tile": the accumulator is copied out. -/
abbrev cond1_1 (i : grid1.Coords) : Prop := k1_cond2 i = 1#1
/-- It holds exactly at the points whose number is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output block is neither stored into nor written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column tile it is stored into. -/
theorem liveAt1_3 : ∀ t : Fin cfg1.N, cond1_1 (grid1.coords t) → cfg1.idle 3 (grid1.coords t) = false := by decide +kernel

/-! ## The memrefs the body is called with -/

abbrev VO1_3 : View sig .tc .vmem S1024x1 .f32 := (Memref.whole cc1_stg3_0 : Memref sig .tc .vmem S1024x1 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1 .f32 := Memref.whole cc1_scratch0
abbrev VS1 : View sig .tc .vmem S1024x1 .f32 := scM1.view

end Cert.KernelIdeal.Hand

end
-- ==== Proof.R1RunA.lean ====
/-
  The row-sum kernel at a first column tile (case A): the accumulator is cleared, then the tile's row sums added; the output block is not touched.
-/
import proofs.«152824_j20873541058924_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: on whole memrefs — the three input blocks at their contents, the output block at contents handed back untouched, the accumulator at anything —
    it runs to a continuation holding the inputs as they were, the accumulator with its pieces written. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨[], ?_, fun xi3 E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunB.lean ====
/-
  The row-sum kernel at a middle column tile (case B): the tile's row sums are added to the accumulator the point before left; the output block is not touched.
-/
import proofs.«152824_j20873541058924_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: on whole memrefs — the three input blocks at their contents, the output block at contents handed back untouched, the accumulator at what the point before left —
    it runs to a continuation holding the inputs as they were, the accumulator with its pieces written. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨[], ?_, fun xi3 E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunC.lean ====
/-
  The row-sum kernel at the last column tile (case C): the tile's row sums are added to the accumulator the point before left, and the accumulator is copied into the output block.
-/
import proofs.«152824_j20873541058924_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: on whole memrefs — the three input blocks at their contents, the output block at anything, the accumulator at what the point before left —
    it runs to a continuation holding the inputs as they were, the accumulator with its pieces written and the output block with its pieces written. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨?_, ?_, fun E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R1Body.lean ====
/-
  The row-sum kernel (the second kernel region): what its output block and its accumulator hold point by point, the
  region's invariant, its proof data and the body obligation, at any contents `V` the region is entered from.

  After point t the accumulator holds, for each of the row tile's 1024 rows, the sum over the column tiles walked so
  far of the tile's row sums; the output block is written once per row tile, at the last column tile.
-/
import proofs.«152824_j20873541058924_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves in the accumulator and in the output block -/

/-- Case A's stores into the accumulator cover it. -/
theorem scover1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) (y : S1024x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1.size (by sl_kernel_rfl) y

/-- What case A leaves in the accumulator: its pieces read back. -/
def sout1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) : Vec F S1024x1 .f32 :=
  VS1.read (Elt F) (VS1.writes (Elt F) VS1.junk (kernelRun1_A c i arg2 harg2 arg3 harg3 arg4 harg4 arg5 harg5 arg6 harg6 hc0 hc1 x0 x1 x2).2.1)

/-- What case A leaves in the output block (nothing is stored: a placeholder no one consults, the window being idle there). -/
def out1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) : Vec F S1024x1 .f32 :=
  VO1_3.read (Elt F) (VO1_3.writes (Elt F) VO1_3.junk (kernelRun1_A c i arg2 harg2 arg3 harg3 arg4 harg4 arg5 harg5 arg6 harg6 hc0 hc1 x0 x1 x2).1)

/-- Case B's stores into the accumulator cover it. -/
theorem scover1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) (y : S1024x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1.size (by sl_kernel_rfl) y

/-- What case B leaves in the accumulator: its pieces read back. -/
def sout1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) : Vec F S1024x1 .f32 :=
  VS1.read (Elt F) (VS1.writes (Elt F) VS1.junk (kernelRun1_B c i arg2 harg2 arg3 harg3 arg4 harg4 arg5 harg5 arg6 harg6 hc0 hc1 x0 x1 x2 xs0).2.1)

/-- What case B leaves in the output block (nothing is stored: a placeholder no one consults, the window being idle there). -/
def out1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) : Vec F S1024x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's stores into the accumulator cover it. -/
theorem scover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1.size (by sl_kernel_rfl) y

/-- What case C leaves in the accumulator: its pieces read back. -/
def sout1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) : Vec F S1024x1 .f32 :=
  VS1.read (Elt F) (VS1.writes (Elt F) VS1.junk (kernelRun1_C c i arg2 harg2 arg3 harg3 arg4 harg4 arg5 harg5 arg6 harg6 hc0 hc1 x0 x1 x2 xs0).2.1)

/-- Case C's store into the output block covers it. -/
theorem cover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1.size (by sl_kernel_rfl) y

/-- What case C leaves in the output block: its pieces read back. -/
def out1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) : Vec F S1024x1 .f32 :=
  VO1_3.read (Elt F) (VO1_3.writes (Elt F) VO1_3.junk (kernelRun1_C c i arg2 harg2 arg3 harg3 arg4 harg4 arg5 harg5 arg6 harg6 hc0 hc1 x0 x1 x2 xs0).1)

section Region1b
variable (V : (c : Dev nD) → (b : Ref sig .tc) → Buf (Elt F) ((c : Thread nD τ).loc b))

/-! ## What the output block and the accumulator hold after each point -/

/-- THE ACCUMULATION: what the output block's staging buffer and the accumulator hold after the body at position `n`: the
    case the column coordinate selects, run at the point's memrefs and input blocks, over what the point before left in
    the accumulator. -/
def outsAt1 (c : Dev nD) : (n : ℕ) → n < cfg1.N → Vec F S1024x1 .f32 × Vec F S1024x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core other than this region's staging buffers and its accumulator, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The class's invariant with the accumulator split off as a memref owned at some contents. -/
theorem PhiA1_eq (c : Dev nD) :
    (Pipeline.ΦA spec1 c : sProp 𝕄)
      = iprop(iprop(iprop((∃ d, owns (c : Thread nD τ) scM1 fullShare d)) ∗ restBut1 c) ∗ (∃ r, prngReg c r)) := by
  unfold Pipeline.ΦA; rw [scopedRest1_split]; simp only [scM1, owns_whole]; try rfl

/-- The invariant before position `n`: before the first point every scoped buffer at anything; afterwards the accumulator
    at what the point before left in it, the others at anything; the generator register at some state throughout. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

/-- The region's proof data on core `c`: the arrays as the region finds them; after the body at point `t` each input's
    buffer at its block and the output's at the accumulation's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the column coordinate says which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_C c _ _ _ _ _ _ _ _ _ _ _ _ _ _ _ _ _)
            iexact Hb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_B c _ _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hb⟩, Hg⟩
  isplitl [HS0 Hb]
  · isplitl [HS0]
    · iexists _; iexact HS0
    iexact Hb
  iexact Hg

theorem hout1 (c : Dev nD) : (dat1 V c).Φ (Fin.last cfg1.N) ⊢ Pipeline.ΦA spec1 c :=
  Phi_out1 V c _ (by rw [Fin.val_last]; have : cfg1.N = 64 := N_1; omega)

end Region1b

end Cert.KernelIdeal.Hand

end
-- ==== Proof.R2Runs.lean ====
import proofs.«152824_j20873541058924_2_alg».proof.Proof.Gen.KernelIdeal.Launch
import proofs.«152824_j20873541058924_2_alg».proof.Proof.Gen.KernelIdeal.Skeleton
import proofs.«152824_j20873541058924_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds at the first column of every row tile — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the accumulator stored into the second output). -/
abbrev cond2_1 (i : grid2.Coords) : Prop := k2_cond2 i = 1#1
/-- It holds at the last column of every row tile — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last column the second output is idle and not written back. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- At the last column it is live. -/
theorem liveAt2_7_C : ∀ t : Fin cfg2.N, ¬cond2_0 (grid2.coords t) → cond2_1 (grid2.coords t) → cfg2.idle 7 (grid2.coords t) = false := by decide +kernel

/-! ## The memrefs the body is called with -/

/-- One staging buffer of each output window, through which its contents are stated. -/
abbrev VO2_6 : View sig .tc .vmem S1024x512 .f32 := (Memref.whole cc2_stg6_0 : Memref sig .tc .vmem S1024x512 .f32).view
abbrev VO2_7 : View sig .tc .vmem S1024x256 .f32 := (Memref.whole cc2_stg7_0 : Memref sig .tc .vmem S1024x256 .f32).view
abbrev ms2_0 (t : Fin cfg2.N) : Memref sig .tc .vmem S1024x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x256 .f32 := win2_7.stage (cfg2.slots t 7)
abbrev hs2_7 (t : Fin cfg2.N) : (ms2_7 t).IsWhole := hstage2_7 ((cfg2.slots t 7).cast nbuf2_7)
/-- The accumulator: a whole scoped buffer of the kernel's own, carried between points. -/
abbrev scM2_0 : Memref sig .tc .vmem S1024x256 .f32 := Memref.whole cc2_scratch0
abbrev VS2_0 : View sig .tc .vmem S1024x256 .f32 := scM2_0.view

/-- The scoped rest split at the accumulator; the remainder (the other calls' staging buffers and scratch) unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The scoped rest less the accumulator, each buffer at some contents. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_split]; simp only [scM2_0, owns_whole]; try rfl

set_option maxHeartbeats 4000000 in
/-- The body in case A: on whole staging memrefs, the six inputs' at their contents, the attention tile's at
    anything, the second output's handed back untouched, the accumulator at anything (the case overwrites it whole),
    the body runs to the continuation holding the inputs' as they were and each stored buffer with its pieces
    written; the pieces are the witness the run finds. -/
noncomputable def kernelRun2_A (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) :
    Σ' (L6 : List (View.Piece (Elt F) S1024x512 .f32)) (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, [], ?_, fun xi7 E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- The body in case B: on whole staging memrefs, the six inputs' at their contents, the attention tile's at
    anything, the second output's handed back untouched, the accumulator at what the point before left,
    the body runs to the continuation holding the inputs' as they were and each stored buffer with its pieces
    written; the pieces are the witness the run finds. -/
noncomputable def kernelRun2_B (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    Σ' (L6 : List (View.Piece (Elt F) S1024x512 .f32)) (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, [], ?_, fun xi7 E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- The body in case C: on whole staging memrefs, the six inputs' at their contents, the attention tile's at
    anything, the second output's at anything, the accumulator at what the point before left,
    the body runs to the continuation holding the inputs' as they were and each stored buffer with its pieces
    written; the pieces are the witness the run finds. -/
noncomputable def kernelRun2_C (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    Σ' (L6 : List (View.Piece (Elt F) S1024x512 .f32)) (L7 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, ?_, ?_, fun E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Hand

end
-- ==== Proof.R2Body.lean ====
import proofs.«152824_j20873541058924_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it stores into -/

/-- Case A's pieces for the attention tile's staging buffer tile it, so they cover it. -/
theorem cover2_A_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (y : S1024x512.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5).1 S1024x512.size (by sl_kernel_rfl) y

/-- Case A's pieces for the accumulator cover it. -/
theorem scover2_A_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (y : S1024x256.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5).2.2.1 S1024x256.size (by sl_kernel_rfl) y

/-- What case A leaves: the attention tile's buffer, the second output's buffer (no store there: a placeholder nothing consults) and the accumulator,
    each its pieces read back over junk. -/
def outs2_A (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) : Vec F S1024x512 .f32 × Vec F S1024x256 .f32 × Vec F S1024x256 .f32 :=
  (VO2_6.read (Elt F) (VO2_6.writes (Elt F) VO2_6.junk (kernelRun2_A c i arg2 harg2 arg3 harg3 arg4 harg4 arg5 harg5 arg6 harg6 arg7 harg7 arg8 harg8 arg9 harg9 arg10 harg10 hc0 hc1 x0 x1 x2 x3 x4 x5).1),
   VO2_7.read (Elt F) (VO2_7.writes (Elt F) VO2_7.junk (kernelRun2_A c i arg2 harg2 arg3 harg3 arg4 harg4 arg5 harg5 arg6 harg6 arg7 harg7 arg8 harg8 arg9 harg9 arg10 harg10 hc0 hc1 x0 x1 x2 x3 x4 x5).2.1),
   VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3 x4 x5).2.2.1))

/-- Case B's pieces for the attention tile's staging buffer tile it, so they cover it. -/
theorem cover2_B_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x512.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y

/-- Case B's pieces for the accumulator cover it. -/
theorem scover2_B_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 xs0).2.2.1 S1024x256.size (by sl_kernel_rfl) y

/-- What case B leaves: the attention tile's buffer, the second output's buffer (no store there: a placeholder nothing consults) and the accumulator,
    each its pieces read back over junk. -/
def outs2_B (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) : Vec F S1024x512 .f32 × Vec F S1024x256 .f32 × Vec F S1024x256 .f32 :=
  (VO2_6.read (Elt F) (VO2_6.writes (Elt F) VO2_6.junk (kernelRun2_B c i arg2 harg2 arg3 harg3 arg4 harg4 arg5 harg5 arg6 harg6 arg7 harg7 arg8 harg8 arg9 harg9 arg10 harg10 hc0 hc1 x0 x1 x2 x3 x4 x5 xs0).1),
   VO2_7.read (Elt F) (VO2_7.writes (Elt F) VO2_7.junk (kernelRun2_B c i arg2 harg2 arg3 harg3 arg4 harg4 arg5 harg5 arg6 harg6 arg7 harg7 arg8 harg8 arg9 harg9 arg10 harg10 hc0 hc1 x0 x1 x2 x3 x4 x5 xs0).2.1),
   VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 x3 x4 x5 xs0).2.2.1))

/-- Case C's pieces for the attention tile's staging buffer tile it, so they cover it. -/
theorem cover2_C_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x512.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y

/-- Case C's pieces for the second output's staging buffer tile it, so they cover it. -/
theorem cover2_C_7 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).2.1 S1024x256.size (by sl_kernel_rfl) y

/-- Case C's pieces for the accumulator cover it. -/
theorem scover2_C_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).2.2.1 S1024x256.size (by sl_kernel_rfl) y

/-- What case C leaves: the attention tile's buffer, the second output's buffer and the accumulator,
    each its pieces read back over junk. -/
def outs2_C (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) : Vec F S1024x512 .f32 × Vec F S1024x256 .f32 × Vec F S1024x256 .f32 :=
  (VO2_6.read (Elt F) (VO2_6.writes (Elt F) VO2_6.junk (kernelRun2_C c i arg2 harg2 arg3 harg3 arg4 harg4 arg5 harg5 arg6 harg6 arg7 harg7 arg8 harg8 arg9 harg9 arg10 harg10 hc0 hc1 x0 x1 x2 x3 x4 x5 xs0).1),
   VO2_7.read (Elt F) (VO2_7.writes (Elt F) VO2_7.junk (kernelRun2_C c i arg2 harg2 arg3 harg3 arg4 harg4 arg5 harg5 arg6 harg6 arg7 harg7 arg8 harg8 arg9 harg9 arg10 harg10 hc0 hc1 x0 x1 x2 x3 x4 x5 xs0).2.1),
   VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 x3 x4 x5 xs0).2.2.1))

/-! ## The windows' blocks at the region's entry contents -/

section Region2
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after each point -/

/-- Case A at point `t` (first column of a row tile). -/
def ptA (c : Dev nD) (t : Fin cfg2.N) (h0 : t.val % 16 = 0) : Vec F S1024x512 .f32 × Vec F S1024x256 .f32 × Vec F S1024x256 .f32 :=
  outs2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)
/-- Case B at point `t` (an inner column), over the accumulator `xs0` the point before left. -/
def ptB (c : Dev nD) (t : Fin cfg2.N) (h0 : ¬t.val % 16 = 0) (h1 : ¬t.val % 16 = 15) (xs0 : Vec F S1024x256 .f32) : Vec F S1024x512 .f32 × Vec F S1024x256 .f32 × Vec F S1024x256 .f32 :=
  outs2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0
/-- Case C at point `t` (last column of a row tile), over the accumulator `xs0` the point before left. -/
def ptC (c : Dev nD) (t : Fin cfg2.N) (h0 : ¬t.val % 16 = 0) (h1 : t.val % 16 = 15) (xs0 : Vec F S1024x256 .f32) : Vec F S1024x512 .f32 × Vec F S1024x256 .f32 × Vec F S1024x256 .f32 :=
  outs2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0

/-- THE ACCUMULATION. What the two outputs' staging buffers and the accumulator hold after the body at position `n`:
    the case the column selects, run at the point's memrefs and input blocks, the accumulator read at what
    position `n - 1` left (nothing read at a first column, which resets it). -/
def outsAt2 (c : Dev nD) : (n : ℕ) → n < cfg2.N → Vec F S1024x512 .f32 × Vec F S1024x256 .f32 × Vec F S1024x256 .f32
  | 0, hn => ptA V c ⟨0, hn⟩ (Nat.zero_mod _)
  | n + 1, hn =>
    if h0 : (n + 1) % 16 = 0 then ptA V c ⟨n + 1, hn⟩ h0
    else if h1 : (n + 1) % 16 = 15 then ptC V c ⟨n + 1, hn⟩ h0 h1 (outsAt2 c n (Nat.lt_of_succ_lt hn)).2.2
    else ptB V c ⟨n + 1, hn⟩ h0 h1 (outsAt2 c n (Nat.lt_of_succ_lt hn)).2.2

theorem outsAt2_A (c : Dev nD) (t : Fin cfg2.N) (h0 : t.val % 16 = 0) :
    outsAt2 V c t.val t.isLt = ptA V c t h0 := by
  obtain ⟨n, hn⟩ := t
  cases n with
  | zero => exact rfl
  | succ n => exact (dif_pos h0).trans rfl

theorem outsAt2_B (c : Dev nD) (t : Fin cfg2.N) (h0 : ¬t.val % 16 = 0) (h1 : ¬t.val % 16 = 15) :
    outsAt2 V c t.val t.isLt = ptB V c t h0 h1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 16 = 0) (h1 : t.val % 16 = 15) :
    outsAt2 V c t.val t.isLt = ptC V c t h0 h1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before position `n`: before the first point the class's invariant (every scoped buffer at anything); afterwards the
    accumulator at what the point before left in it, the rest of the scoped buffers at anything, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ rest2 (F := F) c) ∗ (∃ r, prngReg c r)) := by
  cases n with
  | zero => exact absurd rfl hz
  | succ n => rfl

/-! ## The pipeline's proof data -/

/-- The proof data of region 2 on core `c`: the arrays as the region finds them; after the body at point `t` each
    input's buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the column says which case the point is in; the
    invariant hands the body the accumulator at what the point before left (at anything at a first column, which
    overwrites it whole) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · have h1 : ¬t.val % 16 = 15 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
    rw [outsAt2_A V c t h0]
    unfold ptA outs2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _)
      iexists _; iexact H7
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold ptC outs2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold ptB outs2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _)
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.KernelIdeal.Hand

end
-- ==== Proof.Run.lean ====
/-
  The whole run of the kernel program: host operations, the projection kernel, host operations, the row-sum kernel, host
  operations, the attention kernel. The contents of the core's unscoped buffers are followed from the launch to the
  return — through a stretch of host operations they change as the operations say, through a kernel region the
  region's arrays end at what its pipeline leaves (every write-back of every output folded in) and nothing else
  changes — and the final state holds every unscoped buffer at the last of these contents.
-/
import proofs.«152824_j20873541058924_2_alg».proof.Proof.R0Body
import proofs.«152824_j20873541058924_2_alg».proof.Proof.R1Body
import proofs.«152824_j20873541058924_2_alg».proof.Proof.R2Body
import proofs.«152824_j20873541058924_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W1_keeps (c : Dev nD) (b : Ref sig .tc) (h : b ∉ hostOps0_W) : W1 m ρ c (Proc.devRef .tc b) = W0 m ρ c (Proc.devRef .tc b) :=
  StableHlo.after_of_writes_sub hostOps0 _ hostOps0_writes h
theorem W3_keeps (c : Dev nD) (b : Ref sig .tc) (h : b ∉ hostOps1_W) : W3 m ρ c (Proc.devRef .tc b) = W2 m ρ c (Proc.devRef .tc b) :=
  StableHlo.after_of_writes_sub hostOps1 _ hostOps1_writes h
theorem W5_keeps (c : Dev nD) (b : Ref sig .tc) (h : b ∉ hostOps2_W) : W5 m ρ c (Proc.devRef .tc b) = W4 m ρ c (Proc.devRef .tc b) :=
  StableHlo.after_of_writes_sub hostOps2 _ hostOps2_writes h

/-- The node features: an input window of the first region, touched by nothing else. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_keeps m ρ c main_arg0 (by decide)
    _ = W3 m ρ c (Proc.devRef .tc main_arg0) := W4_of_ne m ρ c main_arg0 (by decide)
    _ = W2 m ρ c (Proc.devRef .tc main_arg0) := W3_keeps m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
/-- The adjacency matrix: an input window of the third region, touched by nothing else. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 4).trans (((dat2 (V5 m ρ) c).arrAt_in 4 rfl _).trans (A_eq2 (V5 m ρ) c 4))
    _ = W4 m ρ c (Proc.devRef .tc main_arg1) := W5_keeps m ρ c main_arg1 (by decide)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
/-- The weight matrix: an input window of the first region, touched by nothing else. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keeps m ρ c main_arg2 (by decide)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_keeps m ρ c main_arg2 (by decide)
    _ = m ((c : Thread nD τ).loc main_arg2) := rfl
/-- The attention vector: read by host operations only. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keeps m ρ c main_arg3 (by decide)
    _ = W3 m ρ c (Proc.devRef .tc main_arg3) := W4_of_ne m ρ c main_arg3 (by decide)
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]; refine (hout1 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    rw [Pipeline.ownSems0_none]; refine (hout2 (V5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Hand

end
-- ==== Proof.Bits.R0Body.lean ====
/- REGION 0 of @main (custom_call 0, `cc0__kernel_m_body`, a grid of 8 points over 7 windows), at a parameter `V` — the
   TensorCore's buffer contents when the region is entered: each window's block at a point, what the body leaves in
   each output window's staging buffer as a function of the input blocks, the body's triple, the pipeline's proof data
   `Hand.dat0`, and the body obligation `Hand.body_obligation0`.

   The body has one control case. It reads input windows 0–3 whole, and writes each output window whole through one
   rectangle: window 4 the product `k0_pay1` of windows 0 and 1, window 5 the row sums `k0_pay2` of that product
   against window 2, window 6 the row sums `k0_pay3` of it against window 3. (It also reads each output buffer before
   writing it; what it reads there is used nowhere.) So after the body every input buffer holds its block and every
   output buffer a closed form of the input blocks, and the invariant is the one of a body that touches nothing else:
   the scoped rest and the generator register, untouched. -/
import proofs.«152824_j20873541058924_2_alg».proof.Proof.Gen.Kernel.Launch
import proofs.«152824_j20873541058924_2_alg».proof.Proof.Gen.Kernel.Skeleton
import proofs.«152824_j20873541058924_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the thousands: the elaborator recurses once per coordinate of a long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not, for any proof data whose array is `V`'s (`hA`) and whose body leaves the block in place (`hafter`): an
    unfetched input's block index has not moved since the point before, so the block found is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not, for any proof data whose array is `V`'s (`hA`) and whose body leaves the block in place (`hafter`): an
    unfetched input's block index has not moved since the point before, so the block found is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not, for any proof data whose array is `V`'s (`hA`) and whose body leaves the block in place (`hafter`): an
    unfetched input's block index has not moved since the point before, so the block found is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not, for any proof data whose array is `V`'s (`hA`) and whose body leaves the block in place (`hafter`): an
    unfetched input's block index has not moved since the point before, so the block found is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1024x512 := Rect.unit (s := S1024x512) ![0, 0] S1024x512.size inb_S1024x512_S1024x512_0_0
abbrev rB : Rect S512x256 := Rect.unit (s := S512x256) ![0, 0] S512x256.size inb_S512x256_S512x256_0_0
abbrev rV : Rect S1x256 := Rect.unit (s := S1x256) ![0, 0] S1x256.size inb_S1x256_S1x256_0_0
abbrev rH : Rect S1024x256 := Rect.unit (s := S1024x256) ![0, 0] S1024x256.size inb_S1024x256_S1024x256_0_0
abbrev rC : Rect S1024x1 := Rect.unit (s := S1024x1) ![0, 0] S1024x1.size inb_S1024x1_S1024x1_0_0

/-! ## What the body leaves in each output window's buffer -/

/-- Window 4's staging buffer after the body, from the blocks of windows 0 and 1: its one store, as a piece. -/
def out0_4 (x0 : Vec F S1024x512 .f32) (x1 : Vec F S512x256 .f32) : Vec F S1024x256 .f32 :=
  View.canon [⟨rH, k0_pay1 (View.ld x0 rA) (View.ld x1 rB)⟩]

/-- Window 5's, from the blocks of windows 0, 1 and 2. -/
def out0_5 (x0 : Vec F S1024x512 .f32) (x1 : Vec F S512x256 .f32) (x2 : Vec F S1x256 .f32) : Vec F S1024x1 .f32 :=
  View.canon [⟨rC, k0_pay2 (View.ld x0 rA) (View.ld x1 rB) (View.ld x2 rV)⟩]

/-- Window 6's, from the blocks of windows 0, 1 and 3. -/
def out0_6 (x0 : Vec F S1024x512 .f32) (x1 : Vec F S512x256 .f32) (x3 : Vec F S1x256 .f32) : Vec F S1024x1 .f32 :=
  View.canon [⟨rC, k0_pay3 (View.ld x0 rA) (View.ld x1 rB) (View.ld x3 rV)⟩]

/-- One whole-buffer store tiles the buffer, so it covers it. -/
theorem cover0_4 (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

theorem cover0_5 (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The kernel body on whole staging memrefs, the inputs' at contents `x0 … x3` and the outputs' at anything, runs to
    the continuation holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__kernel_m_body i arg1 harg1 arg2 harg2 arg3 harg3 arg4 harg4 arg5 harg5 arg6 harg6 arg7 harg7) K := by
  simp only [cc0__kernel_m_body_eq_skeleton]; unfold cc0__kernel_m_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core `c`: the arrays as the region finds them (`V`); after the body at point `t`
    each input's buffer at its block and each output's at `out0_W` of the input blocks; the invariant that of a body
    touching nothing but its windows (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and every window's current staging
    buffer at what it then holds, the windows one by one; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Bits.R1Runs.lean ====
/-
  The row-sum kernel (the second of the three kernel regions): what its runs share.

  The grid is 8 row tiles by 8 column tiles, walked row tile by row tile. At the first column tile of a row tile
  the body clears its accumulator (a 1024 x 1 scratch); at every column tile it adds to the accumulator the row sums
  of exp (leaky (src + dst) - m) over that tile's 1024 columns; at the last column tile it copies the accumulator
  into the output block. So the two branch conditions depend on the column coordinate only, and a point is in one
  of three cases: first column (A), a middle column (B), last column (C).
-/
import proofs.«152824_j20873541058924_2_alg».proof.Proof.Gen.Kernel.Launch
import proofs.«152824_j20873541058924_2_alg».proof.Proof.Gen.Kernel.Skeleton
import proofs.«152824_j20873541058924_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first column tile": the accumulator is cleared. -/
abbrev cond1_0 (i : grid1.Coords) : Prop := (Scalar.cmpi .ne (Scalar.extui (Scalar.cmpi .eq (BitVec.ofNat 32 (i 1).val) 0#32)) 0#32) = 1#1
/-- It holds exactly at the points whose number is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column tile": the accumulator is copied out. -/
abbrev cond1_1 (i : grid1.Coords) : Prop := k1_cond2 i = 1#1
/-- It holds exactly at the points whose number is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output block is neither stored into nor written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column tile it is stored into. -/
theorem liveAt1_3 : ∀ t : Fin cfg1.N, cond1_1 (grid1.coords t) → cfg1.idle 3 (grid1.coords t) = false := by decide +kernel

/-! ## The memrefs the body is called with -/

abbrev VO1_3 : View sig .tc .vmem S1024x1 .f32 := (Memref.whole cc1_stg3_0 : Memref sig .tc .vmem S1024x1 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1 .f32 := Memref.whole cc1_scratch0
abbrev VS1 : View sig .tc .vmem S1024x1 .f32 := scM1.view

end Cert.Kernel.Hand

end
-- ==== Proof.Bits.R1RunA.lean ====
/-
  The row-sum kernel at a first column tile (case A): the accumulator is cleared, then the tile's row sums added; the output block is not touched.
-/
import proofs.«152824_j20873541058924_2_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: on whole memrefs — the three input blocks at their contents, the output block at contents handed back untouched, the accumulator at anything —
    it runs to a continuation holding the inputs as they were, the accumulator with its pieces written. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨[], ?_, fun xi3 E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R1RunB.lean ====
/-
  The row-sum kernel at a middle column tile (case B): the tile's row sums are added to the accumulator the point before left; the output block is not touched.
-/
import proofs.«152824_j20873541058924_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: on whole memrefs — the three input blocks at their contents, the output block at contents handed back untouched, the accumulator at what the point before left —
    it runs to a continuation holding the inputs as they were, the accumulator with its pieces written. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨[], ?_, fun xi3 E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Bits.R1RunC.lean ====
/-
  The row-sum kernel at the last column tile (case C): the tile's row sums are added to the accumulator the point before left, and the accumulator is copied into the output block.
-/
import proofs.«152824_j20873541058924_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: on whole memrefs — the three input blocks at their contents, the output block at anything, the accumulator at what the point before left —
    it runs to a continuation holding the inputs as they were, the accumulator with its pieces written and the output block with its pieces written. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel_l_body i arg2 harg2 arg3 harg3 arg4 harg4 arg5 harg5 arg6 harg6) K } := by
  refine ⟨?_, ?_, fun E K => ?run⟩
  case run =>
    simp only [cc1__kernel_l_body_eq_skeleton]; unfold cc1__kernel_l_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.R1Body.lean ====
/-
  The row-sum kernel (the second kernel region): what its output block and its accumulator hold point by point, the
  region's invariant, its proof data and the body obligation, at any contents `V` the region is entered from.

  After point t the accumulator holds, for each of the row tile's 1024 rows, the sum over the column tiles walked so
  far of the tile's row sums; the output block is written once per row tile, at the last column tile.
-/
import proofs.«152824_j20873541058924_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves in the accumulator and in the output block -/

/-- Case A's stores into the accumulator cover it. -/
theorem scover1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) (y : S1024x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1.size (by sl_kernel_rfl) y

/-- What case A leaves in the accumulator: its pieces read back. -/
def sout1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) : Vec F S1024x1 .f32 :=
  VS1.read (Elt F) (VS1.writes (Elt F) VS1.junk (kernelRun1_A c i arg2 harg2 arg3 harg3 arg4 harg4 arg5 harg5 arg6 harg6 hc0 hc1 x0 x1 x2).2.1)

/-- What case A leaves in the output block (nothing is stored: a placeholder no one consults, the window being idle there). -/
def out1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) : Vec F S1024x1 .f32 :=
  VO1_3.read (Elt F) (VO1_3.writes (Elt F) VO1_3.junk (kernelRun1_A c i arg2 harg2 arg3 harg3 arg4 harg4 arg5 harg5 arg6 harg6 hc0 hc1 x0 x1 x2).1)

/-- Case B's stores into the accumulator cover it. -/
theorem scover1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) (y : S1024x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1.size (by sl_kernel_rfl) y

/-- What case B leaves in the accumulator: its pieces read back. -/
def sout1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) : Vec F S1024x1 .f32 :=
  VS1.read (Elt F) (VS1.writes (Elt F) VS1.junk (kernelRun1_B c i arg2 harg2 arg3 harg3 arg4 harg4 arg5 harg5 arg6 harg6 hc0 hc1 x0 x1 x2 xs0).2.1)

/-- What case B leaves in the output block (nothing is stored: a placeholder no one consults, the window being idle there). -/
def out1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) : Vec F S1024x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case C's stores into the accumulator cover it. -/
theorem scover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1.size (by sl_kernel_rfl) y

/-- What case C leaves in the accumulator: its pieces read back. -/
def sout1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) : Vec F S1024x1 .f32 :=
  VS1.read (Elt F) (VS1.writes (Elt F) VS1.junk (kernelRun1_C c i arg2 harg2 arg3 harg3 arg4 harg4 arg5 harg5 arg6 harg6 hc0 hc1 x0 x1 x2 xs0).2.1)

/-- Case C's store into the output block covers it. -/
theorem cover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1.size (by sl_kernel_rfl) y

/-- What case C leaves in the output block: its pieces read back. -/
def out1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) : Vec F S1024x1 .f32 :=
  VO1_3.read (Elt F) (VO1_3.writes (Elt F) VO1_3.junk (kernelRun1_C c i arg2 harg2 arg3 harg3 arg4 harg4 arg5 harg5 arg6 harg6 hc0 hc1 x0 x1 x2 xs0).1)

section Region1b
variable (V : (c : Dev nD) → (b : Ref sig .tc) → Buf (Elt F) ((c : Thread nD τ).loc b))

/-! ## What the output block and the accumulator hold after each point -/

/-- THE ACCUMULATION: what the output block's staging buffer and the accumulator hold after the body at position `n`: the
    case the column coordinate selects, run at the point's memrefs and input blocks, over what the point before left in
    the accumulator. -/
def outsAt1 (c : Dev nD) : (n : ℕ) → n < cfg1.N → Vec F S1024x1 .f32 × Vec F S1024x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core other than this region's staging buffers and its accumulator, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The class's invariant with the accumulator split off as a memref owned at some contents. -/
theorem PhiA1_eq (c : Dev nD) :
    (Pipeline.ΦA spec1 c : sProp 𝕄)
      = iprop(iprop(iprop((∃ d, owns (c : Thread nD τ) scM1 fullShare d)) ∗ restBut1 c) ∗ (∃ r, prngReg c r)) := by
  unfold Pipeline.ΦA; rw [scopedRest1_split]; simp only [scM1, owns_whole]; try rfl

/-- The invariant before position `n`: before the first point every scoped buffer at anything; afterwards the accumulator
    at what the point before left in it, the others at anything; the generator register at some state throughout. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

/-- The region's proof data on core `c`: the arrays as the region finds them; after the body at point `t` each input's
    buffer at its block and the output's at the accumulation's first component; the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the column coordinate says which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_C c _ _ _ _ _ _ _ _ _ _ _ _ _ _ _ _ _)
            iexact Hb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_B c _ _ _ _ _ _ _ _ _ _ _ _ _ _ _ _ _)
            iexact Hb
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hb⟩, Hg⟩
  isplitl [HS0 Hb]
  · isplitl [HS0]
    · iexists _; iexact HS0
    iexact Hb
  iexact Hg

theorem hout1 (c : Dev nD) : (dat1 V c).Φ (Fin.last cfg1.N) ⊢ Pipeline.ΦA spec1 c :=
  Phi_out1 V c _ (by rw [Fin.val_last]; have : cfg1.N = 64 := N_1; omega)

end Region1b

end Cert.Kernel.Hand

end
-- ==== Proof.Bits.R2Runs.lean ====
import proofs.«152824_j20873541058924_2_alg».proof.Proof.Gen.Kernel.Launch
import proofs.«152824_j20873541058924_2_alg».proof.Proof.Gen.Kernel.Skeleton
import proofs.«152824_j20873541058924_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds at the first column of every row tile — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the accumulator stored into the second output). -/
abbrev cond2_1 (i : grid2.Coords) : Prop := k2_cond2 i = 1#1
/-- It holds at the last column of every row tile — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last column the second output is idle and not written back. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- At the last column it is live. -/
theorem liveAt2_7_C : ∀ t : Fin cfg2.N, ¬cond2_0 (grid2.coords t) → cond2_1 (grid2.coords t) → cfg2.idle 7 (grid2.coords t) = false := by decide +kernel

/-! ## The memrefs the body is called with -/

/-- One staging buffer of each output window, through which its contents are stated. -/
abbrev VO2_6 : View sig .tc .vmem S1024x512 .f32 := (Memref.whole cc2_stg6_0 : Memref sig .tc .vmem S1024x512 .f32).view
abbrev VO2_7 : View sig .tc .vmem S1024x256 .f32 := (Memref.whole cc2_stg7_0 : Memref sig .tc .vmem S1024x256 .f32).view
abbrev ms2_0 (t : Fin cfg2.N) : Memref sig .tc .vmem S1024x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x256 .f32 := win2_7.stage (cfg2.slots t 7)
abbrev hs2_7 (t : Fin cfg2.N) : (ms2_7 t).IsWhole := hstage2_7 ((cfg2.slots t 7).cast nbuf2_7)
/-- The accumulator: a whole scoped buffer of the kernel's own, carried between points. -/
abbrev scM2_0 : Memref sig .tc .vmem S1024x256 .f32 := Memref.whole cc2_scratch0
abbrev VS2_0 : View sig .tc .vmem S1024x256 .f32 := scM2_0.view

/-- The scoped rest split at the accumulator; the remainder (the other calls' staging buffers and scratch) unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The scoped rest less the accumulator, each buffer at some contents. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_split]; simp only [scM2_0, owns_whole]; try rfl

set_option maxHeartbeats 4000000 in
/-- The body in case A: on whole staging memrefs, the six inputs' at their contents, the attention tile's at
    anything, the second output's handed back untouched, the accumulator at anything (the case overwrites it whole),
    the body runs to the continuation holding the inputs' as they were and each stored buffer with its pieces
    written; the pieces are the witness the run finds. -/
noncomputable def kernelRun2_A (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) :
    Σ' (L6 : List (View.Piece (Elt F) S1024x512 .f32)) (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, [], ?_, fun xi7 E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- The body in case B: on whole staging memrefs, the six inputs' at their contents, the attention tile's at
    anything, the second output's handed back untouched, the accumulator at what the point before left,
    the body runs to the continuation holding the inputs' as they were and each stored buffer with its pieces
    written; the pieces are the witness the run finds. -/
noncomputable def kernelRun2_B (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    Σ' (L6 : List (View.Piece (Elt F) S1024x512 .f32)) (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, [], ?_, fun xi7 E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

set_option maxHeartbeats 4000000 in
/-- The body in case C: on whole staging memrefs, the six inputs' at their contents, the attention tile's at
    anything, the second output's at anything, the accumulator at what the point before left,
    the body runs to the continuation holding the inputs' as they were and each stored buffer with its pieces
    written; the pieces are the witness the run finds. -/
noncomputable def kernelRun2_C (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    Σ' (L6 : List (View.Piece (Elt F) S1024x512 .f32)) (L7 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc2__kernel_main_body i arg2 harg2 arg3 harg3 arg4 harg4 arg5 harg5 arg6 harg6 arg7 harg7 arg8 harg8 arg9 harg9 arg10 harg10) K } := by
  refine ⟨?_, ?_, ?_, fun E K => ?run⟩
  case run =>
    simp only [cc2__kernel_main_body_eq_skeleton]; unfold cc2__kernel_main_body_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.Kernel.Hand

end
-- ==== Proof.Bits.R2Body.lean ====
import proofs.«152824_j20873541058924_2_alg».proof.Proof.Bits.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it stores into -/

/-- Case A's pieces for the attention tile's staging buffer tile it, so they cover it. -/
theorem cover2_A_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (y : S1024x512.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5).1 S1024x512.size (by sl_kernel_rfl) y

/-- Case A's pieces for the accumulator cover it. -/
theorem scover2_A_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (y : S1024x256.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5).2.2.1 S1024x256.size (by sl_kernel_rfl) y

/-- What case A leaves: the attention tile's buffer, the second output's buffer (no store there: a placeholder nothing consults) and the accumulator,
    each its pieces read back over junk. -/
def outs2_A (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) : Vec F S1024x512 .f32 × Vec F S1024x256 .f32 × Vec F S1024x256 .f32 :=
  (VO2_6.read (Elt F) (VO2_6.writes (Elt F) VO2_6.junk (kernelRun2_A c i arg2 harg2 arg3 harg3 arg4 harg4 arg5 harg5 arg6 harg6 arg7 harg7 arg8 harg8 arg9 harg9 arg10 harg10 hc0 hc1 x0 x1 x2 x3 x4 x5).1),
   VO2_7.read (Elt F) (VO2_7.writes (Elt F) VO2_7.junk (kernelRun2_A c i arg2 harg2 arg3 harg3 arg4 harg4 arg5 harg5 arg6 harg6 arg7 harg7 arg8 harg8 arg9 harg9 arg10 harg10 hc0 hc1 x0 x1 x2 x3 x4 x5).2.1),
   VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3 x4 x5).2.2.1))

/-- Case B's pieces for the attention tile's staging buffer tile it, so they cover it. -/
theorem cover2_B_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x512.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y

/-- Case B's pieces for the accumulator cover it. -/
theorem scover2_B_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 xs0).2.2.1 S1024x256.size (by sl_kernel_rfl) y

/-- What case B leaves: the attention tile's buffer, the second output's buffer (no store there: a placeholder nothing consults) and the accumulator,
    each its pieces read back over junk. -/
def outs2_B (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) : Vec F S1024x512 .f32 × Vec F S1024x256 .f32 × Vec F S1024x256 .f32 :=
  (VO2_6.read (Elt F) (VO2_6.writes (Elt F) VO2_6.junk (kernelRun2_B c i arg2 harg2 arg3 harg3 arg4 harg4 arg5 harg5 arg6 harg6 arg7 harg7 arg8 harg8 arg9 harg9 arg10 harg10 hc0 hc1 x0 x1 x2 x3 x4 x5 xs0).1),
   VO2_7.read (Elt F) (VO2_7.writes (Elt F) VO2_7.junk (kernelRun2_B c i arg2 harg2 arg3 harg3 arg4 harg4 arg5 harg5 arg6 harg6 arg7 harg7 arg8 harg8 arg9 harg9 arg10 harg10 hc0 hc1 x0 x1 x2 x3 x4 x5 xs0).2.1),
   VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 x3 x4 x5 xs0).2.2.1))

/-- Case C's pieces for the attention tile's staging buffer tile it, so they cover it. -/
theorem cover2_C_6 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x512.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).1 S1024x512.size (by sl_kernel_rfl) y

/-- Case C's pieces for the second output's staging buffer tile it, so they cover it. -/
theorem cover2_C_7 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).2.1 S1024x256.size (by sl_kernel_rfl) y

/-- Case C's pieces for the accumulator cover it. -/
theorem scover2_C_0 (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 xs0).2.2.1 S1024x256.size (by sl_kernel_rfl) y

/-- What case C leaves: the attention tile's buffer, the second output's buffer and the accumulator,
    each its pieces read back over junk. -/
def outs2_C (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) : Vec F S1024x512 .f32 × Vec F S1024x256 .f32 × Vec F S1024x256 .f32 :=
  (VO2_6.read (Elt F) (VO2_6.writes (Elt F) VO2_6.junk (kernelRun2_C c i arg2 harg2 arg3 harg3 arg4 harg4 arg5 harg5 arg6 harg6 arg7 harg7 arg8 harg8 arg9 harg9 arg10 harg10 hc0 hc1 x0 x1 x2 x3 x4 x5 xs0).1),
   VO2_7.read (Elt F) (VO2_7.writes (Elt F) VO2_7.junk (kernelRun2_C c i arg2 harg2 arg3 harg3 arg4 harg4 arg5 harg5 arg6 harg6 arg7 harg7 arg8 harg8 arg9 harg9 arg10 harg10 hc0 hc1 x0 x1 x2 x3 x4 x5 xs0).2.1),
   VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 x3 x4 x5 xs0).2.2.1))

/-! ## The windows' blocks at the region's entry contents -/

section Region2
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the buffers hold after each point -/

/-- Case A at point `t` (first column of a row tile). -/
def ptA (c : Dev nD) (t : Fin cfg2.N) (h0 : t.val % 16 = 0) : Vec F S1024x512 .f32 × Vec F S1024x256 .f32 × Vec F S1024x256 .f32 :=
  outs2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)
/-- Case B at point `t` (an inner column), over the accumulator `xs0` the point before left. -/
def ptB (c : Dev nD) (t : Fin cfg2.N) (h0 : ¬t.val % 16 = 0) (h1 : ¬t.val % 16 = 15) (xs0 : Vec F S1024x256 .f32) : Vec F S1024x512 .f32 × Vec F S1024x256 .f32 × Vec F S1024x256 .f32 :=
  outs2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs0
/-- Case C at point `t` (last column of a row tile), over the accumulator `xs0` the point before left. -/
def ptC (c : Dev nD) (t : Fin cfg2.N) (h0 : ¬t.val % 16 = 0) (h1 : t.val % 16 = 15) (xs0 : Vec F S1024x256 .f32) : Vec F S1024x512 .f32 × Vec F S1024x256 .f32 × Vec F S1024x256 .f32 :=
  outs2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs0

/-- THE ACCUMULATION. What the two outputs' staging buffers and the accumulator hold after the body at position `n`:
    the case the column selects, run at the point's memrefs and input blocks, the accumulator read at what
    position `n - 1` left (nothing read at a first column, which resets it). -/
def outsAt2 (c : Dev nD) : (n : ℕ) → n < cfg2.N → Vec F S1024x512 .f32 × Vec F S1024x256 .f32 × Vec F S1024x256 .f32
  | 0, hn => ptA V c ⟨0, hn⟩ (Nat.zero_mod _)
  | n + 1, hn =>
    if h0 : (n + 1) % 16 = 0 then ptA V c ⟨n + 1, hn⟩ h0
    else if h1 : (n + 1) % 16 = 15 then ptC V c ⟨n + 1, hn⟩ h0 h1 (outsAt2 c n (Nat.lt_of_succ_lt hn)).2.2
    else ptB V c ⟨n + 1, hn⟩ h0 h1 (outsAt2 c n (Nat.lt_of_succ_lt hn)).2.2

theorem outsAt2_A (c : Dev nD) (t : Fin cfg2.N) (h0 : t.val % 16 = 0) :
    outsAt2 V c t.val t.isLt = ptA V c t h0 := by
  obtain ⟨n, hn⟩ := t
  cases n with
  | zero => exact rfl
  | succ n => exact (dif_pos h0).trans rfl

theorem outsAt2_B (c : Dev nD) (t : Fin cfg2.N) (h0 : ¬t.val % 16 = 0) (h1 : ¬t.val % 16 = 15) :
    outsAt2 V c t.val t.isLt = ptB V c t h0 h1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 16 = 0) (h1 : t.val % 16 = 15) :
    outsAt2 V c t.val t.isLt = ptC V c t h0 h1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region invariant -/

/-- Before position `n`: before the first point the class's invariant (every scoped buffer at anything); afterwards the
    accumulator at what the point before left in it, the rest of the scoped buffers at anything, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ rest2 (F := F) c) ∗ (∃ r, prngReg c r)) := by
  cases n with
  | zero => exact absurd rfl hz
  | succ n => rfl

/-! ## The pipeline's proof data -/

/-- The proof data of region 2 on core `c`: the arrays as the region finds them; after the body at point `t` each
    input's buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the column says which case the point is in; the
    invariant hands the body the accumulator at what the point before left (at anything at a first column, which
    overwrites it whole) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · have h1 : ¬t.val % 16 = 15 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
    rw [outsAt2_A V c t h0]
    unfold ptA outs2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _)
      iexists _; iexact H7
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold ptC outs2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _)
      unfold owns; iexists _; isplitr
      swap; · iexact H7
      ipureintro; exact View.read_writes_of_cover _ _ _ _ _ (cover2_C_7 c _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold ptB outs2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _)
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.Kernel.Hand

end
-- ==== Proof.Bits.Run.lean ====
/-
  The whole run of the kernel program: host operations, the projection kernel, host operations, the row-sum kernel, host
  operations, the attention kernel. The contents of the core's unscoped buffers are followed from the launch to the
  return — through a stretch of host operations they change as the operations say, through a kernel region the
  region's arrays end at what its pipeline leaves (every write-back of every output folded in) and nothing else
  changes — and the final state holds every unscoped buffer at the last of these contents.
-/
import proofs.«152824_j20873541058924_2_alg».proof.Proof.Bits.R0Body
import proofs.«152824_j20873541058924_2_alg».proof.Proof.Bits.R1Body
import proofs.«152824_j20873541058924_2_alg».proof.Proof.Bits.R2Body
import proofs.«152824_j20873541058924_2_alg».proof.Proof.Gen.Kernel.Regions
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W1_keeps (c : Dev nD) (b : Ref sig .tc) (h : b ∉ hostOps0_W) : W1 m ρ c (Proc.devRef .tc b) = W0 m ρ c (Proc.devRef .tc b) :=
  StableHlo.after_of_writes_sub hostOps0 _ hostOps0_writes h
theorem W3_keeps (c : Dev nD) (b : Ref sig .tc) (h : b ∉ hostOps1_W) : W3 m ρ c (Proc.devRef .tc b) = W2 m ρ c (Proc.devRef .tc b) :=
  StableHlo.after_of_writes_sub hostOps1 _ hostOps1_writes h
theorem W5_keeps (c : Dev nD) (b : Ref sig .tc) (h : b ∉ hostOps2_W) : W5 m ρ c (Proc.devRef .tc b) = W4 m ρ c (Proc.devRef .tc b) :=
  StableHlo.after_of_writes_sub hostOps2 _ hostOps2_writes h

/-- The node features: an input window of the first region, touched by nothing else. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_keeps m ρ c main_arg0 (by decide)
    _ = W3 m ρ c (Proc.devRef .tc main_arg0) := W4_of_ne m ρ c main_arg0 (by decide)
    _ = W2 m ρ c (Proc.devRef .tc main_arg0) := W3_keeps m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
/-- The adjacency matrix: an input window of the third region, touched by nothing else. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 4).trans (((dat2 (V5 m ρ) c).arrAt_in 4 rfl _).trans (A_eq2 (V5 m ρ) c 4))
    _ = W4 m ρ c (Proc.devRef .tc main_arg1) := W5_keeps m ρ c main_arg1 (by decide)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
/-- The weight matrix: an input window of the first region, touched by nothing else. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_keeps m ρ c main_arg2 (by decide)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_keeps m ρ c main_arg2 (by decide)
    _ = m ((c : Thread nD τ).loc main_arg2) := rfl
/-- The attention vector: read by host operations only. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_keeps m ρ c main_arg3 (by decide)
    _ = W3 m ρ c (Proc.devRef .tc main_arg3) := W4_of_ne m ρ c main_arg3 (by decide)
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]; refine (hout1 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    rw [Pipeline.ownSems0_none]; refine (hout2 (V5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Hand

end
-- ==== Proof.RefRun.lean ====
/-
  The run of the reference program: one dense graph-attention layer as thirty-six array operations, none of them a
  kernel. Its @main calls the leaky ReLU, which calls the selection by a mask; a call means the callee's operations
  run at the call site, on the buffers the call names, so the whole program is one straight line of operations:
  thirteen of @main, the seven of the two functions, sixteen more of @main.
  Every execution of that line terminates, and each buffer ends at the composition of the operations that wrote it,
  applied to the four argument arrays, which end unchanged. The compositions are named below, one definition per
  stage (the projected features, the two halves of the logit, the logit, the row maximum, the weights, the row sum,
  the attention, the result), for any float values: nothing here looks inside an operation.
-/
import proofs.«152824_j20873541058924_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The thirty-six operations, in order, the two calls' operations at their call site. -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    binary main_v0 main_v1 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    reshape main_v2 main_v3 rfl shapeCasts_S8192x1_S8192,
    unary main_arg3 main_v4 ((extractStridedSlice S256x1 ![256, 0] · slices_S512x1_S256x1_256_0) : (⟨S512x1, .f32⟩ : BufTy).Contents (Elt F) → (⟨S256x1, .f32⟩ : BufTy).Contents (Elt F)),
    binary main_v0 main_v4 main_v5 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    reshape main_v5 main_v6 rfl shapeCasts_S8192x1_S8192,
    unary main_v3 main_v7 (broadcastInDim S8192x1 ![0] bcast_S8192_S8192x1_0 : (⟨S8192, .f32⟩ : BufTy).Contents (Elt F) → (⟨S8192x1, .f32⟩ : BufTy).Contents (Elt F)),
    unary main_v6 main_v8 (broadcastInDim S1x8192 ![1] bcast_S8192_S1x8192_1 : (⟨S8192, .f32⟩ : BufTy).Contents (Elt F) → (⟨S1x8192, .f32⟩ : BufTy).Contents (Elt F)),
    unary main_v7 main_v9 (broadcastInDim S8192x8192 ![0, 1] bcast_S8192x1_S8192x8192_0_1 : (⟨S8192x1, .f32⟩ : BufTy).Contents (Elt F) → (⟨S8192x8192, .f32⟩ : BufTy).Contents (Elt F)),
    unary main_v8 main_v10 (broadcastInDim S8192x8192 ![0, 1] bcast_S1x8192_S8192x8192_0_1 : (⟨S1x8192, .f32⟩ : BufTy).Contents (Elt F) → (⟨S8192x8192, .f32⟩ : BufTy).Contents (Elt F)),
    binary main_v9 main_v10 main_v11 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v11 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v11 : TRef sig ⟨S8192x8192, .f32⟩) main_call0.v4 mulf,
    TRef.ternary main_call0.v1 (.of main_v11 : TRef sig ⟨S8192x8192, .f32⟩) main_call0.v4 main_call0.call0.v0 select,
    nullary main_cst_0 (constant S_ .f32 0xFF800000#32),
    binary main_v12 main_cst_0 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_2 (constant S_ .f32 0x00000000#32),
    binary main_v19 main_cst_2 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_arg1 main_v24 (mulf : (⟨S8192x8192, .f32⟩ : BufTy).Contents (Elt F) → (⟨S8192x8192, .f32⟩ : BufTy).Contents (Elt F) → (⟨S8192x8192, .f32⟩ : BufTy).Contents (Elt F)),
    binary main_v24 main_v0 main_v25 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)) ]

set_option maxRecDepth 1024 in
/-- @main is that straight line: the two functions' bodies at their calls, the sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., reshape_bufs_sub .., unary_bufs_sub .., binary_bufs_sub .., reshape_bufs_sub .., unary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩

/-! ## The stages, as compositions of the operations -/

section Stages

variable (x : FVec F S8192x512 .f32) (adj : FVec F S8192x8192 .f32) (W : FVec F S512x256 .f32) (a : FVec F S512x1 .f32)

/-- The projected features: the product of the features with the weight matrix. -/
def hT : FVec F S8192x256 .f32 :=
  Host.dotGeneral dot_S8192x512_S512x256_S8192x256_1_0_0_1_n_n none x W

/-- The source half of the logit: the projected features against the first 256 rows of the attention vector, as a vector. -/
def srcT : FVec F S8192 .f32 := fun i =>
  shapeCast S8192 (Host.dotGeneral dot_S8192x256_S256x1_S8192x1_1_0_0_1_n_n none (hT x W)
    (extractStridedSlice S256x1 ![0, 0] a slices_S512x1_S256x1_0_0)) shapeCasts_S8192x1_S8192 i

/-- The destination half of the logit: the same against the last 256 rows. -/
def dstT : FVec F S8192 .f32 := fun i =>
  shapeCast S8192 (Host.dotGeneral dot_S8192x256_S256x1_S8192x1_1_0_0_1_n_n none (hT x W)
    (extractStridedSlice S256x1 ![256, 0] a slices_S512x1_S256x1_256_0)) shapeCasts_S8192x1_S8192 i

/-- The sum of the two halves over every edge: the source half down the rows, the destination half along the columns. -/
def sumT : FVec F S8192x8192 .f32 :=
  addf (broadcastInDim S8192x8192 ![0, 1] bcast_S8192x1_S8192x8192_0_1 (broadcastInDim S8192x1 ![0] bcast_S8192_S8192x1_0 (srcT x W a)))
    (broadcastInDim S8192x8192 ![0, 1] bcast_S1x8192_S8192x8192_0_1 (broadcastInDim S1x8192 ![1] bcast_S8192_S1x8192_1 (dstT x W a)))

/-- The logit: the sum where it is at least zero, the slope times the sum elsewhere. -/
def eT : FVec F S8192x8192 .f32 :=
  select (cmpf .oge (sumT x W a) (broadcastInDim S8192x8192 ![] bcast_S_S8192x8192 (constant S_ .f32 0x00000000#32)))
    (sumT x W a)
    (mulf (broadcastInDim S8192x8192 ![] bcast_S_S8192x8192 (id (constant S_ .f32 0x3E4CCCCD#32))) (sumT x W a))

/-- The row maximum: the maximum over each row from minus infinity, and once more against minus infinity. -/
def mT : FVec F S8192 .f32 :=
  maximumf (broadcastInDim S8192 ![] bcast_S_S8192 (constant S_ .f32 0xFF800000#32))
    (Host.reduce FloatOps.maximumf (eT x W a) (constant S_ .f32 0xFF800000#32) reducesTo_S8192x8192_S8192_d1 h_S_)

/-- The unnormalized weights: the exponential of the logit less its row's maximum. -/
def uT : FVec F S8192x8192 .f32 :=
  Host.exp (subf (eT x W a)
    (broadcastInDim S8192x8192 ![0, 1] bcast_S8192x1_S8192x8192_0_1 (broadcastInDim S8192x1 ![0] bcast_S8192_S8192x1_0 (mT x W a))))

/-- The row sums of the weights. -/
def lT : FVec F S8192 .f32 :=
  Host.reduceAdd (uT x W a) (constant S_ .f32 0x00000000#32) reducesTo_S8192x8192_S8192_d1 h_S_

/-- The attention: each weight divided by its row's sum, times the adjacency entry. -/
def attT : FVec F S8192x8192 .f32 :=
  mulf (Host.divf (uT x W a)
      (broadcastInDim S8192x8192 ![0, 1] bcast_S8192x1_S8192x8192_0_1 (broadcastInDim S8192x1 ![0] bcast_S8192_S8192x1_0 (lT x W a))))
    adj

/-- The result: the attention applied to the projected features. -/
def outT : FVec F S8192x256 .f32 :=
  Host.dotGeneral dot_S8192x8192_S8192x256_S8192x256_1_0_0_1_n_n none (attT x adj W a) (hT x W)

end Stages

/-! ## What each buffer holds after the line -/

section After

variable (V : Valuation τ sig (Elt F))

attribute [local irreducible] Host.reduce Host.reduceAdd broadcastInDim extractStridedSlice shapeCast

set_option maxRecDepth 8192 in
theorem att_eq : after ops V (main_v24 : DevRef τ sig)
    = attT (V (main_arg0 : DevRef τ sig)) (V (main_arg1 : DevRef τ sig)) (V (main_arg2 : DevRef τ sig)) (V (main_arg3 : DevRef τ sig)) := by
  after_results_simp
  rfl

set_option maxRecDepth 8192 in
theorem out_eq : after ops V (main_v25 : DevRef τ sig)
    = outT (V (main_arg0 : DevRef τ sig)) (V (main_arg1 : DevRef τ sig)) (V (main_arg2 : DevRef τ sig)) (V (main_arg3 : DevRef τ sig)) := by
  after_results_simp
  rfl

theorem arg0_eq : after ops V (main_arg0 : DevRef τ sig) = V (main_arg0 : DevRef τ sig) := by after_results_simp
theorem arg1_eq : after ops V (main_arg1 : DevRef τ sig) = V (main_arg1 : DevRef τ sig) := by after_results_simp
theorem arg2_eq : after ops V (main_arg2 : DevRef τ sig) = V (main_arg2 : DevRef τ sig) := by after_results_simp
theorem arg3_eq : after ops V (main_arg3 : DevRef τ sig) = V (main_arg3 : DevRef τ sig) := by after_results_simp

end After

/-- On every device, for any float values, from any memory with zero counters: every weakly fair execution of @main
    terminates; the first result holds `outT` of the four argument arrays' launch contents, the second `attT` of them,
    and the four argument arrays are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = outT (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v24)
          = attT (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (out_eq _), (h c main_v24).trans (att_eq _),
      (h c main_arg0).trans (arg0_eq _), (h c main_arg1).trans (arg1_eq _), (h c main_arg2).trans (arg2_eq _),
      (h c main_arg3).trans (arg3_eq _)⟩)
    (run_seq scopedRefs_eq scopedSems_eq defs main (fun _ => ops) main_eq (fun _ => ops_sub) m ρ)

end Cert.ReferenceIdeal.Value

end
-- ==== Proof.Spec.lean ====
/-
  The mathematics of one dense graph-attention layer over the extended reals, index by index, written twice.

  From node features x (8192 x 512), a weight matrix W (512 x 256) and an attention vector a (512 x 1):
    h i k   = sum over t of x i t * W t k                          the projected features,
    src i   = sum over k of h i k * a k,   dst j = sum over k of h j k * a (256 + k)   the two halves of the logit,
    e i j   = leaky (src i + dst j)                                the logit of the edge (i, j), slope 0.2.
  The result is the row softmax of e, masked by the adjacency matrix, and that matrix applied to h.

  The FIRST writing (row form) is the textbook one: leaky by cases on the sign, the row's maximum a fold of max over
  the row, the weights exp (e - max) divided by their row sum.
  The SECOND writing (closed form) uses that leaky is monotone: the row's maximum is leaky (src i + max dst), the
  leaky itself is max (t, 0.2 t), and the division is a product with the reciprocal 1 / (row sum).
-/
import Idealize.ShloMosaic.PureOps.Ideal
import Idealize.ShloMosaic.Lib.ValueIdx

noncomputable section

namespace Cert.Gat

open Idealize.ShloMosaic Idealize.ShloMosaic.ValueIdx

/-- The float pattern of minus infinity, the value every maximum starts from. -/
abbrev negInf : EReal := Ideal.ofBits .f32 0xFF800000#32
/-- The float pattern of the slope 0.2 (the binary value nearest to 1/5, the same word on both sides). -/
abbrev slope : EReal := Ideal.ofBits .f32 0x3E4CCCCD#32
/-- The float pattern of 1. -/
abbrev one : EReal := Ideal.ofBits .f32 0x3F800000#32

abbrev SX : Shape := ⟨2, ![8192, 512]⟩
abbrev SA : Shape := ⟨2, ![8192, 8192]⟩
abbrev SW : Shape := ⟨2, ![512, 256]⟩
abbrev Sa : Shape := ⟨2, ![512, 1]⟩

variable (x : SX.Idx → EReal) (adj : SA.Idx → EReal) (W : SW.Idx → EReal) (a : Sa.Idx → EReal)

/-- Row k of the first half of the attention vector. -/
def aSrc (k : Fin 256) : EReal := a (ix2 (⟨k.val, by omega⟩ : Fin 512) (0 : Fin 1))
/-- Row k of the second half of the attention vector. -/
def aDst (k : Fin 256) : EReal := a (ix2 (⟨256 + k.val, by omega⟩ : Fin 512) (0 : Fin 1))

/-- The projected features. -/
def h (i : Fin 8192) (k : Fin 256) : EReal := ∑ t : Fin 512, x (ix2 i t) * W (ix2 t k)
/-- The source half of the logit. -/
def src (i : Fin 8192) : EReal := ∑ k : Fin 256, h x W i k * aSrc a k
/-- The destination half of the logit. -/
def dst (j : Fin 8192) : EReal := ∑ k : Fin 256, h x W j k * aDst a k

/-! ## Row form -/

/-- Leaky ReLU by cases on the sign. -/
def leakyCases (t : EReal) : EReal := if 0 ≤ t then t else slope * t
/-- The logit of the edge (i, j). -/
def eRow (i j : Fin 8192) : EReal := leakyCases (src x W a i + dst x W a j)
/-- The row's maximum: a fold of max from minus infinity over the row (and once more against minus infinity). -/
def mRow (i : Fin 8192) : EReal := max negInf ((Finset.univ : Finset (Fin 8192)).fold max negInf fun j => eRow x W a i j)
/-- The unnormalized weight. -/
def uRow (i j : Fin 8192) : EReal := Ideal.exp (eRow x W a i j - mRow x W a i)
/-- The row's sum of weights. -/
def lRow (i : Fin 8192) : EReal := ∑ j : Fin 8192, uRow x W a i j
/-- The masked attention weight. -/
def attRow (i j : Fin 8192) : EReal := Ideal.div (uRow x W a i j) (lRow x W a i) * adj (ix2 i j)
/-- The attention applied to the projected features. -/
def outRow (i : Fin 8192) (k : Fin 256) : EReal := ∑ j : Fin 8192, attRow x adj W a i j * h x W j k

/-! ## Closed form -/

/-- Leaky ReLU as a maximum. -/
def leakyMax (t : EReal) : EReal := max t (slope * t)
/-- The largest destination half. -/
def maxDst : EReal := (Finset.univ : Finset (Fin 8192)).fold max negInf fun j => dst x W a j
/-- The row's maximum in closed form. -/
def mClosed (i : Fin 8192) : EReal := leakyMax (src x W a i + maxDst x W a)
/-- The logit of the edge (i, j). -/
def eClosed (i j : Fin 8192) : EReal := leakyMax (src x W a i + dst x W a j)
/-- The unnormalized weight. -/
def uClosed (i j : Fin 8192) : EReal := Ideal.exp (eClosed x W a i j - mClosed x W a i)
/-- The row's sum of weights. -/
def lClosed (i : Fin 8192) : EReal := ∑ j : Fin 8192, uClosed x W a i j
/-- The reciprocal of the row's sum. -/
def invL (i : Fin 8192) : EReal := Ideal.div one (lClosed x W a i)
/-- The masked attention weight. -/
def attClosed (i j : Fin 8192) : EReal := uClosed x W a i j * invL x W a i * adj (ix2 i j)
/-- The attention applied to the projected features. -/
def outClosed (i : Fin 8192) (k : Fin 256) : EReal := ∑ j : Fin 8192, attClosed x adj W a i j * h x W j k

end Cert.Gat

end
-- ==== Proof.HostValue.lean ====
/-
  The kernel program's second and third stretches of array operations on the host, read at an index over the extended
  reals, for any contents of the buffers they start from.
  The second stretch turns the column of destination halves into a row (a reshape: entry (0, j) of the row is entry
  (j, 0) of the column); takes the column's maximum over all its entries from minus infinity; adds that maximum to every
  source half; and applies the leaky ReLU as a maximum, max (t, slope * t). So its last array holds, at row i, the leaky
  ReLU of the source half plus the largest destination half.
  The third stretch divides the float pattern of 1 by each entry of a column: the reciprocal of the row sums.
  A maximum over both axes of a column of 8192 entries and one column is a fold of max over all its indices, and those
  are the indices (j, 0) for j below 8192.
-/
import proofs.«152824_j20873541058924_2_alg».proof.Proof.Gen.KernelIdeal.Launch
import proofs.«152824_j20873541058924_2_alg».proof.Proof.Spec
import Idealize.ShloMosaic.Lib.StableHlo.Run
import Idealize.ShloMosaic.PureOps.Ideal.Laws
import Idealize.ShloMosaic.Lib.IdealHost
import Idealize.ShloMosaic.Lib.ValueLayout

noncomputable section

namespace Cert.KernelIdeal.Hand

open Cert.KernelIdeal Cert.KernelIdeal.Gen Idealize.ShloMosaic Idealize.ShloMosaic.TcCoe Idealize.ShloMosaic.StableHlo
  Idealize.ShloMosaic.ValueIdx

/-! ## A column's indices are the rows -/

/-- The indices of a column of 8192 entries are (j, 0), j below 8192. -/
def colEquiv : Fin 8192 ≃ S8192x1.Idx where
  toFun j := ix2 j (0 : Fin 1)
  invFun p := p 0
  left_inv _ := rfl
  right_inv p := by
    funext d
    match d with
    | ⟨0, _⟩ => rfl
    | ⟨1, _⟩ => exact Fin.ext (by have := idx2_lt1 p; show 0 = (p 1).val; omega)

/-- The maximum of a column over both its axes, from minus infinity: the fold of max over the rows. -/
theorem maxAll_apply (v : FVec Ideal S8192x1 .f32) :
    Host.reduce FloatOps.maximumf v (constant (F := Ideal) S_ .f32 0xFF800000#32) reducesTo_S8192x1_S_d0_1 h_S_ ix0
      = (Finset.univ : Finset (Fin 8192)).fold max Cert.Gat.negInf fun j => v (ix2 j (0 : Fin 1)) := by
  haveI : Subsingleton S_.Idx := ⟨fun u w => funext fun d => d.elim0⟩
  rw [Host.reduce_eq_fold, Finset.filter_true_of_mem (fun i _ => Subsingleton.elim _ _),
    ← Finset.map_univ_equiv colEquiv, Finset.fold_map]
  rfl

/-! ## The stretches' results as compositions of their operations -/

/-- The source halves plus the largest destination half, as the second stretch computes it. -/
def sumMax (u1 u2 : FVec Ideal S8192x1 .f32) : FVec Ideal S8192x1 .f32 :=
  addf u1 (broadcastInDim S8192x1 ![] bcast_S_S8192x1
    (Host.reduce FloatOps.maximumf u2 (constant S_ .f32 0xFF800000#32) reducesTo_S8192x1_S_d0_1 h_S_))

theorem sumMax_apply (u1 u2 : FVec Ideal S8192x1 .f32) (i : Fin 8192) :
    sumMax u1 u2 (ix2 i (0 : Fin 1))
      = u1 (ix2 i (0 : Fin 1)) + (Finset.univ : Finset (Fin 8192)).fold max Cert.Gat.negInf fun j => u2 (ix2 j (0 : Fin 1)) := by
  unfold sumMax
  rw [addf_apply, broadcastInDim_scalar_apply, maxAll_apply]

variable (Wv : Valuation τ sig (Elt Ideal))

section After

attribute [local irreducible] Host.reduce broadcastInDim shapeCast

theorem v7_eq : after (hostOps1 (F := Ideal)) Wv (Proc.devRef .tc main_v7)
    = shapeCast S1x8192 (Wv (Proc.devRef .tc main_v6_2)) shapeCasts_S8192x1_S1x8192 := by
  after_results
  rfl

theorem v13_eq : after (hostOps1 (F := Ideal)) Wv (Proc.devRef .tc main_v13)
    = maximumf (sumMax (Wv (Proc.devRef .tc main_v6_1)) (Wv (Proc.devRef .tc main_v6_2)))
        (mulf (broadcastInDim S8192x1 ![] bcast_S_S8192x1 (constant (F := Ideal) S_ .f32 0x3E4CCCCD#32))
          (sumMax (Wv (Proc.devRef .tc main_v6_1)) (Wv (Proc.devRef .tc main_v6_2)))) := by
  after_results
  rfl

theorem v16_eq : after (hostOps2 (F := Ideal)) Wv (Proc.devRef .tc main_v16)
    = Host.divf (broadcastInDim S8192x1 ![] bcast_S_S8192x1 (constant (F := Ideal) S_ .f32 0x3F800000#32))
        (Wv (Proc.devRef .tc main_v14)) := by
  after_results

end After

/-! ## Read at an index -/

/-- The row of destination halves: entry (0, j) is entry (j, 0) of the column. -/
theorem host1_v7 (j : Fin 8192) :
    (after (hostOps1 (F := Ideal)) Wv (Proc.devRef .tc main_v7)) (ix2 (0 : Fin 1) j)
      = (Wv (Proc.devRef .tc main_v6_2)) (ix2 j (0 : Fin 1)) := by
  rw [v7_eq]
  exact shapeCast_apply _ _ (ix2 (0 : Fin 1) j) (ix2 j (0 : Fin 1)) (by
    rw [Shape.rowMajor_val_two, Shape.rowMajor_val_two]
    show j.val * 1 + 0 = 0 * 8192 + j.val
    omega)

/-- The row maximum in closed form: the leaky ReLU, as a maximum, of the source half plus the largest destination half. -/
theorem host1_v13 (i : Fin 8192) :
    (after (hostOps1 (F := Ideal)) Wv (Proc.devRef .tc main_v13)) (ix2 i (0 : Fin 1))
      = Cert.Gat.leakyMax (@HAdd.hAdd EReal EReal EReal instHAdd ((Wv (Proc.devRef .tc main_v6_1)) (ix2 i (0 : Fin 1)))
          ((Finset.univ : Finset (Fin 8192)).fold max Cert.Gat.negInf
              fun j => (Wv (Proc.devRef .tc main_v6_2)) (ix2 j (0 : Fin 1)))) := by
  rw [v13_eq]
  unfold Cert.Gat.leakyMax
  rw [maximumf_apply, mulf_apply, broadcastInDim_scalar_apply, constant_apply, sumMax_apply]

/-- The reciprocal of the row sums: the float pattern of 1 divided by the entry. -/
theorem host2_v16 (i : Fin 8192) :
    (after (hostOps2 (F := Ideal)) Wv (Proc.devRef .tc main_v16)) (ix2 i (0 : Fin 1))
      = Ideal.div Cert.Gat.one ((Wv (Proc.devRef .tc main_v14) : FVec Ideal S8192x1 .f32) (ix2 i (0 : Fin 1))) := by
  rw [v16_eq, hostDivf_apply, broadcastInDim_scalar_apply, constant_apply]

end Cert.KernelIdeal.Hand

end
-- ==== Proof.Keep.lean ====
/-
  The contents of the kernel program's buffers at the entry of each kernel region and at the return, traced back to
  what wrote them. A buffer keeps its contents through a stretch of host operations that does not write it, through a
  kernel region that does not window it, and through a region that only reads it; an output of a region holds what the
  region's pipeline leaves; and the three arrays the host computes between the regions are read at an index: the row of
  destination halves, the row maximum in closed form, and the reciprocal of the row sums.
-/
import proofs.«152824_j20873541058924_2_alg».proof.Proof.Run
import proofs.«152824_j20873541058924_2_alg».proof.Proof.HostValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-! ## At the first region's entry -/

/-- The node features are as launched. -/
theorem V1_main_arg0 : V1 m ρ c main_arg0 = m ((c : Thread nD τ).loc main_arg0) :=
  (W1_keeps m ρ c main_arg0 (by decide)).trans rfl
/-- The weight matrix is as launched. -/
theorem V1_main_arg2 : V1 m ρ c main_arg2 = m ((c : Thread nD τ).loc main_arg2) :=
  (W1_keeps m ρ c main_arg2 (by decide)).trans rfl

/-! ## At the second region's entry -/

/-- What the first region leaves in its three outputs, as the second stretch of host operations finds them. -/
theorem W2_main_v6_0 : W2 m ρ c (Proc.devRef .tc main_v6_0) = (dat0 (V1 m ρ) c).arrAt 4 cfg0.N := W2_arr m ρ c 4
theorem W2_main_v6_1 : W2 m ρ c (Proc.devRef .tc main_v6_1) = (dat0 (V1 m ρ) c).arrAt 5 cfg0.N := W2_arr m ρ c 5
theorem W2_main_v6_2 : W2 m ρ c (Proc.devRef .tc main_v6_2) = (dat0 (V1 m ρ) c).arrAt 6 cfg0.N := W2_arr m ρ c 6

/-- The source halves: the first region's second output, which the host operations do not write. -/
theorem V3_main_v6_1 : V3 m ρ c main_v6_1 = (dat0 (V1 m ρ) c).arrAt 5 cfg0.N :=
  (W3_keeps m ρ c main_v6_1 (by decide)).trans (W2_main_v6_1 m ρ c)

/-- The row of destination halves: entry (0, j) is entry (j, 0) of the first region's third output. -/
theorem V3_main_v7 (j : Fin 8192) :
    (V3 m ρ c main_v7) (ix2 (0 : Fin 1) j) = ((dat0 (V1 m ρ) c).arrAt 6 cfg0.N) (ix2 j (0 : Fin 1)) := by
  have h := host1_v7 (W2 m ρ c) j
  rw [W2_main_v6_2 m ρ c] at h
  exact h

/-- The row maximum in closed form: the leaky ReLU, as a maximum, of the source half plus the largest destination half. -/
theorem V3_main_v13 (i : Fin 8192) :
    (V3 m ρ c main_v13) (ix2 i (0 : Fin 1))
      = Cert.Gat.leakyMax (@HAdd.hAdd EReal EReal EReal instHAdd (((dat0 (V1 m ρ) c).arrAt 5 cfg0.N) (ix2 i (0 : Fin 1)))
          ((Finset.univ : Finset (Fin 8192)).fold max Cert.Gat.negInf
            fun j => ((dat0 (V1 m ρ) c).arrAt 6 cfg0.N) (ix2 j (0 : Fin 1)))) := by
  have h := host1_v13 (W2 m ρ c) i
  rw [W2_main_v6_1 m ρ c, W2_main_v6_2 m ρ c] at h
  exact h

/-! ## At the third region's entry -/

/-- The source halves again: read, not written, by the second region. -/
theorem V5_main_v6_1 : V5 m ρ c main_v6_1 = (dat0 (V1 m ρ) c).arrAt 5 cfg0.N :=
  calc W5 m ρ c (Proc.devRef .tc main_v6_1)
    _ = W4 m ρ c (Proc.devRef .tc main_v6_1) := W5_keeps m ρ c main_v6_1 (by decide)
    _ = W3 m ρ c (Proc.devRef .tc main_v6_1) := (W4_arr m ρ c 0).trans (((dat1 (V3 m ρ) c).arrAt_in 0 rfl _).trans (A_eq1 (V3 m ρ) c 0))
    _ = (dat0 (V1 m ρ) c).arrAt 5 cfg0.N := V3_main_v6_1 m ρ c

/-- The row of destination halves is the one the second region read. -/
theorem V5_main_v7 : V5 m ρ c main_v7 = V3 m ρ c main_v7 :=
  calc W5 m ρ c (Proc.devRef .tc main_v7)
    _ = W4 m ρ c (Proc.devRef .tc main_v7) := W5_keeps m ρ c main_v7 (by decide)
    _ = W3 m ρ c (Proc.devRef .tc main_v7) := (W4_arr m ρ c 1).trans (((dat1 (V3 m ρ) c).arrAt_in 1 rfl _).trans (A_eq1 (V3 m ρ) c 1))

/-- The row maximum is the one the second region read. -/
theorem V5_main_v13 : V5 m ρ c main_v13 = V3 m ρ c main_v13 :=
  calc W5 m ρ c (Proc.devRef .tc main_v13)
    _ = W4 m ρ c (Proc.devRef .tc main_v13) := W5_keeps m ρ c main_v13 (by decide)
    _ = W3 m ρ c (Proc.devRef .tc main_v13) := (W4_arr m ρ c 2).trans (((dat1 (V3 m ρ) c).arrAt_in 2 rfl _).trans (A_eq1 (V3 m ρ) c 2))

/-- What the second region leaves in its output, as the third stretch of host operations finds it. -/
theorem W4_main_v14 : W4 m ρ c (Proc.devRef .tc main_v14) = (dat1 (V3 m ρ) c).arrAt 3 cfg1.N := W4_arr m ρ c 3

/-- The reciprocal of the row sums: the float pattern of 1 divided by the second region's output. -/
theorem V5_main_v16 (i : Fin 8192) :
    (V5 m ρ c main_v16) (ix2 i (0 : Fin 1))
      = Ideal.div Cert.Gat.one (((dat1 (V3 m ρ) c).arrAt 3 cfg1.N) (ix2 i (0 : Fin 1))) := by
  have h := host2_v16 (W4 m ρ c) i
  rw [W4_main_v14 m ρ c] at h
  exact h

/-- The adjacency matrix is as launched. -/
theorem V5_main_arg1 : V5 m ρ c main_arg1 = m ((c : Thread nD τ).loc main_arg1) :=
  calc W5 m ρ c (Proc.devRef .tc main_arg1)
    _ = W4 m ρ c (Proc.devRef .tc main_arg1) := W5_keeps m ρ c main_arg1 (by decide)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl

/-- The projected features: the first region's first output, touched by nothing since. -/
theorem V5_main_v6_0 : V5 m ρ c main_v6_0 = (dat0 (V1 m ρ) c).arrAt 4 cfg0.N :=
  calc W5 m ρ c (Proc.devRef .tc main_v6_0)
    _ = W4 m ρ c (Proc.devRef .tc main_v6_0) := W5_keeps m ρ c main_v6_0 (by decide)
    _ = W3 m ρ c (Proc.devRef .tc main_v6_0) := W4_of_ne m ρ c main_v6_0 (by decide)
    _ = W2 m ρ c (Proc.devRef .tc main_v6_0) := W3_keeps m ρ c main_v6_0 (by decide)
    _ = (dat0 (V1 m ρ) c).arrAt 4 cfg0.N := W2_main_v6_0 m ρ c

/-! ## At the return -/

/-- The attention matrix: the third region's first output. -/
theorem W6_main_v17_0 : W6 m ρ c (Proc.devRef .tc main_v17_0) = (dat2 (V5 m ρ) c).arrAt 6 cfg2.N := W6_arr m ρ c 6
/-- The result: the third region's second output. -/
theorem W6_main_v17_1 : W6 m ρ c (Proc.devRef .tc main_v17_1) = (dat2 (V5 m ρ) c).arrAt 7 cfg2.N := W6_arr m ρ c 7

end Cert.KernelIdeal.Hand

end
-- ==== Proof.R0ValuePay.lean ====
/- The payloads of region 0's body read at an index, over the extended reals: the product of windows 0 and 1 as a sum
   over the contracted coordinate, and the two row sums of that product against a 256-entry row. Stated over variables
   of the literal vector types, for any contents. -/
import proofs.«152824_j20873541058924_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Hand.R0

open Cert.KernelIdeal Cert.KernelIdeal.Gen
open Idealize.ShloMosaic Idealize.ShloMosaic.ValueIdx

/-- The body's matrix product: rows of the left operand against columns of the right, one contracted axis. -/
abbrev dotAB : DotDims S1024x512 S512x256 S1024x256 := dot_S1024x512_S512x256_S1024x256_1_0_0_1_n_n

/-- Entry (p, q) of the product payload is the sum over t of x0 (p, t) * x1 (t, q): the narrowing of the operands is
    the identity on extended reals, and the accumulator is the zero splat. -/
theorem pay1_apply (x0 : Vec Ideal S1024x512 .f32) (x1 : Vec Ideal S512x256 .f32) (p : Fin 1024) (q : Fin 256) :
    k0_pay1 x0 x1 (ix2 p q) = ∑ t : Fin 512, x0 (ix2 p t) * x1 (ix2 t q) := by
  unfold k0_pay1
  show FloatOps.matmul dotAB none _ _ (constant S1024x256 .f32 0x00000000#32) (ix2 p q) = _
  rw [Ideal.matmul_constant_zero_apply, ← Equiv.sum_comp (contrEquiv1 dotAB 512 rfl rfl).symm]
  refine Finset.sum_congr rfl fun t _ => ?_
  have ct := contrEquiv1_symm_val dotAB 512 rfl rfl t
  have l : dotAB.lhsIdx (ix2 p q) ((contrEquiv1 dotAB 512 rfl rfl).symm t) = ix2 p t := by
    funext ax; apply Fin.ext
    match ax with
    | ⟨0, _⟩ => simp [DotDims.lhsIdx, dotAB, dot_S1024x512_S512x256_S1024x256_1_0_0_1_n_n]; rfl
    | ⟨1, _⟩ => exact (dotAB.lhsIdx_val_of_single (cl := 1) rfl _ _).trans ct
  have r : dotAB.rhsIdx (ix2 p q) ((contrEquiv1 dotAB 512 rfl rfl).symm t) = ix2 t q := by
    funext ax; apply Fin.ext
    match ax with
    | ⟨0, _⟩ => exact (dotAB.rhsIdx_val_of_single (cr := 0) rfl _ _).trans ct
    | ⟨1, _⟩ => simp [DotDims.rhsIdx, dotAB, dot_S1024x512_S512x256_S1024x256_1_0_0_1_n_n]; rfl
  rw [l, r]
  rfl

/-- A vector of `a` entries cast to one column reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row sum of a 1024 x 256 vector against one row of 256 entries, kept as a column: entry (p, 0) is the sum over
    k of g (p, k) * v (0, k). -/
theorem rowDot_apply (g : FVec Ideal S1024x256 .f32) (v : Vec Ideal S1x256 .f32)
    (hacc : (0x00000000#32 : BitVec 32) = 0x00000000#32) (p : Fin 1024) (u : Fin 1) :
    shapeCast S1024x1 (multiReduction (F := Ideal) .add [1] S1024
        (mulf g (broadcastTo S1024x256 (shapeCast S1x256 v shapeCasts_S1x256_S1x256) broadcasts_S1x256_S1024x256))
        0x00000000#32 reduces_S1024x256_S1024 (.inl rfl) hacc) shapeCasts_S1024_S1024x1 (ix2 p u)
      = ∑ k : Fin 256, g (ix2 p k) * v (ix2 (0 : Fin 1) k) := by
  rw [shapeCast_a_a1_apply]
  refine (Ideal.multiReduction_add_single _ (0x00000000#32 : BitVec 32) reduces_S1024x256_S1024 (.inl rfl) hacc (ix1 p)).trans ?_
  show ∑ k : Fin 256, mulf g (broadcastTo S1024x256 (shapeCast S1x256 v shapeCasts_S1x256_S1x256) broadcasts_S1x256_S1024x256)
    (reduces_S1024x256_S1024.lift (ix1 p) k) = _
  refine Finset.sum_congr rfl fun k _ => ?_
  have hl : reduces_S1024x256_S1024.lift (ix1 p) k = ix2 p k := by
    funext ax; apply Fin.ext
    match ax with
    | ⟨0, _⟩ => rfl
    | ⟨1, _⟩ => rfl
  rw [hl, mulf_apply, broadcastTo_1b_ab_apply, shapeCast_self]

/-- Entry (p, 0) of the second payload: the product payload's row p against window 2's row. -/
theorem pay2_apply (x0 : Vec Ideal S1024x512 .f32) (x1 : Vec Ideal S512x256 .f32) (x2 : Vec Ideal S1x256 .f32) (p : Fin 1024) (u : Fin 1) :
    k0_pay2 x0 x1 x2 (ix2 p u) = ∑ k : Fin 256, k0_pay1 x0 x1 (ix2 p k) * x2 (ix2 (0 : Fin 1) k) := by
  unfold k0_pay2
  exact rowDot_apply (k0_pay1 x0 x1) x2 rfl p u

/-- Entry (p, 0) of the third payload: the product payload's row p against window 3's row. -/
theorem pay3_apply (x0 : Vec Ideal S1024x512 .f32) (x1 : Vec Ideal S512x256 .f32) (x3 : Vec Ideal S1x256 .f32) (p : Fin 1024) (u : Fin 1) :
    k0_pay3 x0 x1 x3 (ix2 p u) = ∑ k : Fin 256, k0_pay1 x0 x1 (ix2 p k) * x3 (ix2 (0 : Fin 1) k) := by
  unfold k0_pay3
  exact rowDot_apply (k0_pay1 x0 x1) x3 rfl p u

end Cert.KernelIdeal.Hand.R0

end
-- ==== Proof.R0Value.lean ====
/- The VALUE of region 0: what the three output arrays hold when the region ends, index by index over the extended reals,
   as functions of the arrays the region finds (`V`): the projected features, and their two row sums against the two
   rows of the attention vector. Each point writes back its block of one whole-array function, and the eight points'
   blocks (1024 rows each) cover the 8192 rows. -/
import proofs.«152824_j20873541058924_2_alg».proof.Proof.R0Body
import proofs.«152824_j20873541058924_2_alg».proof.Proof.R0ValuePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

namespace R0

/-! ## The three functions -/

/-- Entry (r, q) of the product of an 8192 x 512 by a 512 x 256 array. -/
def prodAt (X : S8192x512.Idx → EReal) (W : S512x256.Idx → EReal) (r : Fin 8192) (q : Fin 256) : EReal :=
  ∑ t : Fin 512, X (ix2 r t) * W (ix2 t q)

/-- Row r of that product against one row of 256 entries. -/
def rowAt (X : S8192x512.Idx → EReal) (W : S512x256.Idx → EReal) (A : S1x256.Idx → EReal) (r : Fin 8192) : EReal :=
  ∑ k : Fin 256, prodAt X W r k * A (ix2 (0 : Fin 1) k)

/-- The product as an array. -/
abbrev prodArr (X : S8192x512.Idx → EReal) (W : S512x256.Idx → EReal) : S8192x256.Idx → EReal :=
  fun i => prodAt X W ⟨(i 0).val, idx2_lt0 i⟩ ⟨(i 1).val, idx2_lt1 i⟩

/-- The row sums as a column. -/
abbrev rowArr (X : S8192x512.Idx → EReal) (W : S512x256.Idx → EReal) (A : S1x256.Idx → EReal) : S8192x1.Idx → EReal :=
  fun i => rowAt X W A ⟨(i 0).val, idx2_lt0 i⟩

theorem prodAt_def (X : S8192x512.Idx → EReal) (W : S512x256.Idx → EReal) (r : Fin 8192) (q : Fin 256) :
    prodAt X W r q = ∑ t : Fin 512, X (ix2 r t) * W (ix2 t q) := rfl
theorem rowAt_def (X : S8192x512.Idx → EReal) (W : S512x256.Idx → EReal) (A : S1x256.Idx → EReal) (r : Fin 8192) :
    rowAt X W A r = ∑ k : Fin 256, (∑ t : Fin 512, X (ix2 r t) * W (ix2 t k)) * A (ix2 (0 : Fin 1) k) := rfl

/-! ## A block's payload is the block of the function -/

/-- The product payload of two blocks, at a block index whose row reads row r of X through the left block and whose
    column reads column q of W through the right one, is entry (r, q) of the product. -/
theorem pay1_block (x0 : Vec Ideal S1024x512 .f32) (x1 : Vec Ideal S512x256 .f32) (X : S8192x512.Idx → EReal) (W : S512x256.Idx → EReal)
    (j : S1024x256.Idx) (r : Fin 8192) (q : Fin 256)
    (h0 : ∀ t : Fin 512, x0 (ix2 (⟨(j 0).val, idx2_lt0 j⟩ : Fin 1024) t) = X (ix2 r t))
    (h1 : ∀ t : Fin 512, x1 (ix2 t (⟨(j 1).val, idx2_lt1 j⟩ : Fin 256)) = W (ix2 t q)) :
    k0_pay1 x0 x1 j = prodAt X W r q := by
  obtain ⟨p, s, rfl⟩ : ∃ (p : Fin 1024) (s : Fin 256), j = ix2 p s := ⟨j 0, j 1, eq_ix2 j⟩
  rw [pay1_apply]
  unfold prodAt
  exact Finset.sum_congr rfl fun t _ => by rw [← h0 t, ← h1 t]

/-- The row-sum payloads likewise: the left block's row reads row r of X, the right block is W, the row block is A. -/
theorem pay2_block (x0 : Vec Ideal S1024x512 .f32) (x1 : Vec Ideal S512x256 .f32) (x2 : Vec Ideal S1x256 .f32)
    (X : S8192x512.Idx → EReal) (W : S512x256.Idx → EReal) (A : S1x256.Idx → EReal) (j : S1024x1.Idx) (r : Fin 8192)
    (h0 : ∀ t : Fin 512, x0 (ix2 (⟨(j 0).val, idx2_lt0 j⟩ : Fin 1024) t) = X (ix2 r t))
    (h1 : ∀ (t : Fin 512) (k : Fin 256), x1 (ix2 t k) = W (ix2 t k))
    (h2 : ∀ k : Fin 256, x2 (ix2 (0 : Fin 1) k) = A (ix2 (0 : Fin 1) k)) :
    k0_pay2 x0 x1 x2 j = rowAt X W A r := by
  obtain ⟨p, u, rfl⟩ : ∃ (p : Fin 1024) (u : Fin 1), j = ix2 p u := ⟨j 0, j 1, eq_ix2 j⟩
  rw [pay2_apply]
  unfold rowAt
  refine Finset.sum_congr rfl fun k _ => ?_
  rw [h2 k, pay1_block x0 x1 X W (ix2 p k) r k h0 (fun t => h1 t k)]

theorem pay3_block (x0 : Vec Ideal S1024x512 .f32) (x1 : Vec Ideal S512x256 .f32) (x3 : Vec Ideal S1x256 .f32)
    (X : S8192x512.Idx → EReal) (W : S512x256.Idx → EReal) (A : S1x256.Idx → EReal) (j : S1024x1.Idx) (r : Fin 8192)
    (h0 : ∀ t : Fin 512, x0 (ix2 (⟨(j 0).val, idx2_lt0 j⟩ : Fin 1024) t) = X (ix2 r t))
    (h1 : ∀ (t : Fin 512) (k : Fin 256), x1 (ix2 t k) = W (ix2 t k))
    (h3 : ∀ k : Fin 256, x3 (ix2 (0 : Fin 1) k) = A (ix2 (0 : Fin 1) k)) :
    k0_pay3 x0 x1 x3 j = rowAt X W A r := by
  obtain ⟨p, u, rfl⟩ : ∃ (p : Fin 1024) (u : Fin 1), j = ix2 p u := ⟨j 0, j 1, eq_ix2 j⟩
  rw [pay3_apply]
  unfold rowAt
  refine Finset.sum_congr rfl fun k _ => ?_
  rw [h3 k, pay1_block x0 x1 X W (ix2 p k) r k h0 (fun t => h1 t k)]

/-- The same against the arrays' own indices: block index j sits at array index i, b rows down. -/
theorem pay1_blockArr (x0 : Vec Ideal S1024x512 .f32) (x1 : Vec Ideal S512x256 .f32) (X : S8192x512.Idx → EReal) (W : S512x256.Idx → EReal)
    (j : S1024x256.Idx) (i : S8192x256.Idx) (b : Nat)
    (h0 : ∀ (p : Fin 1024) (r : Fin 8192), r.val = b + p.val → ∀ t : Fin 512, x0 (ix2 p t) = X (ix2 r t))
    (h1 : ∀ (t : Fin 512) (k : Fin 256), x1 (ix2 t k) = W (ix2 t k))
    (hi0 : (i 0).val = b + (j 0).val) (hi1 : (i 1).val = (j 1).val) :
    k0_pay1 x0 x1 j = prodArr X W i :=
  pay1_block x0 x1 X W j ⟨(i 0).val, idx2_lt0 i⟩ ⟨(i 1).val, idx2_lt1 i⟩ (fun t => h0 _ _ hi0 t)
    (fun t => (h1 t _).trans (congrArg W (congrArg (ix2 t) (Fin.ext hi1.symm))))

theorem pay2_blockArr (x0 : Vec Ideal S1024x512 .f32) (x1 : Vec Ideal S512x256 .f32) (x2 : Vec Ideal S1x256 .f32)
    (X : S8192x512.Idx → EReal) (W : S512x256.Idx → EReal) (A : S1x256.Idx → EReal) (j : S1024x1.Idx) (i : S8192x1.Idx) (b : Nat)
    (h0 : ∀ (p : Fin 1024) (r : Fin 8192), r.val = b + p.val → ∀ t : Fin 512, x0 (ix2 p t) = X (ix2 r t))
    (h1 : ∀ (t : Fin 512) (k : Fin 256), x1 (ix2 t k) = W (ix2 t k))
    (h2 : ∀ k : Fin 256, x2 (ix2 (0 : Fin 1) k) = A (ix2 (0 : Fin 1) k))
    (hi0 : (i 0).val = b + (j 0).val) :
    k0_pay2 x0 x1 x2 j = rowArr X W A i :=
  pay2_block x0 x1 x2 X W A j ⟨(i 0).val, idx2_lt0 i⟩ (fun t => h0 _ _ hi0 t) h1 h2

theorem pay3_blockArr (x0 : Vec Ideal S1024x512 .f32) (x1 : Vec Ideal S512x256 .f32) (x3 : Vec Ideal S1x256 .f32)
    (X : S8192x512.Idx → EReal) (W : S512x256.Idx → EReal) (A : S1x256.Idx → EReal) (j : S1024x1.Idx) (i : S8192x1.Idx) (b : Nat)
    (h0 : ∀ (p : Fin 1024) (r : Fin 8192), r.val = b + p.val → ∀ t : Fin 512, x0 (ix2 p t) = X (ix2 r t))
    (h1 : ∀ (t : Fin 512) (k : Fin 256), x1 (ix2 t k) = W (ix2 t k))
    (h3 : ∀ k : Fin 256, x3 (ix2 (0 : Fin 1) k) = A (ix2 (0 : Fin 1) k))
    (hi0 : (i 0).val = b + (j 0).val) :
    k0_pay3 x0 x1 x3 j = rowArr X W A i :=
  pay3_block x0 x1 x3 X W A j ⟨(i 0).val, idx2_lt0 i⟩ (fun t => h0 _ _ hi0 t) h1 h3

/-! ## The printed index maps, decided over the grid -/

theorem hz0 : (![0, 0] : Fin 2 → Nat) = fun _ => 0 := funext fun a => by fin_cases a <;> rfl

/-- Windows 0, 4, 5, 6 move with the point along the rows; windows 1, 2, 3 stay at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section Region0
variable (V : (c : Dev nD) → (b : Ref sig .tc) → Buf (Elt Ideal) ((c : Thread nD τ).loc b))

/-! ## The input blocks read where the output's rectangle says -/

/-- Row p of window 0's block at point t is row t * 1024 + p of the array. -/
theorem blk0_row (c : Dev nD) (t : Fin cfg0.N) (p : Fin 1024) (r : Fin 8192) (hr : r.val = t.val * 1024 + p.val) (s : Fin 512) :
    iblk0 V c 0 t (ix2 p s) = V c main_arg0 (ix2 r s) := by
  obtain ⟨e00, e01, -⟩ := idx_facts0 t
  show V c main_arg0 (((cfg0.win 0).blk t).view.emb (ix2 p s)) = V c main_arg0 (ix2 r s)
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * s.val = s.val; omega

/-- Window 1's block is the whole array at every point. -/
theorem blk1_all (c : Dev nD) (t : Fin cfg0.N) (s : Fin 512) (k : Fin 256) :
    iblk0 V c 1 t (ix2 s k) = V c main_arg2 (ix2 s k) := by
  obtain ⟨-, -, e10, e11, -⟩ := idx_facts0 t
  show V c main_arg2 (((cfg0.win 1).blk t).view.emb (ix2 s k)) = V c main_arg2 (ix2 s k)
  refine congrArg _ (funext fun a => Fin.ext ?_)
  match a with
  | ⟨0, _⟩ => show win0_1.index t (0 : Fin 2) * 512 + 1 * s.val = s.val; omega
  | ⟨1, _⟩ => show win0_1.index t (1 : Fin 2) * 256 + 1 * k.val = k.val; omega

/-- So are windows 2's and 3's. -/
theorem blk2_all (c : Dev nD) (t : Fin cfg0.N) (k : Fin 256) :
    iblk0 V c 2 t (ix2 (0 : Fin 1) k) = V c main_v2 (ix2 (0 : Fin 1) k) := by
  obtain ⟨-, -, -, -, e20, e21, -⟩ := idx_facts0 t
  show V c main_v2 (((cfg0.win 2).blk t).view.emb (ix2 (0 : Fin 1) k)) = V c main_v2 (ix2 (0 : Fin 1) k)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

theorem blk3_all (c : Dev nD) (t : Fin cfg0.N) (k : Fin 256) :
    iblk0 V c 3 t (ix2 (0 : Fin 1) k) = V c main_v5 (ix2 (0 : Fin 1) k) := by
  obtain ⟨-, -, -, -, -, -, e30, e31, -⟩ := idx_facts0 t
  show V c main_v5 (((cfg0.win 3).blk t).view.emb (ix2 (0 : Fin 1) k)) = V c main_v5 (ix2 (0 : Fin 1) k)
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

/-! ## What each point writes back -/

/-- Point t writes back, through window 4, block t of the product of the two arrays. -/
theorem flushed4_eq (c : Dev nD) (t : Fin cfg0.N) :
    (dat0 (F := Ideal) V c).flushed 4 t
      = ((cfg0.win 4).blk t).view.read (Elt Ideal) (prodArr (V c main_arg0) (V c main_arg2)) := by
  show (cfg0.win 4).cut (grid0.coords t) ((dat0 V c).after 4 t) = _
  rw [after0_4]
  unfold out0_4
  rw [View.canon_unit_zero hz0]
  simp only [View.ld_unit_zero (S := S1024x512) hz0, View.ld_unit_zero (S := S512x256) hz0]
  obtain ⟨-, -, -, -, -, -, -, -, e40, e41, -⟩ := idx_facts0 t
  funext j
  show k0_pay1 (iblk0 V c 0 t) (iblk0 V c 1 t) j = (prodArr (V c main_arg0) (V c main_arg2)) (((cfg0.win 4).blk t).view.emb j)
  refine pay1_blockArr (iblk0 V c 0 t) (iblk0 V c 1 t) (V c main_arg0) (V c main_arg2) j _ (t.val * 1024)
    (fun p r hr s => blk0_row V c t p r hr s) (fun s k => blk1_all V c t s k) ?_ ?_
  · show win0_4.index t (0 : Fin 2) * 1024 + 1 * (j 0).val = t.val * 1024 + (j 0).val
    omega
  · show win0_4.index t (1 : Fin 2) * 256 + 1 * (j 1).val = (j 1).val
    omega

/-- Point t writes back, through window 5, block t of the product's row sums against the first row. -/
theorem flushed5_eq (c : Dev nD) (t : Fin cfg0.N) :
    (dat0 (F := Ideal) V c).flushed 5 t
      = ((cfg0.win 5).blk t).view.read (Elt Ideal) (rowArr (V c main_arg0) (V c main_arg2) (V c main_v2)) := by
  show (cfg0.win 5).cut (grid0.coords t) ((dat0 V c).after 5 t) = _
  rw [after0_5]
  unfold out0_5
  rw [View.canon_unit_zero hz0]
  simp only [View.ld_unit_zero (S := S1024x512) hz0, View.ld_unit_zero (S := S512x256) hz0, View.ld_unit_zero (S := S1x256) hz0]
  obtain ⟨-, -, -, -, -, -, -, -, -, -, e50, e51, -⟩ := idx_facts0 t
  funext j
  show k0_pay2 (iblk0 V c 0 t) (iblk0 V c 1 t) (iblk0 V c 2 t) j = (rowArr (V c main_arg0) (V c main_arg2) (V c main_v2)) (((cfg0.win 5).blk t).view.emb j)
  refine pay2_blockArr (iblk0 V c 0 t) (iblk0 V c 1 t) (iblk0 V c 2 t) (V c main_arg0) (V c main_arg2) (V c main_v2) j _ (t.val * 1024)
    (fun p r hr s => blk0_row V c t p r hr s) (fun s k => blk1_all V c t s k) (fun k => blk2_all V c t k) ?_
  · show win0_5.index t (0 : Fin 2) * 1024 + 1 * (j 0).val = t.val * 1024 + (j 0).val
    omega

/-- Point t writes back, through window 6, block t of the product's row sums against the second row. -/
theorem flushed6_eq (c : Dev nD) (t : Fin cfg0.N) :
    (dat0 (F := Ideal) V c).flushed 6 t
      = ((cfg0.win 6).blk t).view.read (Elt Ideal) (rowArr (V c main_arg0) (V c main_arg2) (V c main_v5)) := by
  show (cfg0.win 6).cut (grid0.coords t) ((dat0 V c).after 6 t) = _
  rw [after0_6]
  unfold out0_6
  rw [View.canon_unit_zero hz0]
  simp only [View.ld_unit_zero (S := S1024x512) hz0, View.ld_unit_zero (S := S512x256) hz0, View.ld_unit_zero (S := S1x256) hz0]
  obtain ⟨-, -, -, -, -, -, -, -, -, -, -, -, e60, e61⟩ := idx_facts0 t
  funext j
  show k0_pay3 (iblk0 V c 0 t) (iblk0 V c 1 t) (iblk0 V c 3 t) j = (rowArr (V c main_arg0) (V c main_arg2) (V c main_v5)) (((cfg0.win 6).blk t).view.emb j)
  refine pay3_blockArr (iblk0 V c 0 t) (iblk0 V c 1 t) (iblk0 V c 3 t) (V c main_arg0) (V c main_arg2) (V c main_v5) j _ (t.val * 1024)
    (fun p r hr s => blk0_row V c t p r hr s) (fun s k => blk1_all V c t s k) (fun k => blk3_all V c t k) ?_
  · show win0_6.index t (0 : Fin 2) * 1024 + 1 * (j 0).val = t.val * 1024 + (j 0).val
    omega

/-! ## The blocks cover the arrays -/

/-- An index of window 4's array is in point t's block iff each coordinate is in the block's range on its axis. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v6_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v6_1).slice (win0_5.rect t)).set ↔ _
  rw [View.set_slice_whole, Rect.mem_set_unit]
  exact Iff.rfl

theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v6_2).slice (win0_6.rect t)).set ↔ _
  rw [View.set_slice_whole, Rect.mem_set_unit]
  exact Iff.rfl

/-- The point whose block holds row r: r / 1024. -/
def ptOf (r : Nat) (hr : r < 8192) : Fin cfg0.N := ⟨r / 1024, by show r / 1024 < grid0.N; rw [N_0]; omega⟩

theorem cover4 (i : S8192x256.Idx) : ∃ t : Fin cfg0.N, (cfg0.win 4).flush t = true ∧ i ∈ ((cfg0.win 4).blk t).view.set := by
  have hi0 : (i 0).val < 8192 := idx2_lt0 (n0 := 8192) (n1 := 256) i
  have hi1 : (i 1).val < 256 := idx2_lt1 (n0 := 8192) (n1 := 256) i
  refine ⟨ptOf (i 0).val hi0, flush0_4 _, ?_⟩
  obtain ⟨-, -, -, -, -, -, -, -, e40, e41, -⟩ := idx_facts0 (ptOf (i 0).val hi0)
  have hv : (ptOf (i 0).val hi0).val = (i 0).val / 1024 := rfl
  rw [mem_blk4]
  intro a
  match a with
  | ⟨0, _⟩ =>
    show win0_4.index (ptOf (i 0).val hi0) (0 : Fin 2) * 1024 ≤ (i 0).val ∧ (i 0).val < win0_4.index (ptOf (i 0).val hi0) (0 : Fin 2) * 1024 + 1024
    omega
  | ⟨1, _⟩ =>
    show win0_4.index (ptOf (i 0).val hi0) (1 : Fin 2) * 256 ≤ (i 1).val ∧ (i 1).val < win0_4.index (ptOf (i 0).val hi0) (1 : Fin 2) * 256 + 256
    omega

theorem cover5 (i : S8192x1.Idx) : ∃ t : Fin cfg0.N, (cfg0.win 5).flush t = true ∧ i ∈ ((cfg0.win 5).blk t).view.set := by
  have hi0 : (i 0).val < 8192 := idx2_lt0 (n0 := 8192) (n1 := 1) i
  have hi1 : (i 1).val < 1 := idx2_lt1 (n0 := 8192) (n1 := 1) i
  refine ⟨ptOf (i 0).val hi0, flush0_5 _, ?_⟩
  obtain ⟨-, -, -, -, -, -, -, -, -, -, e50, e51, -⟩ := idx_facts0 (ptOf (i 0).val hi0)
  have hv : (ptOf (i 0).val hi0).val = (i 0).val / 1024 := rfl
  rw [mem_blk5]
  intro a
  match a with
  | ⟨0, _⟩ =>
    show win0_5.index (ptOf (i 0).val hi0) (0 : Fin 2) * 1024 ≤ (i 0).val ∧ (i 0).val < win0_5.index (ptOf (i 0).val hi0) (0 : Fin 2) * 1024 + 1024
    omega
  | ⟨1, _⟩ =>
    show win0_5.index (ptOf (i 0).val hi0) (1 : Fin 2) * 1 ≤ (i 1).val ∧ (i 1).val < win0_5.index (ptOf (i 0).val hi0) (1 : Fin 2) * 1 + 1
    omega

theorem cover6 (i : S8192x1.Idx) : ∃ t : Fin cfg0.N, (cfg0.win 6).flush t = true ∧ i ∈ ((cfg0.win 6).blk t).view.set := by
  have hi0 : (i 0).val < 8192 := idx2_lt0 (n0 := 8192) (n1 := 1) i
  have hi1 : (i 1).val < 1 := idx2_lt1 (n0 := 8192) (n1 := 1) i
  refine ⟨ptOf (i 0).val hi0, flush0_6 _, ?_⟩
  obtain ⟨-, -, -, -, -, -, -, -, -, -, -, -, e60, e61⟩ := idx_facts0 (ptOf (i 0).val hi0)
  have hv : (ptOf (i 0).val hi0).val = (i 0).val / 1024 := rfl
  rw [mem_blk6]
  intro a
  match a with
  | ⟨0, _⟩ =>
    show win0_6.index (ptOf (i 0).val hi0) (0 : Fin 2) * 1024 ≤ (i 0).val ∧ (i 0).val < win0_6.index (ptOf (i 0).val hi0) (0 : Fin 2) * 1024 + 1024
    omega
  | ⟨1, _⟩ =>
    show win0_6.index (ptOf (i 0).val hi0) (1 : Fin 2) * 1 ≤ (i 1).val ∧ (i 1).val < win0_6.index (ptOf (i 0).val hi0) (1 : Fin 2) * 1 + 1
    omega

/-! ## The arrays when the region ends -/

/-- Window 4's array ends holding the product of the two arrays the region finds. -/
theorem arr0_4_eq (c : Dev nD) :
    (dat0 (F := Ideal) V c).arrAt 4 cfg0.N = prodArr (V c main_arg0) (V c main_arg2) :=
  (dat0 V c).arrAt_eq_of_cover 4 (prodArr (V c main_arg0) (V c main_arg2)) (fun t _ => flushed4_eq V c t) cover4

/-- Window 5's ends holding the product's row sums against the first row. -/
theorem arr0_5_eq (c : Dev nD) :
    (dat0 (F := Ideal) V c).arrAt 5 cfg0.N = rowArr (V c main_arg0) (V c main_arg2) (V c main_v2) :=
  (dat0 V c).arrAt_eq_of_cover 5 (rowArr (V c main_arg0) (V c main_arg2) (V c main_v2)) (fun t _ => flushed5_eq V c t) cover5

/-- Window 6's ends holding the product's row sums against the second row. -/
theorem arr0_6_eq (c : Dev nD) :
    (dat0 (F := Ideal) V c).arrAt 6 cfg0.N = rowArr (V c main_arg0) (V c main_arg2) (V c main_v5) :=
  (dat0 V c).arrAt_eq_of_cover 6 (rowArr (V c main_arg0) (V c main_arg2) (V c main_v5)) (fun t _ => flushed6_eq V c t) cover6

end Region0

end R0

open R0

section Region0
variable (V : (c : Dev nD) → (b : Ref sig .tc) → Buf (Elt Ideal) ((c : Thread nD τ).loc b))

/-- Entry (r, q) of window 4's array: the sum over t of x (r, t) * W (t, q). -/
theorem arr0_4 (c : Dev nD) (r : Fin 8192) (q : Fin 256) :
    ((dat0 (F := Ideal) V c).arrAt 4 cfg0.N : S8192x256.Idx → EReal) (ix2 r q) = prodAt (V c main_arg0) (V c main_arg2) r q := by
  rw [arr0_4_eq]

/-- Entry (r, 0) of window 5's array: the sum over k of that product's entry (r, k) times the first row's entry k. -/
theorem arr0_5 (c : Dev nD) (r : Fin 8192) (u : Fin 1) :
    ((dat0 (F := Ideal) V c).arrAt 5 cfg0.N : S8192x1.Idx → EReal) (ix2 r u) = rowAt (V c main_arg0) (V c main_arg2) (V c main_v2) r := by
  rw [arr0_5_eq]

/-- Entry (r, 0) of window 6's array: the same against the second row. -/
theorem arr0_6 (c : Dev nD) (r : Fin 8192) (u : Fin 1) :
    ((dat0 (F := Ideal) V c).arrAt 6 cfg0.N : S8192x1.Idx → EReal) (ix2 r u) = rowAt (V c main_arg0) (V c main_arg2) (V c main_v5) r := by
  rw [arr0_6_eq]

end Region0

end Cert.KernelIdeal.Hand

end
-- ==== Proof.R0ValueHost.lean ====
/- The first host stretch of @main read at an index, over the extended reals: the attention vector (512 x 1) is cut into
   its two halves, and each half is laid out as one row of 256 entries. From any contents of the buffers before the
   stretch, entry (0, k) of the first row is entry (k, 0) of the vector and entry (0, k) of the second is entry
   (256 + k, 0). -/
import proofs.«152824_j20873541058924_2_alg».proof.Proof.Gen.KernelIdeal.Launch
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.ValueIdx Idealize.ShloMosaic.StableHlo

namespace R0

/-- One column of `a` entries cast to a vector reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A half of the vector, from row `o`, laid out as one row: entry (0, k) is the vector's entry (o + k, 0). -/
theorem halfRow_apply (o : Nat) (X : S512x1.Idx → EReal) (hs : S512x1.Slices ![o, 0] S256x1) (k : Fin 256) (r : Fin 512)
    (hr : r.val = o + k.val) :
    shapeCast S1x256 (shapeCast S256 (extractStridedSlice S256x1 ![o, 0] X hs) shapeCasts_S256x1_S256) shapeCasts_S256_S1x256
      (ix2 (0 : Fin 1) k) = X (ix2 r (0 : Fin 1)) := by
  rw [shapeCast_a_1a_apply, shapeCast_a1_a_apply, slice2_axis0_apply o X hs k (0 : Fin 1) r hr]

/-- The first row after the stretch, as the operations' term of the vector before it. -/
theorem host0_v2_eq (Wv : Valuation τ sig (Elt Ideal)) :
    (StableHlo.after (hostOps0 (F := Ideal)) Wv (Proc.devRef .tc main_v2) : S1x256.Idx → EReal)
      = shapeCast S1x256 (shapeCast S256 (extractStridedSlice S256x1 ![0, 0] (Wv (Proc.devRef .tc main_arg3) : S512x1.Idx → EReal)
          slices_S512x1_S256x1_0_0) shapeCasts_S256x1_S256) shapeCasts_S256_S1x256 := by
  after_results; rfl

/-- The second row after the stretch, likewise. -/
theorem host0_v5_eq (Wv : Valuation τ sig (Elt Ideal)) :
    (StableHlo.after (hostOps0 (F := Ideal)) Wv (Proc.devRef .tc main_v5) : S1x256.Idx → EReal)
      = shapeCast S1x256 (shapeCast S256 (extractStridedSlice S256x1 ![256, 0] (Wv (Proc.devRef .tc main_arg3) : S512x1.Idx → EReal)
          slices_S512x1_S256x1_256_0) shapeCasts_S256x1_S256) shapeCasts_S256_S1x256 := by
  after_results; rfl

end R0

open R0

/-- Entry (0, k) of the first row is entry (k, 0) of the attention vector. -/
theorem host0_v2 (Wv : Valuation τ sig (Elt Ideal)) (k : Fin 256) :
    (StableHlo.after (hostOps0 (F := Ideal)) Wv (Proc.devRef .tc main_v2) : S1x256.Idx → EReal) (ix2 (0 : Fin 1) k)
      = (Wv (Proc.devRef .tc main_arg3) : S512x1.Idx → EReal) (ix2 (⟨k.val, by omega⟩ : Fin 512) (0 : Fin 1)) := by
  rw [host0_v2_eq]
  exact halfRow_apply 0 _ _ k ⟨k.val, by omega⟩ (Nat.zero_add _).symm

/-- Entry (0, k) of the second row is entry (256 + k, 0) of the attention vector. -/
theorem host0_v5 (Wv : Valuation τ sig (Elt Ideal)) (k : Fin 256) :
    (StableHlo.after (hostOps0 (F := Ideal)) Wv (Proc.devRef .tc main_v5) : S1x256.Idx → EReal) (ix2 (0 : Fin 1) k)
      = (Wv (Proc.devRef .tc main_arg3) : S512x1.Idx → EReal) (ix2 (⟨256 + k.val, by omega⟩ : Fin 512) (0 : Fin 1)) := by
  rw [host0_v5_eq]
  exact halfRow_apply 256 _ _ k ⟨256 + k.val, by omega⟩ rfl

end Cert.KernelIdeal.Hand

end
-- ==== Proof.R0ValueSpec.lean ====
/- Region 0's three functions are the specification's: the product is the projected features h, and its row sums
   against the two halves of the attention vector, each laid out as one row, are the two halves src and dst of the
   logit. -/
import proofs.«152824_j20873541058924_2_alg».proof.Proof.Spec
import proofs.«152824_j20873541058924_2_alg».proof.Proof.R0Value

noncomputable section

namespace Cert.KernelIdeal.Hand.R0

open Cert.KernelIdeal Cert.KernelIdeal.Hand
open Idealize.ShloMosaic Idealize.ShloMosaic.ValueIdx

/-- The product's entry (r, q) is the projected feature h r q. -/
theorem prodAt_eq_h (X : S8192x512.Idx → EReal) (W : S512x256.Idx → EReal) (r : Fin 8192) (q : Fin 256) :
    prodAt X W r q = Cert.Gat.h X W r q := rfl

/-- Against a row that holds the first half of the attention vector, the row sum is the source half of the logit. -/
theorem rowAt_eq_src (X : S8192x512.Idx → EReal) (W : S512x256.Idx → EReal) (A : S1x256.Idx → EReal) (a : S512x1.Idx → EReal)
    (hA : ∀ k : Fin 256, A (ix2 (0 : Fin 1) k) = a (ix2 (⟨k.val, by omega⟩ : Fin 512) (0 : Fin 1))) (r : Fin 8192) :
    rowAt X W A r = Cert.Gat.src X W a r := by
  unfold rowAt Cert.Gat.src
  exact Finset.sum_congr rfl fun k _ => by rw [hA k]; rfl

/-- Against a row that holds the second half, it is the destination half. -/
theorem rowAt_eq_dst (X : S8192x512.Idx → EReal) (W : S512x256.Idx → EReal) (A : S1x256.Idx → EReal) (a : S512x1.Idx → EReal)
    (hA : ∀ k : Fin 256, A (ix2 (0 : Fin 1) k) = a (ix2 (⟨256 + k.val, by omega⟩ : Fin 512) (0 : Fin 1))) (r : Fin 8192) :
    rowAt X W A r = Cert.Gat.dst X W a r := by
  unfold rowAt Cert.Gat.dst
  exact Finset.sum_congr rfl fun k _ => by rw [hA k]; rfl

end Cert.KernelIdeal.Hand.R0

end
-- ==== Proof.LibBlockSum.lean ====
/-
  Sums over an initial segment of a finite index range, taken block by block.
  For f : Fin N → M into an additive commutative monoid, `upto f n` is the sum of f over the indices
  below n.  It is zero at n = 0, it is the whole sum once n reaches N, and the sum over the first
  (k+1)·b indices is the sum over the first k·b indices plus the k-th block of b consecutive entries.
-/
import Mathlib.Algebra.BigOperators.Fin
import Mathlib.Algebra.BigOperators.Intervals

open scoped BigOperators

namespace Cert.BlockSum

variable {M : Type*} [AddCommMonoid M]

/-- The sum of `f` over the indices below `n`. -/
def upto {N : ℕ} (f : Fin N → M) (n : ℕ) : M := ∑ i : Fin N, if i.val < n then f i else 0

/-- The empty initial segment sums to zero. -/
theorem upto_zero {N : ℕ} (f : Fin N → M) : upto f 0 = 0 := by
  simp [upto]

/-- Once the bound reaches the size of the range, the initial segment is the whole range. -/
theorem upto_full {N : ℕ} (f : Fin N → M) (n : ℕ) (h : N ≤ n) : upto f n = ∑ i, f i := by
  unfold upto
  refine Finset.sum_congr rfl (fun i _ => ?_)
  rw [if_pos (lt_of_lt_of_le i.isLt h)]

/-- The k-th block of b consecutive indices lies inside the range when (k+1)·b ≤ N. -/
theorem block_lt {N k b : ℕ} (h : (k + 1) * b ≤ N) (j : Fin b) : k * b + j.val < N := by
  have hj := j.isLt
  rw [Nat.add_mul, Nat.one_mul] at h
  omega

/-- A sum over the first (k+1)·b indices is the sum over the first k·b indices plus the k-th block of b:
    Σ_{i < (k+1)·b} f i = Σ_{i < k·b} f i + Σ_{j < b} f (k·b + j). -/
theorem upto_add_block {N : ℕ} (f : Fin N → M) (k b : ℕ) (h : (k + 1) * b ≤ N) :
    upto f ((k + 1) * b) = upto f (k * b) + ∑ j : Fin b, f ⟨k * b + j.val, block_lt h j⟩ := by
  have hb : (k + 1) * b = k * b + b := by rw [Nat.add_mul, Nat.one_mul]
  -- the block, as the sum over the whole range of the entries with k·b ≤ i < k·b + b
  have hblock : (∑ j : Fin b, f ⟨k * b + j.val, block_lt h j⟩)
      = ∑ i : Fin N, if k * b ≤ i.val ∧ i.val < k * b + b then f i else 0 := by
    rw [← Finset.sum_filter]
    refine Finset.sum_bij (fun j _ => (⟨k * b + j.val, block_lt h j⟩ : Fin N)) ?_ ?_ ?_ ?_
    · intro j _
      simp only [Finset.mem_filter, Finset.mem_univ, true_and]
      have := j.isLt
      omega
    · intro j₁ _ j₂ _ he
      have := congrArg Fin.val he
      simp only at this
      exact Fin.ext (by omega)
    · intro i hi
      simp only [Finset.mem_filter, Finset.mem_univ, true_and] at hi
      exact ⟨⟨i.val - k * b, by omega⟩, Finset.mem_univ _, Fin.ext (by simp only; omega)⟩
    · intro j _
      rfl
  rw [hblock]
  unfold upto
  rw [← Finset.sum_add_distrib]
  refine Finset.sum_congr rfl (fun i _ => ?_)
  rw [hb]
  by_cases h1 : i.val < k * b
  · rw [if_pos (by omega), if_pos h1, if_neg (by omega), add_zero]
  · by_cases h2 : i.val < k * b + b
    · rw [if_pos h2, if_neg h1, if_pos ⟨by omega, h2⟩, zero_add]
    · rw [if_neg h2, if_neg h1, if_neg (by omega), add_zero]

end Cert.BlockSum
-- ==== Proof.LibSoftmaxRows.lean ====
/-
  Softmax of the rows of a two-axis block, over the extended reals — a general module: it depends on the library
  only.
  First the row itself: a row's weights are exp(s q − M) / ∑ₜ exp(s t − M), with M the row's maximum taken as a fold
  of `max` from −∞ (`rowMax`, `softmaxRow`), the float pattern of −∞ (`negInf`, `max_negInf`), and the scale
  1 / sqrt 64 against the literal 0.125 (`scale_eq`: the square root of the real 64 is 8).
  Then a kernel body's row-wise operations read at one entry: a vector turned into a column and spread over the
  columns of a block (`column_apply`, with the two column forms of a cast and a broadcast), the sum of a row and the
  maximum of a row as a `Fin`-indexed sum and fold (`rowSum_apply`, `rowMax_apply`), and the whole softmax of a block
  of scores as a body writes it — subtract each row's maximum, exponentiate, divide by each row's sum — read at
  (p, q) as `softmaxRow` of row p at q (`softmax_block_apply`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Softmax

open Idealize.ShloMosaic

/-- The float pattern of −∞, the value both maxima start from. -/
abbrev negInf : EReal := Ideal.ofBits .f32 0xFF800000#32

/-- The pattern of −∞ denotes the bottom of the extended reals. -/
theorem negInf_eq_bot : negInf = ⊥ := by
  simp [negInf, Ideal.ofBits, Ideal.ieee]

/-- Taking the maximum with −∞ changes nothing. -/
theorem max_negInf (x : EReal) : max negInf x = x := by
  rw [negInf_eq_bot]; exact max_eq_right bot_le

/-- `1.0` denotes the real 1. -/
theorem ofBits_one : Ideal.ofBits .f32 0x3F800000#32 = ((1 : ℝ) : EReal) := by
  simp [Ideal.ofBits, Ideal.ieee, -EReal.coe_mul]; norm_num

/-- `64.0` denotes the real 64. -/
theorem ofBits_sixtyFour : Ideal.ofBits .f32 0x42800000#32 = ((64 : ℝ) : EReal) := by
  simp [Ideal.ofBits, Ideal.ieee, -EReal.coe_mul]; norm_num

/-- `0.125` denotes the real 1/8. -/
theorem ofBits_eighth : Ideal.ofBits .f32 0x3E000000#32 = (((1 : ℝ) / 8 : ℝ) : EReal) := by
  simp [Ideal.ofBits, Ideal.ieee, -EReal.coe_mul]; norm_num

/-- The reference's scale 1 / sqrt(64) is the kernel's literal 0.125: sqrt 64 = 8 on the reals. -/
theorem scale_eq : Ideal.div (Ideal.ofBits .f32 0x3F800000#32) (Ideal.sqrt (Ideal.ofBits .f32 0x42800000#32))
    = Ideal.ofBits .f32 0x3E000000#32 := by
  have h8 : Real.sqrt 64 = 8 := by
    rw [show (64 : ℝ) = 8 * 8 by norm_num]; exact Real.sqrt_mul_self (by norm_num)
  rw [ofBits_sixtyFour, ofBits_one, ofBits_eighth, Ideal.sqrt_coe, if_neg (by norm_num), h8,
    Ideal.div_coe (by norm_num : (8 : ℝ) ≠ 0), ← EReal.coe_mul]
  norm_num

/-- The maximum of a row: the fold of `max` from −∞ over its entries. -/
def rowMax {n : Nat} (s : Fin n → EReal) : EReal := (Finset.univ : Finset (Fin n)).fold max negInf s

/-- Entry `q` of the softmax of the row `s`: the exponential of the entry less the row's maximum, divided by the sum of
    those exponentials over the row. -/
def softmaxRow {n : Nat} (s : Fin n → EReal) (q : Fin n) : EReal :=
  Ideal.div (Ideal.exp (s q - rowMax s)) (∑ t : Fin n, Ideal.exp (s t - rowMax s))

end Cert.Softmax

namespace Cert.RowOps

open Idealize.ShloMosaic Idealize.ShloMosaic.ValueIdx Cert.Softmax

variable {α : Type}

/-- A vector of `a` entries cast to one column reads, at (i, 0), entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One column spread over `b` columns reads, at (p, c), the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector turned into a column and spread over the columns: entry (p, c) is the vector's entry `p`. -/
theorem column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- Row `p` with the column coordinate `k` put back is the entry (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The sum over the columns of a block, at row `p`, is the sum of that row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The maximum over the columns of a block from −∞, at row `p`, is that row's maximum. -/
theorem rowMax_apply {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) :=
  (Ideal.multiReduction_maximumf_single src 0xFF800000#32 h hφ hacc (ix1 p)).trans
    (congrArg (fun f => (Finset.univ : Finset (Fin b)).fold max negInf f)
      (funext fun k => congrArg src (lift_row h p k)))

/-- The body's softmax of a block of scores: subtract each row's maximum, exponentiate, divide by each row's
    sum. Entry (p, q) is the softmax of row `p` at `q`. -/
theorem softmax_block_apply {a b : ℕ} (S : FVec Ideal ⟨2, ![a, b]⟩ .f32)
    (h1 : (⟨1, ![a]⟩ : Shape).ShapeCasts ⟨2, ![a, 1]⟩) (h2 : (⟨2, ![a, 1]⟩ : Shape).Broadcasts ⟨2, ![a, b]⟩)
    (hr : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ) (p : Fin a) (q : Fin b) :
    divf
        (exp (subf S (broadcastTo ⟨2, ![a, b]⟩ (shapeCast ⟨2, ![a, 1]⟩
          (multiReduction .maximumf [1] ⟨1, ![a]⟩ S 0xFF800000#32 hr hφ hmax) h1) h2)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S 0xFF800000#32 hr hφ hmax) h1) h2)))
            0x00000000#32 hr hφ hadd) h1) h2)
        (ix2 p q)
      = softmaxRow (fun t : Fin b => S (ix2 p t)) q := by
  have hM : ∀ t : Fin b, broadcastTo ⟨2, ![a, b]⟩ (shapeCast ⟨2, ![a, 1]⟩
      (multiReduction .maximumf [1] ⟨1, ![a]⟩ S 0xFF800000#32 hr hφ hmax) h1) h2 (ix2 p t)
      = rowMax fun k : Fin b => S (ix2 p k) :=
    fun t => (column_apply _ h1 h2 p t).trans (rowMax_apply S hr hφ hmax p)
  have hE : ∀ t : Fin b, exp (subf S (broadcastTo ⟨2, ![a, b]⟩ (shapeCast ⟨2, ![a, 1]⟩
      (multiReduction .maximumf [1] ⟨1, ![a]⟩ S 0xFF800000#32 hr hφ hmax) h1) h2)) (ix2 p t)
      = Ideal.exp (S (ix2 p t) - rowMax fun k : Fin b => S (ix2 p k)) :=
    fun t => congrArg (fun y => Ideal.exp (S (ix2 p t) - y)) (hM t)
  refine Eq.trans (congrArg₂ Ideal.div (hE q)
    ((column_apply _ h1 h2 p q).trans ((rowSum_apply _ hr hφ hadd p).trans (Finset.sum_congr rfl fun t _ => hE t)))) ?_
  rfl

end Cert.RowOps

end
-- ==== Proof.R1Value.lean ====
/-
  The value of the row-sum kernel (the second kernel region) over the extended reals: the array it writes ends
  holding, at row ρ, the sum over all 8192 columns j of exp (leaky (src ρ + dst j) - m ρ), where src (a column), dst (a
  row) and m (a column) are the three arrays the region is entered with and leaky t = max (t, slope t).

  The grid is 8 row tiles by 8 column tiles of 1024, walked row tile by row tile; point t is on row tile t / 8 and
  column tile t % 8. What each of the three cases of the body stores is one payload: the accumulator's old block (the
  zero block at a first column tile) plus, at row r, the sum over the tile's 1024 columns k of
  exp (leaky (src r + dst k) - m r) of the three input blocks (`sout_A`, `sout_B`, `sout_C`, `out_C`, `pay2_apply`).
  Read through the windows, the blocks are the arrays at rows 1024 (t / 8) + r and columns 1024 (t % 8) + k
  (`iblk_0`, `iblk_1`, `iblk_2`), so one tile extends a sum over the columns below 1024 (t % 8) to the columns below
  1024 (t % 8 + 1) (`step`), and by induction on the point the accumulator holds after point t the row's weights
  summed over the columns of the column tiles walked so far (`acc_eq`). At a last column tile that is the sum over
  all columns, the output block is a copy of the accumulator, and the block written back is the row tile's block of
  the row sums (`flushed_eq`); those eight blocks cover the array (`cover`), which therefore ends holding the row sums
  (`arr1_3`).
-/
import proofs.«152824_j20873541058924_2_alg».proof.Proof.R1Body
import proofs.«152824_j20873541058924_2_alg».proof.Proof.Spec
import proofs.«152824_j20873541058924_2_alg».proof.Proof.LibBlockSum
import Idealize.ShloMosaic.Lib.Pipeline.Value
import Idealize.ShloMosaic.PureOps.Ideal.Laws
import Idealize.ShloMosaic.Lib.ValueLayout
import proofs.«152824_j20873541058924_2_alg».proof.Proof.LibSoftmaxRows

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]

/-- The zero offsets of a store or load of a whole block. -/
theorem hz1 : (![0, 0] : Fin 2 → Nat) = fun _ => 0 := funext fun a => by fin_cases a <;> rfl

/-! ## What each case's stores leave, as the payload of the tile -/

/-- A middle column tile: the accumulator ends at the payload of the three input blocks over what it held. -/
theorem sout_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x1 .f32) (x1 : Vec F S1x1024 .f32) (x2 : Vec F S1024x1 .f32) (xs0 : Vec F S1024x1 .f32) :
    sout1_B c i arg2 harg2 arg3 harg3 arg4 harg4 arg5 harg5 arg6 harg6 hc0 hc1 x0 x1 x2 xs0 = k1_pay2 x0 x1 x2 xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero hz1]
  simp only [View.readAt_eq_ld, harg2.read_unread, harg3.read_unread, harg4.read_unread, harg6.read_unread, View.ld_unit_zero (S := S1024x1) hz1, View.ld_unit_zero (S := S1x1024) hz1]

/-- The first column tile: the accumulator is cleared first, so it ends at the payload over the zero block. -/
theorem sout_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x1 .f32) (x1 : Vec F S1x1024 .f32) (x2 : Vec F S1024x1 .f32) :
    sout1_A c i arg2 harg2 arg3 harg3 arg4 harg4 arg5 harg5 arg6 harg6 hc0 hc1 x0 x1 x2 = k1_pay2 x0 x1 x2 k1_pay1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x1) hz1, View.readCov_unit_zero (S := S1024x1) _ hz1]
  simp only [View.readAt_eq_ld, harg2.read_unread, harg3.read_unread, harg4.read_unread, harg6.read_unread, View.ld_unit_zero (S := S1024x1) hz1, View.ld_unit_zero (S := S1x1024) hz1]

/-- The last column tile: the accumulator ends as at a middle tile, -/
theorem sout_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) :
    sout1_C c i arg2 harg2 arg3 harg3 arg4 harg4 arg5 harg5 arg6 harg6 hc0 hc1 x0 x1 x2 xs0 = k1_pay2 x0 x1 x2 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.ld_unit_zero (S := S1024x1) hz1, View.ld_unit_zero (S := S1x1024) hz1]

/-- and the output block is a copy of it. -/
theorem out_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x1 .f32) (x1 : Vec F S1x1024 .f32) (x2 : Vec F S1024x1 .f32) (xs0 : Vec F S1024x1 .f32) :
    out1_C c i arg2 harg2 arg3 harg3 arg4 harg4 arg5 harg5 arg6 harg6 hc0 hc1 x0 x1 x2 xs0 = k1_pay2 x0 x1 x2 xs0 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero hz1, View.readCov_unit_zero (S := S1024x1) _ hz1]
  simp only [View.readAt_eq_ld, harg2.read_unread, harg3.read_unread, harg4.read_unread, harg6.read_unread, View.ld_unit_zero (S := S1024x1) hz1, View.ld_unit_zero (S := S1x1024) hz1]

/-! ## The payload at a row -/

/-- The block the accumulator is cleared to is zero at every row. -/
theorem pay1_apply (r : Fin 1024) : k1_pay1 (F := Ideal) (ix2 r (0 : Fin 1)) = 0 := by
  unfold k1_pay1
  refine (congrFun (shapeCast_self _ _) _).trans ?_
  exact Ideal.ofBits_zero_f32

/-- The tile's payload at row r: what the accumulator held there plus the sum over the tile's 1024 columns k of
    exp (leaky (src r + dst k) - m r), the leaky function written as a maximum. -/
theorem pay2_apply (v3 : FVec Ideal S1024x1 .f32) (v5 : FVec Ideal S1x1024 .f32) (v13 v18 : FVec Ideal S1024x1 .f32) (r : Fin 1024) :
    k1_pay2 (F := Ideal) v3 v5 v13 v18 (ix2 r (0 : Fin 1))
      = v18 (ix2 r 0) + ∑ k : Fin 1024, Ideal.exp (Cert.Gat.leakyMax (v3 (ix2 r 0) + v5 (ix2 0 k)) - v13 (ix2 r 0)) := by
  unfold k1_pay2
  refine (congrFun (shapeCast_self _ _) _).trans ?_
  refine congrArg (v18 (ix2 r 0) + ·) ?_
  refine (Cert.RowOps.shapeCast_a_a1_apply _ _ r 0).trans ?_
  refine (Cert.RowOps.rowSum_apply _ _ _ _ r).trans ?_
  refine Finset.sum_congr rfl fun k _ => ?_
  have e3 : broadcastTo S1024x1024 (shapeCast S1024x1 v3 shapeCasts_S1024x1_S1024x1) broadcasts_S1024x1_S1024x1024 (ix2 r k) = v3 (ix2 r 0) :=
    (Cert.RowOps.broadcastTo_a1_ab_apply _ _ r k).trans (congrFun (shapeCast_self v3 _) _)
  have e5 : broadcastTo S1024x1024 (shapeCast S1x1024 v5 shapeCasts_S1x1024_S1x1024) broadcasts_S1x1024_S1024x1024 (ix2 r k) = v5 (ix2 0 k) :=
    (broadcastTo_1b_ab_apply _ _ r k).trans (congrFun (shapeCast_self v5 _) _)
  have e13 : broadcastTo S1024x1024 (shapeCast S1024x1 v13 shapeCasts_S1024x1_S1024x1) broadcasts_S1024x1_S1024x1024 (ix2 r k) = v13 (ix2 r 0) :=
    (Cert.RowOps.broadcastTo_a1_ab_apply _ _ r k).trans (congrFun (shapeCast_self v13 _) _)
  have key : ∀ a3 a3' a5 a5' a13 a13' : EReal, a3 = a3' → a5 = a5' → a13 = a13' →
      Ideal.exp (max (a3 + a5) (Cert.Gat.slope * (a3 + a5)) - a13) = Ideal.exp (Cert.Gat.leakyMax (a3' + a5') - a13') := by
    rintro _ _ _ _ _ _ rfl rfl rfl; rfl
  have := key _ _ _ _ _ _ e3 e5 e13
  exact this

/-! ## The windows' blocks, entry by entry -/

/-- The printed index maps, decided over the grid: at point t the row windows are on row tile t / 8 and the column
    window on column tile t % 8. -/
theorem idx_facts : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

section Value
variable (V : (c : Dev nD) → (b : Ref sig .tc) → Buf (Elt Ideal) ((c : Thread nD τ).loc b))

/-- The source block at point t, row r, is the source half at row 1024 (t / 8) + r. -/
theorem iblk_0 (c : Dev nD) (t : Fin cfg1.N) (r : Fin 1024) (ρ : Fin 8192) (hρ : ρ.val = 1024 * (t.val / 8) + r.val) :
    (iblk1 V c 0 t : Vec Ideal S1024x1 .f32) (ix2 r (0 : Fin 1)) = V c main_v6_1 (ix2 ρ (0 : Fin 1)) := by
  obtain ⟨e0, e1, -⟩ := idx_facts t
  show V c main_v6_1 (((cfg1.win 0).blk t).view.emb (ix2 r (0 : Fin 1))) = _
  refine congrArg (V c main_v6_1) (funext fun a => Fin.ext ?_)
  match a with
  | ⟨0, _⟩ => show win1_0.index t (0 : Fin 2) * 1024 + 1 * r.val = ρ.val; omega
  | ⟨1, _⟩ => show win1_0.index t (1 : Fin 2) * 1 + 1 * 0 = 0; omega

/-- The destination block at point t, column k, is the destination half at column 1024 (t % 8) + k. -/
theorem iblk_1 (c : Dev nD) (t : Fin cfg1.N) (k : Fin 1024) (j : Fin 8192) (hj : j.val = (t.val % 8) * 1024 + k.val) :
    (iblk1 V c 1 t : Vec Ideal S1x1024 .f32) (ix2 (0 : Fin 1) k) = V c main_v7 (ix2 (0 : Fin 1) j) := by
  obtain ⟨-, -, e0, e1, -⟩ := idx_facts t
  show V c main_v7 (((cfg1.win 1).blk t).view.emb (ix2 (0 : Fin 1) k)) = _
  refine congrArg (V c main_v7) (funext fun a => Fin.ext ?_)
  match a with
  | ⟨0, _⟩ => show win1_1.index t (0 : Fin 2) * 1 + 1 * 0 = 0; omega
  | ⟨1, _⟩ => show win1_1.index t (1 : Fin 2) * 1024 + 1 * k.val = j.val; omega

/-- The maximum block at point t, row r, is the row maximum at row 1024 (t / 8) + r. -/
theorem iblk_2 (c : Dev nD) (t : Fin cfg1.N) (r : Fin 1024) (ρ : Fin 8192) (hρ : ρ.val = 1024 * (t.val / 8) + r.val) :
    (iblk1 V c 2 t : Vec Ideal S1024x1 .f32) (ix2 r (0 : Fin 1)) = V c main_v13 (ix2 ρ (0 : Fin 1)) := by
  obtain ⟨-, -, -, -, e0, e1, -⟩ := idx_facts t
  show V c main_v13 (((cfg1.win 2).blk t).view.emb (ix2 r (0 : Fin 1))) = _
  refine congrArg (V c main_v13) (funext fun a => Fin.ext ?_)
  match a with
  | ⟨0, _⟩ => show win1_2.index t (0 : Fin 2) * 1024 + 1 * r.val = ρ.val; omega
  | ⟨1, _⟩ => show win1_2.index t (1 : Fin 2) * 1 + 1 * 0 = 0; omega

/-- The three arrays the region is entered with, as extended-real arrays: the source half of the logit (a column),
    the destination half (a row) and the row maximum (a column). -/
abbrev srcArr (c : Dev nD) : S8192x1.Idx → EReal := V c main_v6_1
abbrev dstArr (c : Dev nD) : S1x8192.Idx → EReal := V c main_v7
abbrev maxArr (c : Dev nD) : S8192x1.Idx → EReal := V c main_v13

/-- The unnormalized weight of the edge (ρ, j): exp (leaky (src ρ + dst j) - m ρ), read off those three arrays. -/
def wgt (c : Dev nD) (ρ j : Fin 8192) : EReal :=
  Ideal.exp (Cert.Gat.leakyMax (srcArr V c (ix2 ρ (0 : Fin 1)) + dstArr V c (ix2 (0 : Fin 1) j)) - maxArr V c (ix2 ρ (0 : Fin 1)))

/-- One tile's step: if the accumulator holds at row r the weights of row ρ summed over the columns before the tile's,
    the payload holds them summed over the columns up to the tile's end. -/
theorem step (c : Dev nD) (t : Fin cfg1.N) (xs : FVec Ideal S1024x1 .f32) (r : Fin 1024) (ρ : Fin 8192)
    (hρ : ρ.val = 1024 * (t.val / 8) + r.val)
    (hxs : xs (ix2 r (0 : Fin 1)) = Cert.BlockSum.upto (wgt V c ρ) ((t.val % 8) * 1024)) :
    k1_pay2 (F := Ideal) (iblk1 V c 0 t) (iblk1 V c 1 t) (iblk1 V c 2 t) xs (ix2 r (0 : Fin 1))
      = Cert.BlockSum.upto (wgt V c ρ) ((t.val % 8 + 1) * 1024) := by
  have hb : (t.val % 8 + 1) * 1024 ≤ 8192 := by omega
  refine (pay2_apply (iblk1 V c 0 t) (iblk1 V c 1 t) (iblk1 V c 2 t) xs r).trans ?_
  rw [Cert.BlockSum.upto_add_block (wgt V c ρ) (t.val % 8) 1024 hb, hxs]
  refine congrArg (Cert.BlockSum.upto (wgt V c ρ) ((t.val % 8) * 1024) + ·) (Finset.sum_congr rfl fun k _ => ?_)
  unfold wgt
  rw [iblk_0 V c t r ρ hρ, iblk_1 V c t k ⟨(t.val % 8) * 1024 + k.val, Cert.BlockSum.block_lt hb k⟩ rfl, iblk_2 V c t r ρ hρ]

end Value

/-! ## The accumulator and the output block after each point, as payloads -/

section Points
variable (V : (c : Dev nD) → (b : Ref sig .tc) → Buf (Elt F) ((c : Thread nD τ).loc b))

set_option maxHeartbeats 2000000 in
/-- After a first column tile the accumulator holds the payload over the zero block. -/
theorem acc_A (c : Dev nD) (t : Fin cfg1.N) (h0 : t.val % 8 = 0) (h1 : ¬t.val % 8 = 7) :
    (outsAt1 V c t.val t.isLt).2 = k1_pay2 (iblk1 V c 0 t) (iblk1 V c 1 t) (iblk1 V c 2 t) k1_pay1 := by
  rw [outsAt1_A V c t h0 h1]
  dsimp only
  exact sout_A (F := F) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

set_option maxHeartbeats 2000000 in
/-- After a middle column tile it holds the payload over what the point before left. -/
theorem acc_B (c : Dev nD) (t : Fin cfg1.N) (h0 : ¬t.val % 8 = 0) (h1 : ¬t.val % 8 = 7) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 := by
  rw [outsAt1_B V c t h0 h1]
  dsimp only
  exact sout_B (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

set_option maxHeartbeats 2000000 in
/-- After a last column tile likewise, -/
theorem acc_C (c : Dev nD) (t : Fin cfg1.N) (h0 : ¬t.val % 8 = 0) (h1 : t.val % 8 = 7) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 := by
  rw [outsAt1_C V c t h0 h1]
  dsimp only
  exact sout_C (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

set_option maxHeartbeats 2000000 in
/-- and the output block holds the same. -/
theorem outblk_C (c : Dev nD) (t : Fin cfg1.N) (h0 : ¬t.val % 8 = 0) (h1 : t.val % 8 = 7) :
    (outsAt1 V c t.val t.isLt).1 = k1_pay2 (iblk1 V c 0 t) (iblk1 V c 1 t) (iblk1 V c 2 t) (outsAt1 V c (t.val - 1) (Nat.lt_of_le_of_lt (Nat.sub_le _ _) t.isLt)).2 := by
  rw [outsAt1_C V c t h0 h1]
  dsimp only
  exact out_C (F := F) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Points

/-! ## The invariant, the write-backs and the array -/

section Value2
variable (V : (c : Dev nD) → (b : Ref sig .tc) → Buf (Elt Ideal) ((c : Thread nD τ).loc b))

/-- THE INVARIANT. After point n = 8 R + C the accumulator holds, at row r, the weights of row 1024 R + r summed over
    the columns of the column tiles 0 … C: by induction on the point. -/
theorem acc_eq (c : Dev nD) : ∀ (n : ℕ) (hn : n < cfg1.N) (r : Fin 1024) (ρ : Fin 8192), ρ.val = 1024 * (n / 8) + r.val →
    (outsAt1 V c n hn).2 (ix2 r (0 : Fin 1)) = Cert.BlockSum.upto (wgt V c ρ) ((n % 8 + 1) * 1024) := by
  intro n
  induction n with
  | zero =>
    intro hn r ρ hρ
    have e := congrFun (acc_A V c ⟨0, hn⟩ rfl (show ¬0 % 8 = 7 by decide)) (ix2 r (0 : Fin 1))
    refine e.trans ?_
    refine step V c ⟨0, hn⟩ k1_pay1 r ρ hρ ?_
    rw [pay1_apply r]
    exact (Cert.BlockSum.upto_zero _).symm
  | succ n ih =>
    intro hn r ρ hρ
    by_cases h0 : (n + 1) % 8 = 0
    · have e := congrFun (acc_A V c ⟨n + 1, hn⟩ h0 (show ¬(n + 1) % 8 = 7 by omega)) (ix2 r (0 : Fin 1))
      refine e.trans ?_
      refine step V c ⟨n + 1, hn⟩ k1_pay1 r ρ hρ ?_
      rw [pay1_apply r]
      show (0 : EReal) = Cert.BlockSum.upto (wgt V c ρ) ((n + 1) % 8 * 1024)
      rw [h0, Nat.zero_mul]
      exact (Cert.BlockSum.upto_zero _).symm
    · have hprev : (outsAt1 V c n (Nat.lt_of_succ_lt hn)).2 (ix2 r (0 : Fin 1))
          = Cert.BlockSum.upto (wgt V c ρ) ((n + 1) % 8 * 1024) := by
        rw [ih (Nat.lt_of_succ_lt hn) r ρ (by omega)]
        congr 1
        omega
      by_cases h1 : (n + 1) % 8 = 7
      · have e := congrFun (acc_C V c ⟨n + 1, hn⟩ h0 h1) (ix2 r (0 : Fin 1))
        refine e.trans ?_
        exact step V c ⟨n + 1, hn⟩ _ r ρ hρ hprev
      · have e := congrFun (acc_B V c ⟨n + 1, hn⟩ h0 h1) (ix2 r (0 : Fin 1))
        refine e.trans ?_
        exact step V c ⟨n + 1, hn⟩ _ r ρ hρ hprev

/-- What the output array ends holding: at row ρ the weights of row ρ summed over all 8192 columns. -/
def rowSums (c : Dev nD) : S8192x1.Idx → EReal :=
  fun idx => ∑ j : Fin 8192, wgt V c (idx 0) j

/-- WHAT A LAST COLUMN TILE WRITES BACK is its row tile's block of the row sums. -/
theorem flushed_eq (c : Dev nD) (t : Fin cfg1.N) (hf : (cfg1.win 3).flush t = true) :
    (dat1 V c).flushed 3 t = ((cfg1.win 3).blk t).view.read (Elt Ideal) (rowSums V c) := by
  have h7 : t.val % 8 = 7 := (flush1_3 t).mp hf
  have hN : t.val < 64 := lt_of_lt_of_eq t.isLt (show cfg1.N = 64 from N_1)
  obtain ⟨-, -, -, -, -, -, e0, e1⟩ := idx_facts t
  show (cfg1.win 3).cut (grid1.coords t) ((dat1 V c).after 3 t) = _
  rw [after1_3, outblk_C V c t (by omega) h7]
  funext y
  obtain ⟨r, u, rfl⟩ : ∃ (r : Fin 1024) (u : Fin 1), y = ix2 r u := ⟨y 0, y 1, eq_ix2 y⟩
  obtain rfl : u = 0 := Subsingleton.elim _ _
  let ρ : Fin 8192 := ⟨1024 * (t.val / 8) + r.val, by have := r.isLt; omega⟩
  have hemb : (((cfg1.win 3).blk t).view.emb (ix2 r (0 : Fin 1)) : S8192x1.Idx) = ix2 ρ (0 : Fin 1) := by
    funext a; apply Fin.ext
    match a with
    | ⟨0, _⟩ => show win1_3.index t (0 : Fin 2) * 1024 + 1 * r.val = 1024 * (t.val / 8) + r.val; omega
    | ⟨1, _⟩ => show win1_3.index t (1 : Fin 2) * 1 + 1 * 0 = 0; omega
  show k1_pay2 (F := Ideal) (iblk1 V c 0 t) (iblk1 V c 1 t) (iblk1 V c 2 t) _ (ix2 r (0 : Fin 1))
    = rowSums V c (((cfg1.win 3).blk t).view.emb (ix2 r (0 : Fin 1)))
  rw [hemb]
  show _ = ∑ j : Fin 8192, wgt V c ρ j
  refine (step V c t _ r ρ rfl ?_).trans ?_
  · rw [acc_eq V c (t.val - 1) (Nat.lt_of_le_of_lt (Nat.sub_le _ _) t.isLt) r ρ (by show 1024 * (t.val / 8) + r.val = _; omega)]
    congr 1
    omega
  · rw [h7]
    exact Cert.BlockSum.upto_full _ _ (by norm_num)

/-- Every row of the output array is in the block some last column tile writes back: row ρ in the block of point
    8 (ρ / 1024) + 7. -/
theorem cover (c : Dev nD) (i : S8192x1.Idx) :
    ∃ t : Fin cfg1.N, (cfg1.win 3).flush t = true ∧ i ∈ ((cfg1.win 3).blk t).view.set := by
  have hi0 : (i 0).val < 8192 := (i 0).isLt
  have hi1 : (i 1).val < 1 := (i 1).isLt
  have hN : cfg1.N = 64 := N_1
  let t : Fin cfg1.N := ⟨8 * ((i 0).val / 1024) + 7, by omega⟩
  have ht : t.val = 8 * ((i 0).val / 1024) + 7 := rfl
  obtain ⟨-, -, -, -, -, -, e0, e1⟩ := idx_facts t
  refine ⟨t, (flush1_3 t).mpr (by omega), ?_⟩
  show i ∈ ((View.whole main_v14).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1 ≤ (i 1).val ∧ (i 1).val < win1_3.index t (1 : Fin 2) * 1 + 1; omega

/-- THE ARRAY after the region: at row ρ the sum over all 8192 columns j of exp (leaky (src ρ + dst j) - m ρ). -/
theorem arr_eq (c : Dev nD) (idx : S8192x1.Idx) :
    (dat1 (F := Ideal) V c).arrAt 3 cfg1.N idx
      = ∑ j : Fin 8192, Ideal.exp (Cert.Gat.leakyMax (srcArr V c (ix2 (idx 0) (0 : Fin 1)) + dstArr V c (ix2 (0 : Fin 1) j)) - maxArr V c (ix2 (idx 0) (0 : Fin 1))) :=
  congrFun ((dat1 V c).arrAt_eq_of_cover 3 (rowSums V c) (flushed_eq V c) (cover c)) idx

end Value2

end Cert.KernelIdeal.Hand.R1

namespace Cert.KernelIdeal.Hand

open Cert.KernelIdeal Cert.KernelIdeal.Gen
open Idealize.ShloMosaic Idealize.ShloMosaic.TcCoe Idealize.ShloMosaic.ValueIdx

/-- The row-sum kernel's array after the region, for any contents the region is entered with: at row ρ the sum over all
    8192 columns j of exp (leaky (src ρ + dst j) - m ρ). -/
theorem arr1_3 (V : (c : Dev nD) → (b : Ref sig .tc) → Buf (Elt Ideal) ((c : Thread nD τ).loc b)) (c : Dev nD) (idx : S8192x1.Idx) :
    (dat1 (F := Ideal) V c).arrAt 3 cfg1.N idx
      = ∑ j : Fin 8192, Ideal.exp (Cert.Gat.leakyMax (R1.srcArr V c (ix2 (idx 0) (0 : Fin 1)) + R1.dstArr V c (ix2 (0 : Fin 1) j)) - R1.maxArr V c (ix2 (idx 0) (0 : Fin 1))) :=
  R1.arr_eq V c idx

end Cert.KernelIdeal.Hand
end
-- ==== Proof.R2Vals.lean ====
import proofs.«152824_j20873541058924_2_alg».proof.Proof.R2Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, over the body's payloads

The pieces the three runs found, read back: the attention tile's staging buffer holds the tile `k2_pay3` of the
five input blocks; the accumulator holds its value before the point (zero at a first column, else what the point
before left) plus the tile's product with the feature block (`k2_pay4`, cast by `k2_pay1`); at a last column the second
output's staging buffer holds the accumulator. -/

theorem hz2 : (![0, 0] : Fin 2 → Nat) = fun _ => 0 := funext fun a => by fin_cases a <;> rfl

/-- Case A: the attention tile. -/
theorem outs2_A_tile (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) :
    (outs2_A c i arg2 harg2 arg3 harg3 arg4 harg4 arg5 harg5 arg6 harg6 arg7 harg7 arg8 harg8 arg9 harg9 arg10 harg10 hc0 hc1 x0 x1 x2 x3 x4 x5).1 = k2_pay3 x0 x1 x2 x3 x4 := by
  unfold outs2_A; dsimp only
  rw [View.read_writes_eq_canon _ _ _ (cover2_A_6 c i arg2 harg2 arg3 harg3 arg4 harg4 arg5 harg5 arg6 harg6 arg7 harg7 arg8 harg8 arg9 harg9 arg10 harg10 hc0 hc1 x0 x1 x2 x3 x4 x5)]
  unfold kernelRun2_A
  dsimp only
  rw [View.canon_unit_zero hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case B: the attention tile. -/
theorem outs2_B_tile (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    (outs2_B c i arg2 harg2 arg3 harg3 arg4 harg4 arg5 harg5 arg6 harg6 arg7 harg7 arg8 harg8 arg9 harg9 arg10 harg10 hc0 hc1 x0 x1 x2 x3 x4 x5 xs0).1 = k2_pay3 x0 x1 x2 x3 x4 := by
  unfold outs2_B; dsimp only
  rw [View.read_writes_eq_canon _ _ _ (cover2_B_6 c i arg2 harg2 arg3 harg3 arg4 harg4 arg5 harg5 arg6 harg6 arg7 harg7 arg8 harg8 arg9 harg9 arg10 harg10 hc0 hc1 x0 x1 x2 x3 x4 x5 xs0)]
  unfold kernelRun2_B
  dsimp only
  rw [View.canon_unit_zero hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case C: the attention tile. -/
theorem outs2_C_tile (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    (outs2_C c i arg2 harg2 arg3 harg3 arg4 harg4 arg5 harg5 arg6 harg6 arg7 harg7 arg8 harg8 arg9 harg9 arg10 harg10 hc0 hc1 x0 x1 x2 x3 x4 x5 xs0).1 = k2_pay3 x0 x1 x2 x3 x4 := by
  unfold outs2_C; dsimp only
  rw [View.read_writes_eq_canon _ _ _ (cover2_C_6 c i arg2 harg2 arg3 harg3 arg4 harg4 arg5 harg5 arg6 harg6 arg7 harg7 arg8 harg8 arg9 harg9 arg10 harg10 hc0 hc1 x0 x1 x2 x3 x4 x5 xs0)]
  unfold kernelRun2_C
  dsimp only
  rw [View.canon_unit_zero hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case A: the accumulator, reset then added into. -/
theorem outs2_A_acc (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) :
    (outs2_A c i arg2 harg2 arg3 harg3 arg4 harg4 arg5 harg5 arg6 harg6 arg7 harg7 arg8 harg8 arg9 harg9 arg10 harg10 hc0 hc1 x0 x1 x2 x3 x4 x5).2.2 = k2_pay1 (k2_pay4 x0 x1 x2 x3 x4 (k2_pay2 (F := F)) x5) := by
  unfold outs2_A; dsimp only
  rw [View.read_writes_eq_canon _ _ _ (scover2_A_0 c i arg2 harg2 arg3 harg3 arg4 harg4 arg5 harg5 arg6 harg6 arg7 harg7 arg8 harg8 arg9 harg9 arg10 harg10 hc0 hc1 x0 x1 x2 x3 x4 x5)]
  unfold kernelRun2_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case B: the accumulator, added into. -/
theorem outs2_B_acc (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : ¬cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    (outs2_B c i arg2 harg2 arg3 harg3 arg4 harg4 arg5 harg5 arg6 harg6 arg7 harg7 arg8 harg8 arg9 harg9 arg10 harg10 hc0 hc1 x0 x1 x2 x3 x4 x5 xs0).2.2 = k2_pay1 (k2_pay4 x0 x1 x2 x3 x4 xs0 x5) := by
  unfold outs2_B; dsimp only
  rw [View.read_writes_eq_canon _ _ _ (scover2_B_0 c i arg2 harg2 arg3 harg3 arg4 harg4 arg5 harg5 arg6 harg6 arg7 harg7 arg8 harg8 arg9 harg9 arg10 harg10 hc0 hc1 x0 x1 x2 x3 x4 x5 xs0)]
  unfold kernelRun2_B
  dsimp only
  rw [View.canon_unit_zero hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case C: the accumulator, added into. -/
theorem outs2_C_acc (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    (outs2_C c i arg2 harg2 arg3 harg3 arg4 harg4 arg5 harg5 arg6 harg6 arg7 harg7 arg8 harg8 arg9 harg9 arg10 harg10 hc0 hc1 x0 x1 x2 x3 x4 x5 xs0).2.2 = k2_pay1 (k2_pay4 x0 x1 x2 x3 x4 xs0 x5) := by
  unfold outs2_C; dsimp only
  rw [View.read_writes_eq_canon _ _ _ (scover2_C_0 c i arg2 harg2 arg3 harg3 arg4 harg4 arg5 harg5 arg6 harg6 arg7 harg7 arg8 harg8 arg9 harg9 arg10 harg10 hc0 hc1 x0 x1 x2 x3 x4 x5 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

/-- Case C: the second output's staging buffer holds the accumulator as the point leaves it. -/
theorem outs2_C_out (c : Dev nD) (i : grid2.Coords) (arg2 : Memref sig .tc .vmem S1024x1 .f32) (harg2 : arg2.IsWhole) (arg3 : Memref sig .tc .vmem S1x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x256 .f32) (harg7 : arg7.IsWhole) (arg8 : Memref sig .tc .vmem S1024x512 .f32) (harg8 : arg8.IsWhole) (arg9 : Memref sig .tc .vmem S1024x256 .f32) (harg9 : arg9.IsWhole) (arg10 : Memref sig .tc .vmem S1024x256 .f32) (harg10 : arg10.IsWhole) (hc0 : ¬cond2_0 i) (hc1 : cond2_1 i)
    (x0 : Vec F S1024x1 .f32) (x1 : Vec F S1x512 .f32) (x2 : Vec F S1024x1 .f32) (x3 : Vec F S1024x1 .f32) (x4 : Vec F S1024x512 .f32) (x5 : Vec F S512x256 .f32) (xs0 : Vec F S1024x256 .f32) :
    (outs2_C c i arg2 harg2 arg3 harg3 arg4 harg4 arg5 harg5 arg6 harg6 arg7 harg7 arg8 harg8 arg9 harg9 arg10 harg10 hc0 hc1 x0 x1 x2 x3 x4 x5 xs0).2.1 = k2_pay1 (k2_pay4 x0 x1 x2 x3 x4 xs0 x5) := by
  unfold outs2_C; dsimp only
  rw [View.read_writes_eq_canon _ _ _ (cover2_C_7 c i arg2 harg2 arg3 harg3 arg4 harg4 arg5 harg5 arg6 harg6 arg7 harg7 arg8 harg8 arg9 harg9 arg10 harg10 hc0 hc1 x0 x1 x2 x3 x4 x5 xs0)]
  unfold kernelRun2_C
  dsimp only
  sl_unfold_words
  rw [View.canon_unit_zero hz2, View.readCov_unit_zero (S := S1024x256) _ hz2]
  simp only [View.readAt_eq_ld, harg2.read_unread, harg3.read_unread, harg4.read_unread, harg5.read_unread, harg6.read_unread, harg7.read_unread, harg10.read_unread,
    View.ld_unit_zero (S := S1024x1) hz2, View.ld_unit_zero (S := S1x512) hz2, View.ld_unit_zero (S := S1024x512) hz2, View.ld_unit_zero (S := S512x256) hz2, View.ld_unit_zero (S := S1024x256) hz2]

end Cert.KernelIdeal.Hand

end
-- ==== Proof.R2Value.lean ====
/-
  The value of the attention kernel (the third kernel region) over the extended reals. From the six arrays the region
  is entered with — src (a column), dst (a row), the row maximum m and the reciprocal row sum (columns), the adjacency
  matrix and the projected features — it writes two arrays:
    the attention matrix, at (ρ, j):  exp (leaky (src ρ + dst j) - m ρ) * (1 / l) ρ * adj (ρ, j),   leaky t = max (t, slope t);
    the applied attention, at (ρ, k): the sum over all 8192 columns j of that weight times feature (j, k).

  The grid is 8 row tiles of 1024 by 16 column tiles of 512, walked row tile by row tile; point t is on row tile t / 16
  and column tile t % 16. At every point the body stores the tile of weights (`tile2_apply`) and adds the tile's
  product with the feature block into an accumulator that a first column resets to zero (`acc2_apply`, `zero2_apply`).
  Read through the windows the blocks are the arrays at rows 1024 (t / 16) + r and columns 512 (t % 16) + q
  (`iblk2_0_apply` … `iblk2_5_apply`), so one tile extends a sum over the columns below 512 (t % 16) to the columns below
  512 (t % 16 + 1) (`step2`), and by induction on the point the accumulator holds after point t the row's summands over
  the columns of the column tiles walked so far (`acc2_eq`). Every point writes its tile back (`flushed2_6`) and the
  128 tiles cover the attention matrix (`cover2_6`, `arr2_6`); a last column copies the accumulator, by then the sum
  over all columns, into the second output's block (`flushed2_7`), and those eight blocks cover that array
  (`cover2_7`, `arr2_7`).
-/
import proofs.«152824_j20873541058924_2_alg».proof.Proof.R2Vals
import proofs.«152824_j20873541058924_2_alg».proof.Proof.Spec
import proofs.«152824_j20873541058924_2_alg».proof.Proof.LibBlockSum
import proofs.«152824_j20873541058924_2_alg».proof.Proof.LibSoftmaxRows
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]

/-! ## The payloads at an entry, over the extended reals -/

/-- The body's matrix product: rows of the attention tile against columns of the feature block, one contracted axis. -/
abbrev dotTileFeat : DotDims S1024x512 S512x256 S1024x256 := dot_S1024x512_S512x256_S1024x256_1_0_0_1_n_n

/-- The block the accumulator is reset to is zero at every entry. -/
theorem zero2_apply (r : Fin 1024) (k : Fin 256) : k2_pay2 (F := Ideal) (ix2 r k) = 0 := by
  unfold k2_pay2
  refine (congrFun (shapeCast_self _ _) _).trans ?_
  exact Ideal.ofBits_zero_f32

/-- Entry (r, q) of the attention tile: exp (leaky (src r + dst q) - m r) times the reciprocal row sum at r times the
    adjacency entry, the leaky function written as a maximum. -/
theorem tile2_apply (v3 : FVec Ideal S1024x1 .f32) (v5 : FVec Ideal S1x512 .f32) (v13 v18 : FVec Ideal S1024x1 .f32)
    (v22 : FVec Ideal S1024x512 .f32) (r : Fin 1024) (q : Fin 512) :
    k2_pay3 (F := Ideal) v3 v5 v13 v18 v22 (ix2 r q)
      = Ideal.exp (Cert.Gat.leakyMax (v3 (ix2 r 0) + v5 (ix2 0 q)) - v13 (ix2 r 0)) * v18 (ix2 r 0) * v22 (ix2 r q) := by
  unfold k2_pay3
  have e3 : broadcastTo S1024x512 (shapeCast S1024x1 v3 shapeCasts_S1024x1_S1024x1) broadcasts_S1024x1_S1024x512 (ix2 r q) = v3 (ix2 r 0) :=
    (Cert.RowOps.broadcastTo_a1_ab_apply _ _ r q).trans (congrFun (shapeCast_self v3 _) _)
  have e5 : broadcastTo S1024x512 (shapeCast S1x512 v5 shapeCasts_S1x512_S1x512) broadcasts_S1x512_S1024x512 (ix2 r q) = v5 (ix2 0 q) :=
    (broadcastTo_1b_ab_apply _ _ r q).trans (congrFun (shapeCast_self v5 _) _)
  have e13 : broadcastTo S1024x512 (shapeCast S1024x1 v13 shapeCasts_S1024x1_S1024x1) broadcasts_S1024x1_S1024x512 (ix2 r q) = v13 (ix2 r 0) :=
    (Cert.RowOps.broadcastTo_a1_ab_apply _ _ r q).trans (congrFun (shapeCast_self v13 _) _)
  have e18 : broadcastTo S1024x512 (shapeCast S1024x1 v18 shapeCasts_S1024x1_S1024x1) broadcasts_S1024x1_S1024x512 (ix2 r q) = v18 (ix2 r 0) :=
    (Cert.RowOps.broadcastTo_a1_ab_apply _ _ r q).trans (congrFun (shapeCast_self v18 _) _)
  have key : ∀ a3 a3' a5 a5' a13 a13' a18 a18' a22 : EReal, a3 = a3' → a5 = a5' → a13 = a13' → a18 = a18' →
      Ideal.exp (max (a3 + a5) (Cert.Gat.slope * (a3 + a5)) - a13) * a18 * a22
        = Ideal.exp (Cert.Gat.leakyMax (a3' + a5') - a13') * a18' * a22 := by
    rintro _ _ _ _ _ _ _ _ _ rfl rfl rfl rfl; rfl
  have := key _ _ _ _ _ _ _ _ (v22 (ix2 r q)) e3 e5 e13 e18
  exact this

/-- Entry (r, k) of the accumulator after the point: what it held there plus the sum over the tile's 512 columns q of
    the tile's entry (r, q) times the feature block's entry (q, k): the narrowing of the operands is the identity on
    extended reals, and the product is taken into the zero splat. -/
theorem acc2_apply (v3 : FVec Ideal S1024x1 .f32) (v5 : FVec Ideal S1x512 .f32) (v13 v18 : FVec Ideal S1024x1 .f32)
    (v22 : FVec Ideal S1024x512 .f32) (v25 : FVec Ideal S1024x256 .f32) (v27 : FVec Ideal S512x256 .f32) (r : Fin 1024) (k : Fin 256) :
    k2_pay1 (F := Ideal) (k2_pay4 v3 v5 v13 v18 v22 v25 v27) (ix2 r k)
      = v25 (ix2 r k) + ∑ q : Fin 512, k2_pay3 v3 v5 v13 v18 v22 (ix2 r q) * v27 (ix2 q k) := by
  unfold k2_pay1
  refine (congrFun (shapeCast_self _ _) _).trans ?_
  unfold k2_pay4
  show v25 (ix2 r k) + FloatOps.matmul dotTileFeat none _ _ (constant S1024x256 .f32 0x00000000#32) (ix2 r k) = _
  refine congrArg (v25 (ix2 r k) + ·) ?_
  rw [Ideal.matmul_constant_zero_apply, ← Equiv.sum_comp (contrEquiv1 dotTileFeat 512 rfl rfl).symm]
  refine Finset.sum_congr rfl fun q _ => ?_
  have cq := contrEquiv1_symm_val dotTileFeat 512 rfl rfl q
  have l : dotTileFeat.lhsIdx (ix2 r k) ((contrEquiv1 dotTileFeat 512 rfl rfl).symm q) = ix2 r q := by
    funext ax; apply Fin.ext
    match ax with
    | ⟨0, _⟩ => simp [DotDims.lhsIdx, dotTileFeat, dot_S1024x512_S512x256_S1024x256_1_0_0_1_n_n]; rfl
    | ⟨1, _⟩ => exact (dotTileFeat.lhsIdx_val_of_single (cl := 1) rfl _ _).trans cq
  have rr : dotTileFeat.rhsIdx (ix2 r k) ((contrEquiv1 dotTileFeat 512 rfl rfl).symm q) = ix2 q k := by
    funext ax; apply Fin.ext
    match ax with
    | ⟨0, _⟩ => exact (dotTileFeat.rhsIdx_val_of_single (cr := 0) rfl _ _).trans cq
    | ⟨1, _⟩ => simp [DotDims.rhsIdx, dotTileFeat, dot_S1024x512_S512x256_S1024x256_1_0_0_1_n_n]; rfl
  rw [l, rr]
  exact congrArg (k2_pay3 v3 v5 v13 v18 v22 (ix2 r q) * ·) (congrFun (shapeCast_self v27 _) _)

/-! ## The windows' blocks, entry by entry -/

/-- The printed index maps, decided over the grid: at point t the row windows are on row tile t / 16, the column
    windows on column tile t % 16. -/
theorem idx_facts2 : ∀ t : Fin cfg2.N, win2_0.index t (0 : Fin 2) = t.val / 16 ∧ win2_0.index t (1 : Fin 2) = 0
    ∧ win2_1.index t (0 : Fin 2) = 0 ∧ win2_1.index t (1 : Fin 2) = t.val % 16
    ∧ win2_2.index t (0 : Fin 2) = t.val / 16 ∧ win2_2.index t (1 : Fin 2) = 0
    ∧ win2_3.index t (0 : Fin 2) = t.val / 16 ∧ win2_3.index t (1 : Fin 2) = 0
    ∧ win2_4.index t (0 : Fin 2) = t.val / 16 ∧ win2_4.index t (1 : Fin 2) = t.val % 16
    ∧ win2_5.index t (0 : Fin 2) = t.val % 16 ∧ win2_5.index t (1 : Fin 2) = 0
    ∧ win2_6.index t (0 : Fin 2) = t.val / 16 ∧ win2_6.index t (1 : Fin 2) = t.val % 16
    ∧ win2_7.index t (0 : Fin 2) = t.val / 16 ∧ win2_7.index t (1 : Fin 2) = 0 :=
  (by decide +kernel : ∀ t : Fin grid2.N, _)

section Blocks
variable (V : (c : Dev nD) → (b : Ref sig .tc) → Buf (Elt Ideal) ((c : Thread nD τ).loc b))

/-- The six arrays the region is entered with, as extended-real arrays: the source half of the logit (a column), the
    destination half (a row), the row maximum and the reciprocal row sum (columns), the adjacency matrix and the
    projected features. -/
abbrev R2.srcArr (c : Dev nD) : S8192x1.Idx → EReal := V c main_v6_1
abbrev R2.dstArr (c : Dev nD) : S1x8192.Idx → EReal := V c main_v7
abbrev R2.maxArr (c : Dev nD) : S8192x1.Idx → EReal := V c main_v13
abbrev R2.invArr (c : Dev nD) : S8192x1.Idx → EReal := V c main_v16
abbrev R2.adjArr (c : Dev nD) : S8192x8192.Idx → EReal := V c main_arg1
abbrev R2.hArr (c : Dev nD) : S8192x256.Idx → EReal := V c main_v6_0

/-- The source block at point t, row r, is the source half at row 1024 (t / 16) + r. -/
theorem iblk2_0_apply (c : Dev nD) (t : Fin cfg2.N) (r : Fin 1024) (ρ : Fin 8192) (hρ : ρ.val = 1024 * (t.val / 16) + r.val) :
    (iblk2 V c 0 t : Vec Ideal S1024x1 .f32) (ix2 r (0 : Fin 1)) = R2.srcArr V c (ix2 ρ (0 : Fin 1)) := by
  obtain ⟨e0, e1, -⟩ := idx_facts2 t
  show V c main_v6_1 (((cfg2.win 0).blk t).view.emb (ix2 r (0 : Fin 1))) = _
  refine congrArg (V c main_v6_1) (funext fun a => Fin.ext ?_)
  match a with
  | ⟨0, _⟩ => show win2_0.index t (0 : Fin 2) * 1024 + 1 * r.val = ρ.val; omega
  | ⟨1, _⟩ => show win2_0.index t (1 : Fin 2) * 1 + 1 * 0 = 0; omega

/-- The destination block at point t, column q, is the destination half at column 512 (t % 16) + q. -/
theorem iblk2_1_apply (c : Dev nD) (t : Fin cfg2.N) (q : Fin 512) (j : Fin 8192) (hj : j.val = (t.val % 16) * 512 + q.val) :
    (iblk2 V c 1 t : Vec Ideal S1x512 .f32) (ix2 (0 : Fin 1) q) = R2.dstArr V c (ix2 (0 : Fin 1) j) := by
  obtain ⟨-, -, e0, e1, -⟩ := idx_facts2 t
  show V c main_v7 (((cfg2.win 1).blk t).view.emb (ix2 (0 : Fin 1) q)) = _
  refine congrArg (V c main_v7) (funext fun a => Fin.ext ?_)
  match a with
  | ⟨0, _⟩ => show win2_1.index t (0 : Fin 2) * 1 + 1 * 0 = 0; omega
  | ⟨1, _⟩ => show win2_1.index t (1 : Fin 2) * 512 + 1 * q.val = j.val; omega

/-- The row-maximum block at point t, row r, is the row maximum at row 1024 (t / 16) + r. -/
theorem iblk2_2_apply (c : Dev nD) (t : Fin cfg2.N) (r : Fin 1024) (ρ : Fin 8192) (hρ : ρ.val = 1024 * (t.val / 16) + r.val) :
    (iblk2 V c 2 t : Vec Ideal S1024x1 .f32) (ix2 r (0 : Fin 1)) = R2.maxArr V c (ix2 ρ (0 : Fin 1)) := by
  obtain ⟨-, -, -, -, e0, e1, -⟩ := idx_facts2 t
  show V c main_v13 (((cfg2.win 2).blk t).view.emb (ix2 r (0 : Fin 1))) = _
  refine congrArg (V c main_v13) (funext fun a => Fin.ext ?_)
  match a with
  | ⟨0, _⟩ => show win2_2.index t (0 : Fin 2) * 1024 + 1 * r.val = ρ.val; omega
  | ⟨1, _⟩ => show win2_2.index t (1 : Fin 2) * 1 + 1 * 0 = 0; omega

/-- The reciprocal-row-sum block at point t, row r, is the reciprocal row sum at row 1024 (t / 16) + r. -/
theorem iblk2_3_apply (c : Dev nD) (t : Fin cfg2.N) (r : Fin 1024) (ρ : Fin 8192) (hρ : ρ.val = 1024 * (t.val / 16) + r.val) :
    (iblk2 V c 3 t : Vec Ideal S1024x1 .f32) (ix2 r (0 : Fin 1)) = R2.invArr V c (ix2 ρ (0 : Fin 1)) := by
  obtain ⟨-, -, -, -, -, -, e0, e1, -⟩ := idx_facts2 t
  show V c main_v16 (((cfg2.win 3).blk t).view.emb (ix2 r (0 : Fin 1))) = _
  refine congrArg (V c main_v16) (funext fun a => Fin.ext ?_)
  match a with
  | ⟨0, _⟩ => show win2_3.index t (0 : Fin 2) * 1024 + 1 * r.val = ρ.val; omega
  | ⟨1, _⟩ => show win2_3.index t (1 : Fin 2) * 1 + 1 * 0 = 0; omega

/-- The adjacency block at point t, entry (r, q), is the adjacency entry (1024 (t / 16) + r, 512 (t % 16) + q). -/
theorem iblk2_4_apply (c : Dev nD) (t : Fin cfg2.N) (r : Fin 1024) (q : Fin 512) (ρ j : Fin 8192)
    (hρ : ρ.val = 1024 * (t.val / 16) + r.val) (hj : j.val = (t.val % 16) * 512 + q.val) :
    (iblk2 V c 4 t : Vec Ideal S1024x512 .f32) (ix2 r q) = R2.adjArr V c (ix2 ρ j) := by
  obtain ⟨-, -, -, -, -, -, -, -, e0, e1, -⟩ := idx_facts2 t
  show V c main_arg1 (((cfg2.win 4).blk t).view.emb (ix2 r q)) = _
  refine congrArg (V c main_arg1) (funext fun a => Fin.ext ?_)
  match a with
  | ⟨0, _⟩ => show win2_4.index t (0 : Fin 2) * 1024 + 1 * r.val = ρ.val; omega
  | ⟨1, _⟩ => show win2_4.index t (1 : Fin 2) * 512 + 1 * q.val = j.val; omega

/-- The feature block at point t, entry (q, k), is the feature entry (512 (t % 16) + q, k). -/
theorem iblk2_5_apply (c : Dev nD) (t : Fin cfg2.N) (q : Fin 512) (k : Fin 256) (j : Fin 8192)
    (hj : j.val = (t.val % 16) * 512 + q.val) :
    (iblk2 V c 5 t : Vec Ideal S512x256 .f32) (ix2 q k) = R2.hArr V c (ix2 j k) := by
  obtain ⟨-, -, -, -, -, -, -, -, -, -, e0, e1, -⟩ := idx_facts2 t
  show V c main_v6_0 (((cfg2.win 5).blk t).view.emb (ix2 q k)) = _
  refine congrArg (V c main_v6_0) (funext fun a => Fin.ext ?_)
  match a with
  | ⟨0, _⟩ => show win2_5.index t (0 : Fin 2) * 512 + 1 * q.val = j.val; omega
  | ⟨1, _⟩ => show win2_5.index t (1 : Fin 2) * 256 + 1 * k.val = k.val; omega

/-- The masked attention weight of the edge (ρ, j), read off the five arrays the region is entered with:
    exp (leaky (src ρ + dst j) - m ρ) times the reciprocal row sum at ρ times the adjacency entry. -/
def att2 (c : Dev nD) (ρ j : Fin 8192) : EReal :=
  Ideal.exp (Cert.Gat.leakyMax (R2.srcArr V c (ix2 ρ (0 : Fin 1)) + R2.dstArr V c (ix2 (0 : Fin 1) j)) - R2.maxArr V c (ix2 ρ (0 : Fin 1)))
    * R2.invArr V c (ix2 ρ (0 : Fin 1)) * R2.adjArr V c (ix2 ρ j)

/-- The summand of the attention applied to the features: the weight of the edge (ρ, j) times the feature (j, k). -/
def term2 (c : Dev nD) (ρ : Fin 8192) (k : Fin 256) (j : Fin 8192) : EReal :=
  att2 V c ρ j * R2.hArr V c (ix2 j k)

/-- The tile at point t, entry (r, q), is the masked attention weight of the edge (1024 (t / 16) + r, 512 (t % 16) + q). -/
theorem tile2_eq (c : Dev nD) (t : Fin cfg2.N) (r : Fin 1024) (q : Fin 512) (ρ j : Fin 8192)
    (hρ : ρ.val = 1024 * (t.val / 16) + r.val) (hj : j.val = (t.val % 16) * 512 + q.val) :
    k2_pay3 (F := Ideal) (iblk2 V c 0 t) (iblk2 V c 1 t) (iblk2 V c 2 t) (iblk2 V c 3 t) (iblk2 V c 4 t) (ix2 r q) = att2 V c ρ j := by
  refine (tile2_apply (iblk2 V c 0 t) (iblk2 V c 1 t) (iblk2 V c 2 t) (iblk2 V c 3 t) (iblk2 V c 4 t) r q).trans ?_
  unfold att2
  rw [iblk2_0_apply V c t r ρ hρ, iblk2_1_apply V c t q j hj, iblk2_2_apply V c t r ρ hρ, iblk2_3_apply V c t r ρ hρ,
    iblk2_4_apply V c t r q ρ j hρ hj]

/-- One tile's step: if the accumulator holds at (r, k) the summands of row ρ summed over the columns before the
    tile's, the body leaves them summed over the columns up to the tile's end. -/
theorem step2 (c : Dev nD) (t : Fin cfg2.N) (xs : FVec Ideal S1024x256 .f32) (r : Fin 1024) (k : Fin 256) (ρ : Fin 8192)
    (hρ : ρ.val = 1024 * (t.val / 16) + r.val)
    (hxs : xs (ix2 r k) = Cert.BlockSum.upto (term2 V c ρ k) ((t.val % 16) * 512)) :
    k2_pay1 (F := Ideal) (k2_pay4 (iblk2 V c 0 t) (iblk2 V c 1 t) (iblk2 V c 2 t) (iblk2 V c 3 t) (iblk2 V c 4 t) xs (iblk2 V c 5 t)) (ix2 r k)
      = Cert.BlockSum.upto (term2 V c ρ k) ((t.val % 16 + 1) * 512) := by
  have hb : (t.val % 16 + 1) * 512 ≤ 8192 := by omega
  refine (acc2_apply (iblk2 V c 0 t) (iblk2 V c 1 t) (iblk2 V c 2 t) (iblk2 V c 3 t) (iblk2 V c 4 t) xs (iblk2 V c 5 t) r k).trans ?_
  rw [Cert.BlockSum.upto_add_block (term2 V c ρ k) (t.val % 16) 512 hb, hxs]
  refine congrArg (Cert.BlockSum.upto (term2 V c ρ k) ((t.val % 16) * 512) + ·) (Finset.sum_congr rfl fun q _ => ?_)
  unfold term2
  rw [tile2_eq V c t r q ρ ⟨(t.val % 16) * 512 + q.val, Cert.BlockSum.block_lt hb q⟩ hρ rfl,
    iblk2_5_apply V c t q k ⟨(t.val % 16) * 512 + q.val, Cert.BlockSum.block_lt hb q⟩ rfl]

end Blocks

/-! ## The buffers after each point, as payloads of the point's blocks -/

section Points
variable (V : (c : Dev nD) → (b : Ref sig .tc) → Buf (Elt F) ((c : Thread nD τ).loc b))

set_option maxHeartbeats 2000000 in
/-- After every point the attention tile's buffer holds the tile of the point's five blocks. -/
theorem tile2_pt (c : Dev nD) (t : Fin cfg2.N) :
    (outsAt2 V c t.val t.isLt).1 = k2_pay3 (iblk2 V c 0 t) (iblk2 V c 1 t) (iblk2 V c 2 t) (iblk2 V c 3 t) (iblk2 V c 4 t) := by
  by_cases h0 : t.val % 16 = 0
  · rw [outsAt2_A V c t h0]
    unfold ptA
    exact outs2_A_tile (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)
  · by_cases h1 : t.val % 16 = 15
    · rw [outsAt2_C V c t h0 h1]
      unfold ptC
      exact outs2_C_tile (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2
    · rw [outsAt2_B V c t h0 h1]
      unfold ptB
      exact outs2_B_tile (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2

set_option maxHeartbeats 2000000 in
/-- After a first column the accumulator holds the point's product over the zero block. -/
theorem acc2_A (c : Dev nD) (t : Fin cfg2.N) (h0 : t.val % 16 = 0) :
    (outsAt2 V c t.val t.isLt).2.2 = k2_pay1 (k2_pay4 (iblk2 V c 0 t) (iblk2 V c 1 t) (iblk2 V c 2 t) (iblk2 V c 3 t) (iblk2 V c 4 t) (k2_pay2 (F := F)) (iblk2 V c 5 t)) := by
  rw [outsAt2_A V c t h0]
  unfold ptA
  exact outs2_A_acc (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => by have := (hcond2_1 t).mp h; omega) (iblk2 V c 0 t) (iblk2 V c 1 t) (iblk2 V c 2 t) (iblk2 V c 3 t) (iblk2 V c 4 t) (iblk2 V c 5 t)

set_option maxHeartbeats 2000000 in
/-- After any other column it holds the point's product over what the point before left. -/
theorem acc2_BC (c : Dev nD) (t : Fin cfg2.N) (h0 : ¬t.val % 16 = 0) :
    (outsAt2 V c t.val t.isLt).2.2 = k2_pay1 (k2_pay4 (iblk2 V c 0 t) (iblk2 V c 1 t) (iblk2 V c 2 t) (iblk2 V c 3 t) (iblk2 V c 4 t) (outsAt2 V c (t.val - 1) (Nat.lt_of_le_of_lt (Nat.sub_le _ _) t.isLt)).2.2 (iblk2 V c 5 t)) := by
  by_cases h1 : t.val % 16 = 15
  · rw [outsAt2_C V c t h0 h1]
    unfold ptC
    exact outs2_C_acc (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2
  · rw [outsAt2_B V c t h0 h1]
    unfold ptB
    exact outs2_B_acc (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2

set_option maxHeartbeats 2000000 in
/-- After a last column the second output's buffer holds the same as the accumulator. -/
theorem out2_C (c : Dev nD) (t : Fin cfg2.N) (h0 : ¬t.val % 16 = 0) (h1 : t.val % 16 = 15) :
    (outsAt2 V c t.val t.isLt).2.1 = k2_pay1 (k2_pay4 (iblk2 V c 0 t) (iblk2 V c 1 t) (iblk2 V c 2 t) (iblk2 V c 3 t) (iblk2 V c 4 t) (outsAt2 V c (t.val - 1) (Nat.lt_of_le_of_lt (Nat.sub_le _ _) t.isLt)).2.2 (iblk2 V c 5 t)) := by
  rw [outsAt2_C V c t h0 h1]
  unfold ptC
  exact outs2_C_out (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2

end Points

/-! ## The invariant, the write-backs and the arrays -/

section Arrays
variable (V : (c : Dev nD) → (b : Ref sig .tc) → Buf (Elt Ideal) ((c : Thread nD τ).loc b))

/-- THE INVARIANT. After point n = 16 R + C the accumulator holds, at (r, k), the summands of row 1024 R + r summed
    over the columns of the column tiles 0 … C: by induction on the point. -/
theorem acc2_eq (c : Dev nD) : ∀ (n : ℕ) (hn : n < cfg2.N) (r : Fin 1024) (k : Fin 256) (ρ : Fin 8192), ρ.val = 1024 * (n / 16) + r.val →
    (outsAt2 V c n hn).2.2 (ix2 r k) = Cert.BlockSum.upto (term2 V c ρ k) ((n % 16 + 1) * 512) := by
  intro n
  induction n with
  | zero =>
    intro hn r k ρ hρ
    have e := congrFun (acc2_A V c ⟨0, hn⟩ rfl) (ix2 r k)
    refine e.trans ?_
    refine step2 V c ⟨0, hn⟩ k2_pay2 r k ρ hρ ?_
    rw [zero2_apply r k]
    exact (Cert.BlockSum.upto_zero _).symm
  | succ n ih =>
    intro hn r k ρ hρ
    by_cases h0 : (n + 1) % 16 = 0
    · have e := congrFun (acc2_A V c ⟨n + 1, hn⟩ h0) (ix2 r k)
      refine e.trans ?_
      refine step2 V c ⟨n + 1, hn⟩ k2_pay2 r k ρ hρ ?_
      rw [zero2_apply r k]
      show (0 : EReal) = Cert.BlockSum.upto (term2 V c ρ k) ((n + 1) % 16 * 512)
      rw [h0, Nat.zero_mul]
      exact (Cert.BlockSum.upto_zero _).symm
    · have hprev : (outsAt2 V c n (Nat.lt_of_succ_lt hn)).2.2 (ix2 r k)
          = Cert.BlockSum.upto (term2 V c ρ k) ((n + 1) % 16 * 512) := by
        rw [ih (Nat.lt_of_succ_lt hn) r k ρ (by omega)]
        congr 1
        omega
      have e := congrFun (acc2_BC V c ⟨n + 1, hn⟩ h0) (ix2 r k)
      refine e.trans ?_
      exact step2 V c ⟨n + 1, hn⟩ _ r k ρ hρ hprev

/-- What the attention array ends holding: at (ρ, j) the masked attention weight of the edge (ρ, j). -/
def attArr2 (c : Dev nD) : S8192x8192.Idx → EReal :=
  fun idx => att2 V c (idx 0) (idx 1)

/-- What the second output array ends holding: at (ρ, k) the weights of row ρ applied to column k of the features. -/
def outArr2 (c : Dev nD) : S8192x256.Idx → EReal :=
  fun idx => ∑ j : Fin 8192, term2 V c (idx 0) (idx 1) j

/-- WHAT EVERY POINT WRITES BACK into the attention array is its tile's block of the masked attention weights. -/
theorem flushed2_6 (c : Dev nD) (t : Fin cfg2.N) (hf : (cfg2.win 6).flush t = true) :
    (dat2 V c).flushed 6 t = ((cfg2.win 6).blk t).view.read (Elt Ideal) (attArr2 V c) := by
  have hN : t.val < 128 := lt_of_lt_of_eq t.isLt (show cfg2.N = 128 from N_2)
  obtain ⟨-, -, -, -, -, -, -, -, -, -, -, -, e0, e1, -⟩ := idx_facts2 t
  show (cfg2.win 6).cut (grid2.coords t) ((dat2 V c).after 6 t) = _
  rw [after2_6, tile2_pt V c t]
  funext y
  obtain ⟨r, q, rfl⟩ : ∃ (r : Fin 1024) (q : Fin 512), y = ix2 r q := ⟨y 0, y 1, eq_ix2 y⟩
  let ρ : Fin 8192 := ⟨1024 * (t.val / 16) + r.val, by have := r.isLt; omega⟩
  let j : Fin 8192 := ⟨(t.val % 16) * 512 + q.val, by have := q.isLt; omega⟩
  have hemb : (((cfg2.win 6).blk t).view.emb (ix2 r q) : S8192x8192.Idx) = ix2 ρ j := by
    funext a; apply Fin.ext
    match a with
    | ⟨0, _⟩ => show win2_6.index t (0 : Fin 2) * 1024 + 1 * r.val = 1024 * (t.val / 16) + r.val; omega
    | ⟨1, _⟩ => show win2_6.index t (1 : Fin 2) * 512 + 1 * q.val = (t.val % 16) * 512 + q.val; omega
  show k2_pay3 (F := Ideal) (iblk2 V c 0 t) (iblk2 V c 1 t) (iblk2 V c 2 t) (iblk2 V c 3 t) (iblk2 V c 4 t) (ix2 r q) = attArr2 V c (((cfg2.win 6).blk t).view.emb (ix2 r q))
  rw [hemb]
  exact tile2_eq V c t r q ρ j rfl rfl

/-- Every entry of the attention array is in the block some point writes back: entry (ρ, j) in the block of point
    16 (ρ / 1024) + j / 512. -/
theorem cover2_6 (c : Dev nD) (i : S8192x8192.Idx) :
    ∃ t : Fin cfg2.N, (cfg2.win 6).flush t = true ∧ i ∈ ((cfg2.win 6).blk t).view.set := by
  have hi0 : (i 0).val < 8192 := (i 0).isLt
  have hi1 : (i 1).val < 8192 := (i 1).isLt
  have hN : cfg2.N = 128 := N_2
  let t : Fin cfg2.N := ⟨16 * ((i 0).val / 1024) + (i 1).val / 512, by omega⟩
  have ht : t.val = 16 * ((i 0).val / 1024) + (i 1).val / 512 := rfl
  obtain ⟨-, -, -, -, -, -, -, -, -, -, -, -, e0, e1, -⟩ := idx_facts2 t
  refine ⟨t, flush2_6 t, ?_⟩
  show i ∈ ((View.whole main_v17_0).slice (win2_6.rect t)).set
  rw [View.set_slice_whole, Rect.mem_set_unit]
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 512 ≤ (i 1).val ∧ (i 1).val < win2_6.index t (1 : Fin 2) * 512 + 512; omega

/-- THE ATTENTION ARRAY after the region: at (r, q) exp (leaky (src r + dst q) - m r) times the reciprocal row sum at
    r times the adjacency entry (r, q). -/
theorem arr2_6 (c : Dev nD) (r q : Fin 8192) :
    ((dat2 (F := Ideal) V c).arrAt 6 cfg2.N : S8192x8192.Idx → EReal) (ix2 r q)
      = Ideal.exp (Cert.Gat.leakyMax (R2.srcArr V c (ix2 r (0 : Fin 1)) + R2.dstArr V c (ix2 (0 : Fin 1) q)) - R2.maxArr V c (ix2 r (0 : Fin 1)))
        * R2.invArr V c (ix2 r (0 : Fin 1)) * R2.adjArr V c (ix2 r q) :=
  congrFun ((dat2 V c).arrAt_eq_of_cover 6 (attArr2 V c) (flushed2_6 V c) (cover2_6 c)) (ix2 r q)

/-- WHAT A LAST COLUMN WRITES BACK into the second output array is its row tile's block of the applied attention. -/
theorem flushed2_7 (c : Dev nD) (t : Fin cfg2.N) (hf : (cfg2.win 7).flush t = true) :
    (dat2 V c).flushed 7 t = ((cfg2.win 7).blk t).view.read (Elt Ideal) (outArr2 V c) := by
  have h15 : t.val % 16 = 15 := (flush2_7 t).mp hf
  have hN : t.val < 128 := lt_of_lt_of_eq t.isLt (show cfg2.N = 128 from N_2)
  obtain ⟨-, -, -, -, -, -, -, -, -, -, -, -, -, -, e0, e1⟩ := idx_facts2 t
  show (cfg2.win 7).cut (grid2.coords t) ((dat2 V c).after 7 t) = _
  rw [after2_7, out2_C V c t (by omega) h15]
  funext y
  obtain ⟨r, k, rfl⟩ : ∃ (r : Fin 1024) (k : Fin 256), y = ix2 r k := ⟨y 0, y 1, eq_ix2 y⟩
  let ρ : Fin 8192 := ⟨1024 * (t.val / 16) + r.val, by have := r.isLt; omega⟩
  have hemb : (((cfg2.win 7).blk t).view.emb (ix2 r k) : S8192x256.Idx) = ix2 ρ k := by
    funext a; apply Fin.ext
    match a with
    | ⟨0, _⟩ => show win2_7.index t (0 : Fin 2) * 1024 + 1 * r.val = 1024 * (t.val / 16) + r.val; omega
    | ⟨1, _⟩ => show win2_7.index t (1 : Fin 2) * 256 + 1 * k.val = k.val; omega
  show k2_pay1 (F := Ideal) (k2_pay4 (iblk2 V c 0 t) (iblk2 V c 1 t) (iblk2 V c 2 t) (iblk2 V c 3 t) (iblk2 V c 4 t) _ (iblk2 V c 5 t)) (ix2 r k)
    = outArr2 V c (((cfg2.win 7).blk t).view.emb (ix2 r k))
  rw [hemb]
  show _ = ∑ j : Fin 8192, term2 V c ρ k j
  refine (step2 V c t _ r k ρ rfl ?_).trans ?_
  · rw [acc2_eq V c (t.val - 1) (Nat.lt_of_le_of_lt (Nat.sub_le _ _) t.isLt) r k ρ (by show 1024 * (t.val / 16) + r.val = _; omega)]
    congr 1
    omega
  · rw [h15]
    exact Cert.BlockSum.upto_full _ _ (by norm_num)

/-- Every entry of the second output array is in the block some last column writes back: row ρ in the block of point
    16 (ρ / 1024) + 15. -/
theorem cover2_7 (c : Dev nD) (i : S8192x256.Idx) :
    ∃ t : Fin cfg2.N, (cfg2.win 7).flush t = true ∧ i ∈ ((cfg2.win 7).blk t).view.set := by
  have hi0 : (i 0).val < 8192 := (i 0).isLt
  have hi1 : (i 1).val < 256 := (i 1).isLt
  have hN : cfg2.N = 128 := N_2
  let t : Fin cfg2.N := ⟨16 * ((i 0).val / 1024) + 15, by omega⟩
  have ht : t.val = 16 * ((i 0).val / 1024) + 15 := rfl
  obtain ⟨-, -, -, -, -, -, -, -, -, -, -, -, -, -, e0, e1⟩ := idx_facts2 t
  refine ⟨t, (flush2_7 t).mpr (by omega), ?_⟩
  show i ∈ ((View.whole main_v17_1).slice (win2_7.rect t)).set
  rw [View.set_slice_whole, Rect.mem_set_unit]
  intro a
  match a with
  | ⟨0, _⟩ => show win2_7.index t (0 : Fin 2) * 1024 ≤ (i 0).val ∧ (i 0).val < win2_7.index t (0 : Fin 2) * 1024 + 1024; omega
  | ⟨1, _⟩ => show win2_7.index t (1 : Fin 2) * 256 ≤ (i 1).val ∧ (i 1).val < win2_7.index t (1 : Fin 2) * 256 + 256; omega

/-- THE SECOND OUTPUT ARRAY after the region: at (r, k) the sum over all 8192 columns j of the masked attention
    weight of the edge (r, j) times the feature (j, k). -/
theorem arr2_7 (c : Dev nD) (r : Fin 8192) (k : Fin 256) :
    ((dat2 (F := Ideal) V c).arrAt 7 cfg2.N : S8192x256.Idx → EReal) (ix2 r k)
      = ∑ j : Fin 8192, (Ideal.exp (Cert.Gat.leakyMax (R2.srcArr V c (ix2 r (0 : Fin 1)) + R2.dstArr V c (ix2 (0 : Fin 1) j)) - R2.maxArr V c (ix2 r (0 : Fin 1)))
        * R2.invArr V c (ix2 r (0 : Fin 1)) * R2.adjArr V c (ix2 r j))
        * R2.hArr V c (ix2 j k) :=
  congrFun ((dat2 V c).arrAt_eq_of_cover 7 (outArr2 V c) (flushed2_7 V c) (cover2_7 c)) (ix2 r k)

end Arrays

end Cert.KernelIdeal.Hand

end
-- ==== Proof.KernelValue.lean ====
/-
  What the kernel program computes, index by index, over the extended reals: its two result arrays are the CLOSED form
  of the graph-attention layer.
  The first region leaves the projected features and, from them and the two halves of the attention vector, the source
  and destination halves of the logit. The host turns the destination halves into a row and forms the row maximum in
  closed form, the leaky ReLU of the source half plus the largest destination half. The second region leaves, row by
  row, the sum of the weights exp (leaky (src + dst) - max), and the host takes its reciprocal. The third region leaves
  the masked attention weights, weight times reciprocal times adjacency entry, and their product with the projected
  features. What the third region leaves enters as two statements, for any contents it is entered with; they are first
  taken as hypotheses and then supplied by the third region's own value theorems.
-/
import proofs.«152824_j20873541058924_2_alg».proof.Proof.Keep
import proofs.«152824_j20873541058924_2_alg».proof.Proof.Spec
import proofs.«152824_j20873541058924_2_alg».proof.Proof.R0Value
import proofs.«152824_j20873541058924_2_alg».proof.Proof.R0ValueHost
import proofs.«152824_j20873541058924_2_alg».proof.Proof.R0ValueSpec
import proofs.«152824_j20873541058924_2_alg».proof.Proof.R1Value
import proofs.«152824_j20873541058924_2_alg».proof.Proof.R2Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The third region's entry arrays, typed -/

namespace KV

variable (V : (c : Dev nD) → (b : Ref sig .tc) → Buf (Elt Ideal) ((c : Thread nD τ).loc b))

/-- The source halves, the row of destination halves, the row maxima, the reciprocals of the row sums, the adjacency
    matrix and the projected features, as the third region is entered with them. -/
abbrev srcArr (c : Dev nD) : S8192x1.Idx → EReal := V c main_v6_1
abbrev dstArr (c : Dev nD) : S1x8192.Idx → EReal := V c main_v7
abbrev maxArr (c : Dev nD) : S8192x1.Idx → EReal := V c main_v13
abbrev invArr (c : Dev nD) : S8192x1.Idx → EReal := V c main_v16
abbrev adjArr (c : Dev nD) : S8192x8192.Idx → EReal := V c main_arg1
abbrev hArr (c : Dev nD) : S8192x256.Idx → EReal := V c main_v6_0

end KV

/-- What the third region leaves in its two outputs, for any contents it is entered with: the masked attention weight
    of each edge, and the weights of each row applied to each column of the features. -/
structure Region2Values : Prop where
  att : ∀ (V : (c : Dev nD) → (b : Ref sig .tc) → Buf (Elt Ideal) ((c : Thread nD τ).loc b)) (c : Dev nD) (r q : Fin 8192),
    ((dat2 (F := Ideal) V c).arrAt 6 cfg2.N : S8192x8192.Idx → EReal) (ix2 r q)
      = Ideal.exp (Cert.Gat.leakyMax (KV.srcArr V c (ix2 r (0 : Fin 1)) + KV.dstArr V c (ix2 (0 : Fin 1) q)) - KV.maxArr V c (ix2 r (0 : Fin 1)))
        * KV.invArr V c (ix2 r (0 : Fin 1)) * KV.adjArr V c (ix2 r q)
  out : ∀ (V : (c : Dev nD) → (b : Ref sig .tc) → Buf (Elt Ideal) ((c : Thread nD τ).loc b)) (c : Dev nD) (r : Fin 8192) (k : Fin 256),
    ((dat2 (F := Ideal) V c).arrAt 7 cfg2.N : S8192x256.Idx → EReal) (ix2 r k)
      = ∑ j : Fin 8192, (Ideal.exp (Cert.Gat.leakyMax (KV.srcArr V c (ix2 r (0 : Fin 1)) + KV.dstArr V c (ix2 (0 : Fin 1) j)) - KV.maxArr V c (ix2 r (0 : Fin 1)))
        * KV.invArr V c (ix2 r (0 : Fin 1)) * KV.adjArr V c (ix2 r j))
        * KV.hArr V c (ix2 j k)

variable (m : (ℓ : Loc nD τ sig) → Buf (Elt Ideal) ℓ) (ρ : Dev nD → PrngReg) (c : Dev nD)

/-! ## The four argument arrays -/

/-- The node features, the adjacency matrix, the weight matrix and the attention vector, as launched on core c. -/
abbrev argX : Cert.Gat.SX.Idx → EReal := m ((c : Thread nD τ).loc main_arg0)
abbrev argAdj : Cert.Gat.SA.Idx → EReal := m ((c : Thread nD τ).loc main_arg1)
abbrev argW : Cert.Gat.SW.Idx → EReal := m ((c : Thread nD τ).loc main_arg2)
abbrev argA : Cert.Gat.Sa.Idx → EReal := m ((c : Thread nD τ).loc main_arg3)

/-! ## The first region -/

/-- The two rows the first region reads hold the two halves of the attention vector. -/
theorem v1_row_src (k : Fin 256) :
    (V1 m ρ c main_v2 : S1x256.Idx → EReal) (ix2 (0 : Fin 1) k) = argA m c (ix2 (⟨k.val, by omega⟩ : Fin 512) (0 : Fin 1)) :=
  host0_v2 (W0 m ρ c) k
theorem v1_row_dst (k : Fin 256) :
    (V1 m ρ c main_v5 : S1x256.Idx → EReal) (ix2 (0 : Fin 1) k) = argA m c (ix2 (⟨256 + k.val, by omega⟩ : Fin 512) (0 : Fin 1)) :=
  host0_v5 (W0 m ρ c) k

/-- The first region's first output: the projected features. -/
theorem arr0_h (r : Fin 8192) (q : Fin 256) :
    ((dat0 (V1 m ρ) c).arrAt 4 cfg0.N : S8192x256.Idx → EReal) (ix2 r q) = Cert.Gat.h (argX m c) (argW m c) r q := by
  refine (arr0_4 (V1 m ρ) c r q).trans ?_
  rw [V1_main_arg0 m ρ c, V1_main_arg2 m ρ c]
  exact R0.prodAt_eq_h _ _ r q

/-- Its second output: the source halves of the logit. -/
theorem arr0_src (r : Fin 8192) :
    ((dat0 (V1 m ρ) c).arrAt 5 cfg0.N : S8192x1.Idx → EReal) (ix2 r (0 : Fin 1)) = Cert.Gat.src (argX m c) (argW m c) (argA m c) r := by
  refine (arr0_5 (V1 m ρ) c r 0).trans ?_
  rw [V1_main_arg0 m ρ c, V1_main_arg2 m ρ c]
  exact R0.rowAt_eq_src _ _ _ (argA m c) (v1_row_src m ρ c) r

/-- Its third output: the destination halves. -/
theorem arr0_dst (r : Fin 8192) :
    ((dat0 (V1 m ρ) c).arrAt 6 cfg0.N : S8192x1.Idx → EReal) (ix2 r (0 : Fin 1)) = Cert.Gat.dst (argX m c) (argW m c) (argA m c) r := by
  refine (arr0_6 (V1 m ρ) c r 0).trans ?_
  rw [V1_main_arg0 m ρ c, V1_main_arg2 m ρ c]
  exact R0.rowAt_eq_dst _ _ _ (argA m c) (v1_row_dst m ρ c) r

/-! ## The second region's entry and what it leaves -/

theorem v3_src (i : Fin 8192) : R1.srcArr (V3 m ρ) c (ix2 i (0 : Fin 1)) = Cert.Gat.src (argX m c) (argW m c) (argA m c) i := by
  show (V3 m ρ c main_v6_1 : S8192x1.Idx → EReal) (ix2 i (0 : Fin 1)) = _
  rw [V3_main_v6_1 m ρ c]
  exact arr0_src m ρ c i

theorem v3_dst (j : Fin 8192) : R1.dstArr (V3 m ρ) c (ix2 (0 : Fin 1) j) = Cert.Gat.dst (argX m c) (argW m c) (argA m c) j :=
  (V3_main_v7 m ρ c j).trans (arr0_dst m ρ c j)

/-- The row maximum the host forms is the closed form's. -/
theorem v3_max (i : Fin 8192) : R1.maxArr (V3 m ρ) c (ix2 i (0 : Fin 1)) = Cert.Gat.mClosed (argX m c) (argW m c) (argA m c) i := by
  refine (V3_main_v13 m ρ c i).trans ?_
  unfold Cert.Gat.mClosed Cert.Gat.maxDst
  have hd : (fun j : Fin 8192 => ((dat0 (V1 m ρ) c).arrAt 6 cfg0.N : S8192x1.Idx → EReal) (ix2 j (0 : Fin 1)))
      = fun j : Fin 8192 => Cert.Gat.dst (argX m c) (argW m c) (argA m c) j := funext fun j => arr0_dst m ρ c j
  rw [arr0_src m ρ c i, hd]

/-- The second region's output: the closed form's row sums. -/
theorem arr1_l (i : Fin 8192) :
    ((dat1 (V3 m ρ) c).arrAt 3 cfg1.N : S8192x1.Idx → EReal) (ix2 i (0 : Fin 1)) = Cert.Gat.lClosed (argX m c) (argW m c) (argA m c) i := by
  refine (arr1_3 (V3 m ρ) c (ix2 i (0 : Fin 1))).trans ?_
  change @Eq EReal _ _
  unfold Cert.Gat.lClosed Cert.Gat.uClosed Cert.Gat.eClosed
  refine Finset.sum_congr rfl fun j _ => ?_
  show Ideal.exp (Cert.Gat.leakyMax (R1.srcArr (V3 m ρ) c (ix2 i (0 : Fin 1)) + R1.dstArr (V3 m ρ) c (ix2 (0 : Fin 1) j))
      - R1.maxArr (V3 m ρ) c (ix2 i (0 : Fin 1))) = _
  rw [v3_src m ρ c i, v3_dst m ρ c j, v3_max m ρ c i]

/-! ## The third region's entry -/

theorem v5_src (i : Fin 8192) : KV.srcArr (V5 m ρ) c (ix2 i (0 : Fin 1)) = Cert.Gat.src (argX m c) (argW m c) (argA m c) i := by
  show (V5 m ρ c main_v6_1 : S8192x1.Idx → EReal) (ix2 i (0 : Fin 1)) = _
  rw [V5_main_v6_1 m ρ c]
  exact arr0_src m ρ c i

theorem v5_dst (j : Fin 8192) : KV.dstArr (V5 m ρ) c (ix2 (0 : Fin 1) j) = Cert.Gat.dst (argX m c) (argW m c) (argA m c) j := by
  show (V5 m ρ c main_v7 : S1x8192.Idx → EReal) (ix2 (0 : Fin 1) j) = _
  rw [V5_main_v7 m ρ c]
  exact v3_dst m ρ c j

theorem v5_max (i : Fin 8192) : KV.maxArr (V5 m ρ) c (ix2 i (0 : Fin 1)) = Cert.Gat.mClosed (argX m c) (argW m c) (argA m c) i := by
  show (V5 m ρ c main_v13 : S8192x1.Idx → EReal) (ix2 i (0 : Fin 1)) = _
  rw [V5_main_v13 m ρ c]
  exact v3_max m ρ c i

/-- The reciprocal the host forms is the closed form's. -/
theorem v5_inv (i : Fin 8192) : KV.invArr (V5 m ρ) c (ix2 i (0 : Fin 1)) = Cert.Gat.invL (argX m c) (argW m c) (argA m c) i := by
  refine (V5_main_v16 m ρ c i).trans ?_
  rw [arr1_l m ρ c i]
  rfl

theorem v5_adj : KV.adjArr (V5 m ρ) c = argAdj m c := V5_main_arg1 m ρ c

theorem v5_h (j : Fin 8192) (k : Fin 256) : KV.hArr (V5 m ρ) c (ix2 j k) = Cert.Gat.h (argX m c) (argW m c) j k := by
  show (V5 m ρ c main_v6_0 : S8192x256.Idx → EReal) (ix2 j k) = _
  rw [V5_main_v6_0 m ρ c]
  exact arr0_h m ρ c j k

/-! ## The two results -/

/-- Given what the third region leaves, the attention matrix the program returns is the closed form's, entry by entry. -/
theorem kernel_att_of (H : Region2Values) (i j : Fin 8192) :
    (W6 m ρ c (Proc.devRef .tc main_v17_0)) (ix2 i j) = Cert.Gat.attClosed (argX m c) (argAdj m c) (argW m c) (argA m c) i j := by
  rw [W6_main_v17_0 m ρ c]
  refine (H.att (V5 m ρ) c i j).trans ?_
  unfold Cert.Gat.attClosed Cert.Gat.uClosed Cert.Gat.eClosed
  rw [v5_src m ρ c i, v5_dst m ρ c j, v5_max m ρ c i, v5_inv m ρ c i, v5_adj m ρ c]

/-- Given what the third region leaves, the result array the program returns is the closed form's, entry by entry. -/
theorem kernel_out_of (H : Region2Values) (i : Fin 8192) (k : Fin 256) :
    (W6 m ρ c (Proc.devRef .tc main_v17_1)) (ix2 i k) = Cert.Gat.outClosed (argX m c) (argAdj m c) (argW m c) (argA m c) i k := by
  rw [W6_main_v17_1 m ρ c]
  refine (H.out (V5 m ρ) c i k).trans ?_
  change @Eq EReal _ _
  unfold Cert.Gat.outClosed Cert.Gat.attClosed Cert.Gat.uClosed Cert.Gat.eClosed
  refine Finset.sum_congr rfl fun j _ => ?_
  rw [v5_src m ρ c i, v5_dst m ρ c j, v5_max m ρ c i, v5_inv m ρ c i, v5_adj m ρ c, v5_h m ρ c j k]

/-! ## With the third region's values -/

/-- What the third region leaves is what its value theorems say. -/
theorem region2Values : Region2Values :=
  ⟨fun V c r q => arr2_6 V c r q, fun V c r k => arr2_7 V c r k⟩

/-- The attention matrix the program returns is the closed form's, entry by entry. -/
theorem kernel_att : ∀ i j : Fin 8192, (W6 m ρ c (Proc.devRef .tc main_v17_0)) (ix2 i j)
    = Cert.Gat.attClosed (m ((c : Thread nD τ).loc main_arg0)) (m ((c : Thread nD τ).loc main_arg1))
        (m ((c : Thread nD τ).loc main_arg2)) (m ((c : Thread nD τ).loc main_arg3)) i j :=
  fun i j => kernel_att_of m ρ c region2Values i j

/-- The result array the program returns is the closed form's, entry by entry. -/
theorem kernel_out : ∀ (i : Fin 8192) (k : Fin 256), (W6 m ρ c (Proc.devRef .tc main_v17_1)) (ix2 i k)
    = Cert.Gat.outClosed (m ((c : Thread nD τ).loc main_arg0)) (m ((c : Thread nD τ).loc main_arg1))
        (m ((c : Thread nD τ).loc main_arg2)) (m ((c : Thread nD τ).loc main_arg3)) i k :=
  fun i k => kernel_out_of m ρ c region2Values i k

end Cert.KernelIdeal.Hand

end
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.Bridge.lean ====
/-
  The two writings of the graph-attention layer in Spec.lean are one function of real inputs.
  The slope is a real number strictly between 0 and 1, so the leaky function written as a maximum is the leaky function
  written by cases, at every extended real (`leakyMax_eq_leakyCases`), and it is monotone (`leakyCases_mono`). A
  monotone map takes the largest of a nonempty row to the largest of the images, so the row's maximum taken as a fold
  is the leaky function of the source half plus the largest destination half (`mRow_eq_mClosed`); the logits, the
  unnormalized weights and the row sums then agree term by term.
  When every input is a real number, so are the projected features, both halves of the logit, the logits and the row's
  maximum; each unnormalized weight is then the exponential of a real number, which is positive, and the row sum, at
  least one of its terms, is not zero (`lRow_pos`). Division by a nonzero extended real is the product with its inverse,
  which is what the product with the quotient 1 / (row sum) is (`attClosed_eq_attRow`, `outClosed_eq_outRow`).
-/
import proofs.«152824_j20873541058924_2_alg».proof.Proof.Spec
import proofs.«152824_j20873541058924_2_alg».proof.Proof.LibRealFold

noncomputable section

namespace Cert.Gat

open Idealize.ShloMosaic Idealize.ShloMosaic.ValueIdx Cert.RealFold

/-! ## The three literals -/

/-- The pattern of minus infinity denotes the bottom of the extended reals. -/
theorem negInf_eq_bot : negInf = ⊥ := by
  simp [negInf, Ideal.ofBits, Ideal.ieee]

/-- The pattern of 1 denotes 1. -/
theorem one_eq_one : one = 1 := by
  simp [one, Ideal.ofBits, Ideal.ieee, -EReal.coe_mul]; norm_num

/-- The slope as a real number: 13421773 / 2 ^ 26, the binary value nearest to 1 / 5. -/
def slopeR : ℝ := 13421773 / 67108864

theorem slopeR_pos : 0 < slopeR := by unfold slopeR; norm_num
theorem slopeR_lt_one : slopeR < 1 := by unfold slopeR; norm_num

/-- The pattern of the slope denotes that real number. -/
theorem slope_eq : slope = ((slopeR : ℝ) : EReal) := by
  simp [slope, slopeR, Ideal.ofBits, Ideal.ieee, -EReal.coe_mul]; norm_num

/-! ## The leaky function -/

/-- Written as a maximum or by cases, the leaky function is the same at every extended real: the slope lies strictly
    between 0 and 1, so `slope * t ≤ t` exactly when `0 ≤ t`; at the two infinities both writings give the infinity. -/
theorem leakyMax_eq_leakyCases (t : EReal) : leakyMax t = leakyCases t := by
  unfold leakyMax leakyCases
  rw [slope_eq]
  induction t using EReal.rec with
  | bot =>
    rw [EReal.coe_mul_bot_of_pos slopeR_pos, max_self, if_neg (not_le.mpr EReal.bot_lt_zero)]
  | top =>
    rw [EReal.coe_mul_top_of_pos slopeR_pos, max_self, if_pos le_top]
  | coe r =>
    rw [← EReal.coe_mul]
    by_cases h : 0 ≤ r
    · rw [if_pos (EReal.coe_nonneg.mpr h)]
      apply max_eq_left
      exact EReal.coe_le_coe_iff.mpr (by nlinarith [slopeR_lt_one])
    · rw [if_neg (fun h' => h (EReal.coe_nonneg.mp h'))]
      apply max_eq_right
      have hr : r < 0 := not_le.mp h
      exact EReal.coe_le_coe_iff.mpr (by nlinarith [slopeR_lt_one])

/-- The leaky function is monotone on the extended reals: the identity above zero, a nonnegative multiple below it,
    and nonpositive below zero. -/
theorem leakyCases_mono : Monotone leakyCases := by
  intro t₁ t₂ h
  unfold leakyCases
  have hs : (0 : EReal) ≤ slope := by rw [slope_eq]; exact EReal.coe_nonneg.mpr slopeR_pos.le
  by_cases h1 : 0 ≤ t₁
  · rw [if_pos h1, if_pos (h1.trans h)]; exact h
  · rw [if_neg h1]
    by_cases h2 : 0 ≤ t₂
    · rw [if_pos h2]
      have h0 : slope * t₁ ≤ slope * 0 := mul_le_mul_of_nonneg_left (not_le.mp h1).le hs
      rw [mul_zero] at h0
      exact h0.trans h2
    · rw [if_neg h2]
      exact mul_le_mul_of_nonneg_left h hs

/-- The leaky function of a real number is a real number. -/
theorem leakyCases_isReal {t : EReal} (ht : ∃ r : ℝ, t = (r : EReal)) : ∃ r : ℝ, leakyCases t = (r : EReal) := by
  obtain ⟨r, rfl⟩ := ht
  unfold leakyCases
  split
  · exact ⟨r, rfl⟩
  · exact ⟨slopeR * r, by rw [slope_eq, EReal.coe_mul]⟩

variable (x : SX.Idx → EReal) (adj : SA.Idx → EReal) (W : SW.Idx → EReal) (a : Sa.Idx → EReal)

/-! ## The closed form is the row form, term by term -/

theorem eClosed_eq_eRow (i j : Fin 8192) : eClosed x W a i j = eRow x W a i j :=
  leakyMax_eq_leakyCases _

/-- The row's maximum: the leaky function and the addition of the source half are monotone, so the largest logit of
    the (nonempty) row is the leaky function of the source half plus the largest destination half. -/
theorem mRow_eq_mClosed (i : Fin 8192) : mRow x W a i = mClosed x W a i := by
  unfold mRow mClosed maxDst eRow
  rw [negInf_eq_bot, max_eq_right bot_le, leakyMax_eq_leakyCases]
  exact fold_max_map (g := fun d => leakyCases (src x W a i + d))
    (fun _ _ hd => leakyCases_mono (add_le_add le_rfl hd)) (fun j => dst x W a j)
    ⟨(⟨0, by norm_num⟩ : Fin 8192), Finset.mem_univ _⟩

theorem uClosed_eq_uRow (i j : Fin 8192) : uClosed x W a i j = uRow x W a i j := by
  unfold uClosed uRow
  rw [eClosed_eq_eRow, mRow_eq_mClosed]

theorem lClosed_eq_lRow (i : Fin 8192) : lClosed x W a i = lRow x W a i :=
  Finset.sum_congr rfl fun j _ => uClosed_eq_uRow x W a i j

/-! ## Real inputs: every intermediate value is a real number -/

section Real

variable (hx : ∀ p, ∃ r : ℝ, x p = (r : EReal)) (hW : ∀ p, ∃ r : ℝ, W p = (r : EReal))
  (ha : ∀ p, ∃ r : ℝ, a p = (r : EReal))

include hx hW in
/-- The projected features are real numbers. -/
theorem h_isReal (i : Fin 8192) (k : Fin 256) : ∃ r : ℝ, h x W i k = (r : EReal) :=
  isReal_sum _ _ fun t _ => isReal_mul (hx _) (hW _)

include hx hW ha in
/-- The source half of the logit is a real number. -/
theorem src_isReal (i : Fin 8192) : ∃ r : ℝ, src x W a i = (r : EReal) :=
  isReal_sum _ _ fun k _ => isReal_mul (h_isReal x W hx hW i k) (ha _)

include hx hW ha in
/-- The destination half of the logit is a real number. -/
theorem dst_isReal (j : Fin 8192) : ∃ r : ℝ, dst x W a j = (r : EReal) :=
  isReal_sum _ _ fun k _ => isReal_mul (h_isReal x W hx hW j k) (ha _)

include hx hW ha in
/-- Every logit is a real number. -/
theorem eRow_isReal (i j : Fin 8192) : ∃ r : ℝ, eRow x W a i j = (r : EReal) :=
  leakyCases_isReal (isReal_add (src_isReal x W a hx hW ha i) (dst_isReal x W a hx hW ha j))

include hx hW ha in
/-- The row's maximum is a real number: the largest of a nonempty row of real numbers. -/
theorem mRow_isReal (i : Fin 8192) : ∃ r : ℝ, mRow x W a i = (r : EReal) := by
  unfold mRow
  rw [negInf_eq_bot, max_eq_right bot_le]
  exact fold_max_isReal _ ⟨(⟨0, by norm_num⟩ : Fin 8192), Finset.mem_univ _⟩
    fun j _ => eRow_isReal x W a hx hW ha i j

include hx hW ha in
/-- Every unnormalized weight is the exponential of a real number: a positive real number. -/
theorem uRow_pos (i j : Fin 8192) : 0 < uRow x W a i j := by
  obtain ⟨e, he⟩ := eRow_isReal x W a hx hW ha i j
  obtain ⟨m, hm⟩ := mRow_isReal x W a hx hW ha i
  unfold uRow
  rw [he, hm, ← EReal.coe_sub, Ideal.exp_coe]
  exact EReal.coe_pos.mpr (Real.exp_pos _)

include hx hW ha in
/-- The row's sum of weights is positive: its terms are positive and there is at least one. -/
theorem lRow_pos (i : Fin 8192) : 0 < lRow x W a i :=
  lt_of_lt_of_le (uRow_pos x W a hx hW ha i (⟨0, by norm_num⟩ : Fin 8192))
    (Finset.single_le_sum (f := fun j => uRow x W a i j) (fun j _ => (uRow_pos x W a hx hW ha i j).le)
      (Finset.mem_univ _))

/-! ## The two theorems -/

include hx hW ha in
/-- The masked attention weights agree: the row sum is not zero, so dividing by it is multiplying by its inverse, and
    the quotient of 1 by it is that inverse. -/
theorem attClosed_eq_attRow (i j : Fin 8192) : attClosed x adj W a i j = attRow x adj W a i j := by
  have hl : lRow x W a i ≠ 0 := (lRow_pos x W a hx hW ha i).ne'
  unfold attClosed attRow invL
  rw [lClosed_eq_lRow, uClosed_eq_uRow, one_eq_one]
  unfold Ideal.div
  rw [if_neg hl, if_neg hl, one_mul]

include hx hW ha in
/-- The outputs agree, term by term. -/
theorem outClosed_eq_outRow (i : Fin 8192) (k : Fin 256) : outClosed x adj W a i k = outRow x adj W a i k :=
  Finset.sum_congr rfl fun j _ => by rw [attClosed_eq_attRow x adj W a hx hW ha i j]

end Real

end Cert.Gat

end
-- ==== Proof.RefValue.lean ====
/-
  What the reference computes, index by index, over the extended reals: its two result arrays are the ROW form of the
  graph-attention layer. Stage by stage, each composition of array operations of the reference's run is read at an
  index: a matrix product with one contracted axis is the sum over that axis of the products of the entries; a slice
  reads the source at the shifted row; a reshape of a column to a vector and a broadcast of a vector along the rows or
  the columns read one entry; the comparison with zero followed by the selection is the leaky ReLU by cases; the
  reduction by the maximum over the columns is the fold of the maximum over the row, the reduction by the sum the
  row's sum; the division is the division of the extended reals.
-/
import proofs.«152824_j20873541058924_2_alg».proof.Proof.RefRun
import proofs.«152824_j20873541058924_2_alg».proof.Proof.Spec
import Idealize.ShloMosaic.PureOps.Ideal.Laws
import Idealize.ShloMosaic.Lib.IdealHost
import Idealize.ShloMosaic.Lib.ValueLayout
import Idealize.ShloMosaic.Lib.StackMember

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.ShloMosaic.StackMember

/-! ## The layout operations of the reference, read at an index -/

section Layout
variable {α : Type}

/-- A vector copied down a column and that column along the rows reads, at (i, j), the vector's entry i. -/
theorem rowB_apply (v : S8192.Idx → α) (i j : Fin 8192) :
    broadcastInDim S8192x8192 ![0, 1] bcast_S8192x1_S8192x8192_0_1 (broadcastInDim S8192x1 ![0] bcast_S8192_S8192x1_0 v) (ix2 i j)
      = v (ix1 i) := by
  rw [broadcastInDim_apply _ _ _ (ix2 i j) (ix2 i (0 : Fin 1)) (fun ax => match ax with | ⟨0, _⟩ => rfl | ⟨1, _⟩ => rfl),
    broadcastInDim_apply _ _ _ (ix2 i (0 : Fin 1)) (ix1 i) (fun ax => match ax with | ⟨0, _⟩ => rfl)]

/-- A vector laid along a row and that row down the columns reads, at (i, j), the vector's entry j. -/
theorem colB_apply (v : S8192.Idx → α) (i j : Fin 8192) :
    broadcastInDim S8192x8192 ![0, 1] bcast_S1x8192_S8192x8192_0_1 (broadcastInDim S1x8192 ![1] bcast_S8192_S1x8192_1 v) (ix2 i j)
      = v (ix1 j) := by
  rw [broadcastInDim_apply _ _ _ (ix2 i j) (ix2 (0 : Fin 1) j) (fun ax => match ax with | ⟨0, _⟩ => rfl | ⟨1, _⟩ => rfl),
    broadcastInDim_apply _ _ _ (ix2 (0 : Fin 1) j) (ix1 j) (fun ax => match ax with | ⟨0, _⟩ => rfl)]

/-- A column reshaped to a vector reads, at i, the column's entry (i, 0). -/
theorem colCast_apply (v : S8192x1.Idx → α) (i : Fin 8192) :
    shapeCast S8192 v shapeCasts_S8192x1_S8192 (ix1 i) = v (ix2 i (0 : Fin 1)) :=
  shapeCast_apply v _ (ix1 i) (ix2 i (0 : Fin 1)) (by
    rw [Shape.rowMajor_val_two, Shape.rowMajor_val_one]
    show i.val * 1 + 0 = i.val
    omega)

end Layout

/-- The reduction over the columns, as the fact that names the index a column coordinate is inserted into. -/
theorem redCols : S8192x8192.Reduces [1] S8192 := by decide

/-- Row i with the column coordinate k inserted is the index (i, k). -/
theorem lift_eq (i k : Fin 8192) : redCols.lift (ix1 i) k = ix2 i k := by
  funext c
  apply Fin.ext
  match c with
  | ⟨0, _⟩ => rfl
  | ⟨1, _⟩ => rfl

/-- The three matrix products contract the left operand's columns with the right operand's rows. -/
theorem dot1_eq : dot_S8192x512_S512x256_S8192x256_1_0_0_1_n_n = DotDims.plain 8192 512 256 := rfl
theorem dot2_eq : dot_S8192x256_S256x1_S8192x1_1_0_0_1_n_n = DotDims.plain 8192 256 1 := rfl
theorem dot3_eq : dot_S8192x8192_S8192x256_S8192x256_1_0_0_1_n_n = DotDims.plain 8192 8192 256 := rfl

/-! ## The stages -/

variable (x : FVec Ideal S8192x512 .f32) (adj : FVec Ideal S8192x8192 .f32) (W : FVec Ideal S512x256 .f32) (a : FVec Ideal S512x1 .f32)

/-- The projected features. -/
theorem hT_apply (i : Fin 8192) (k : Fin 256) : hT x W (ix2 i k) = Gat.h x W i k := by
  unfold hT Gat.h
  rw [dot1_eq]
  exact dotGeneral_plain_apply none x W i k

/-- The first 256 rows of the attention vector. -/
theorem aSrc_apply (k : Fin 256) :
    extractStridedSlice S256x1 ![0, 0] a slices_S512x1_S256x1_0_0 (ix2 k (0 : Fin 1)) = Gat.aSrc a k :=
  slice2_axis0_apply 0 a _ k 0 ⟨k.val, by omega⟩ (Nat.zero_add _).symm

/-- The last 256 rows of the attention vector. -/
theorem aDst_apply (k : Fin 256) :
    extractStridedSlice S256x1 ![256, 0] a slices_S512x1_S256x1_256_0 (ix2 k (0 : Fin 1)) = Gat.aDst a k :=
  slice2_axis0_apply 256 a _ k 0 ⟨256 + k.val, by omega⟩ rfl

/-- The source half of the logit. -/
theorem srcT_apply (i : Fin 8192) : srcT x W a (ix1 i) = Gat.src x W a i := by
  unfold srcT Gat.src
  rw [colCast_apply, dot2_eq, dotGeneral_plain_apply]
  refine Finset.sum_congr rfl fun k _ => ?_
  rw [hT_apply, aSrc_apply]

/-- The destination half of the logit. -/
theorem dstT_apply (j : Fin 8192) : dstT x W a (ix1 j) = Gat.dst x W a j := by
  unfold dstT Gat.dst
  rw [colCast_apply, dot2_eq, dotGeneral_plain_apply]
  refine Finset.sum_congr rfl fun k _ => ?_
  rw [hT_apply, aDst_apply]

/-- The sum of the two halves at the edge (i, j). -/
theorem sumT_apply (i j : Fin 8192) : sumT x W a (ix2 i j) = Gat.src x W a i + Gat.dst x W a j := by
  unfold sumT
  rw [addf_apply, rowB_apply, colB_apply, srcT_apply, dstT_apply]

/-- The logit: by cases on the sign of the sum, the slope the same word on both sides. -/
theorem eT_apply (i j : Fin 8192) : eT x W a (ix2 i j) = Gat.eRow x W a i j := by
  unfold eT Gat.eRow Gat.leakyCases
  rw [select_apply, cmpf_apply, mulf_apply, broadcastInDim_scalar_apply, broadcastInDim_scalar_apply, sumT_apply,
    Ideal.cmpf_def]
  show Scalar.select (Ideal.cmp .oge (Gat.src x W a i + Gat.dst x W a j) (Ideal.ofBits .f32 0x00000000#32))
      (Gat.src x W a i + Gat.dst x W a j) (Gat.slope * (Gat.src x W a i + Gat.dst x W a j)) = _
  rw [Ideal.ofBits_zero_f32]
  unfold Ideal.cmp
  by_cases hs : (0 : EReal) ≤ Gat.src x W a i + Gat.dst x W a j
  · rw [if_pos hs]
    show Scalar.select (BitVec.ofBool (decide ((0 : EReal) ≤ Gat.src x W a i + Gat.dst x W a j))) _ _ = _
    rw [decide_eq_true hs]
    exact select_one _ _
  · rw [if_neg hs]
    show Scalar.select (BitVec.ofBool (decide ((0 : EReal) ≤ Gat.src x W a i + Gat.dst x W a j))) _ _ = _
    rw [decide_eq_false hs]
    exact select_zero _ _

/-- The row maximum: the fold of the maximum over the row from minus infinity, and once more against minus infinity. -/
theorem mT_apply (i : Fin 8192) : mT x W a (ix1 i) = Gat.mRow x W a i := by
  unfold mT Gat.mRow
  rw [maximumf_apply, broadcastInDim_scalar_apply,
    Host.reduce_eq_fold_single FloatOps.maximumf _ _ reducesTo_S8192x8192_S8192_d1 redCols h_S_ (ix1 i)]
  have hf : (eT x W a ∘ redCols.lift (ix1 i)) = fun j : Fin 8192 => Gat.eRow x W a i j := funext fun (k : Fin 8192) => by
    show eT x W a (redCols.lift (ix1 i) k) = _
    rw [lift_eq, eT_apply]
  rw [hf]
  rfl

/-- The unnormalized weight. -/
theorem uT_apply (i j : Fin 8192) : uT x W a (ix2 i j) = Gat.uRow x W a i j := by
  unfold uT Gat.uRow
  show Ideal.exp (subf (eT x W a) _ (ix2 i j)) = _
  rw [subf_apply, rowB_apply, eT_apply, mT_apply]

/-- The row's sum of weights. -/
theorem lT_apply (i : Fin 8192) : lT x W a (ix1 i) = Gat.lRow x W a i := by
  unfold lT Gat.lRow
  rw [hostReduceAdd_apply, Ideal.hostReduceAdd_single reducesTo_S8192x8192_S8192_d1 redCols]
  show Ideal.ofBits .f32 0x00000000#32 + _ = _
  rw [Ideal.ofBits_zero_f32, zero_add]
  refine Finset.sum_congr rfl fun (k : Fin 8192) _ => ?_
  rw [lift_eq, uT_apply]

/-- The masked attention weight: the second result of the reference. -/
theorem attT_apply (i j : Fin 8192) : attT x adj W a (ix2 i j) = Gat.attRow x adj W a i j := by
  unfold attT Gat.attRow
  rw [mulf_apply, hostDivf_apply, rowB_apply, uT_apply, lT_apply]

/-- The attention applied to the projected features: the first result of the reference. -/
theorem outT_apply (i : Fin 8192) (k : Fin 256) : outT x adj W a (ix2 i k) = Gat.outRow x adj W a i k := by
  unfold outT Gat.outRow
  rw [dot3_eq, dotGeneral_plain_apply]
  refine Finset.sum_congr rfl fun j _ => ?_
  rw [attT_apply, hT_apply]

/-- The two results as functions of the index. -/
theorem attT_eq : attT x adj W a = fun p => Gat.attRow x adj W a (p 0) (p 1) := funext fun p => by
  rw [eq_ix2 p]; exact attT_apply x adj W a _ _
theorem outT_eq : outT x adj W a = fun p => Gat.outRow x adj W a (p 0) (p 1) := funext fun p => by
  rw [eq_ix2 p]; exact outT_apply x adj W a _ _

end Cert.ReferenceIdeal.RefValue

end
-- ==== Proof.Finite.lean ====
/-
  From the printed precondition to "every entry is a real number", over the extended reals.
  The precondition is the conjunction, array by array, of "every entry's absolute value is below plus infinity":
  each conjunct is a reduction by "and", from the word 1, of the entrywise comparison of the absolute value with the
  float pattern of plus infinity, and the conjunction is the "and" of the four one-bit results. If that word is 1,
  every comparison came out 1: the maximum of v and -v is below the top element, so v is neither the bottom nor the
  top element: it is a real number.
-/
import proofs.«152824_j20873541058924_2_alg».proof.Proof.Gen.Pre_finite_inputs
import Idealize.ShloMosaic.PureOps.Ideal.Laws
import Idealize.ShloMosaic.Lib.IdealHost
import Idealize.ShloMosaic.Lib.ReduceAll

noncomputable section

namespace Cert.Gat

open Idealize.ShloMosaic Idealize.ShloMosaic.ValueIdx Cert.Pre_finite_inputs

/-- The float pattern of plus infinity is the top element. -/
theorem ofBits_posInf : Ideal.ofBits .f32 0x7F800000#32 = (⊤ : EReal) := by
  simp [Ideal.ofBits, Ideal.ieee]

/-- An extended real whose absolute value is below the top element is a real number. -/
theorem real_of_abs_lt_top (v : EReal) (h : max v (-v) < ⊤) : ∃ r : ℝ, v = (r : EReal) := by
  induction v using EReal.rec with
  | bot => exact absurd h (by simp)
  | top => exact absurd h (by simp)
  | coe r => exact ⟨r, rfl⟩

/-- An entry whose comparison "absolute value below plus infinity" came out 1 is a real number. -/
theorem real_of_lt_posInf {s : Shape} (v : FVec Ideal s .f32) (hb : S_.BroadcastsInDim s (![] : Fin 0 → Fin s.rank)) (p : s.Idx)
    (h : cmpf .olt (Host.absf v) (broadcastInDim s ![] hb (constant (F := Ideal) S_ .f32 0x7F800000#32)) p = 1#1) :
    ∃ r : ℝ, v p = (r : EReal) := by
  rw [cmpf_apply, broadcastInDim_scalar_apply, constant_apply, Ideal.cmpf_def] at h
  have hlt : Host.absf v p < Ideal.ofBits .f32 0x7F800000#32 := by
    by_contra hn
    have e : Ideal.cmp .olt (Host.absf v p) (Ideal.ofBits .f32 0x7F800000#32) = 0#1 := by
      show BitVec.ofBool (decide (Host.absf v p < Ideal.ofBits .f32 0x7F800000#32)) = 0#1
      rw [decide_eq_false hn]; rfl
    rw [e] at h
    exact absurd h (by decide)
  rw [ofBits_posInf] at hlt
  exact real_of_abs_lt_top (v p) hlt

/-- Under the precondition every entry of the features, of the weight matrix and of the attention vector is a real
    number (so is every entry of the adjacency matrix; it is not needed). -/
theorem finite_of_pre (x : FVec Ideal S8192x512 .f32) (adj : FVec Ideal S8192x8192 .f32) (W : FVec Ideal S512x256 .f32)
    (a : FVec Ideal S512x1 .f32) (h : Cert.Pre_finite_inputs.fn (F := Ideal) x adj W a = fun _ => 1#1) :
    (∀ p, ∃ r : ℝ, x p = (r : EReal)) ∧ (∀ p, ∃ r : ℝ, W p = (r : EReal)) ∧ (∀ p, ∃ r : ℝ, a p = (r : EReal)) := by
  haveI : Subsingleton S_.Idx := ⟨fun u v => funext fun d => d.elim0⟩
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, -⟩ := IntOp.andi_eq_one.1 h12
  exact ⟨fun p => real_of_lt_posInf x _ p (Host.reduce_andi_all _ _ _ _ ix0 h1 p),
    fun p => real_of_lt_posInf W _ p (Host.reduce_andi_all _ _ _ _ ix0 h3 p),
    fun p => real_of_lt_posInf a _ p (Host.reduce_andi_all _ _ _ _ ix0 h4 p)⟩

end Cert.Gat

end
-- ==== Proof.Final.lean ====
/-
  The two programs' results agree over the extended reals. The kernel program ends with its two result arrays at
  the closed form of the layer (the row maximum through the largest destination logit, the reciprocal of the row sum);
  the reference ends with its results at the row form (softmax over each whole row); the two forms are one function
  of x, W and a as soon as these are finite, which the precondition says.
-/
import proofs.«152824_j20873541058924_2_alg».proof.Defs
import proofs.«152824_j20873541058924_2_alg».proof.Proof.Run
import proofs.«152824_j20873541058924_2_alg».proof.Proof.Keep
import proofs.«152824_j20873541058924_2_alg».proof.Proof.KernelValue
import proofs.«152824_j20873541058924_2_alg».proof.Proof.Bridge
import proofs.«152824_j20873541058924_2_alg».proof.Proof.RefValue
import proofs.«152824_j20873541058924_2_alg».proof.Proof.Finite

noncomputable section

namespace Cert.KernelIdeal.Hand

open Cert.KernelIdeal Cert.KernelIdeal.Gen
open Idealize.ShloMosaic Idealize.ShloMosaic.TcCoe Idealize.ShloMosaic.ValueIdx
open Idealize.SL.Sem

/-- Both programs run, the kernel's results are the reference's, entry by entry, and all arguments end unchanged. -/
theorem algebraic : Cert.algebraic_KernelIdeal_ReferenceIdeal := by
  intro m ρ m' ρ' hpre hagree
  refine ⟨fun c => W6 m ρ c (Proc.devRef .tc main_v17_1), fun c => W6 m ρ c (Proc.devRef .tc main_v17_0), ?_, ?_⟩
  · exact (θ_run _ _ _).mono (fun _ h c =>
      ⟨h c _ (mem_uc main_v17_1 (by decide)), h c _ (mem_uc main_v17_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩) (run_all m ρ)
  · refine (θ_run _ _ _).mono (fun _ h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2]
      obtain ⟨hx, hW, ha⟩ := Cert.Gat.finite_of_pre _ _ _ _ (hpre c)
      refine (Cert.ReferenceIdeal.RefValue.outT_eq _ _ _ _).trans ?_
      funext p
      exact (Cert.Gat.outClosed_eq_outRow _ _ _ _ hx hW ha _ _).symm.trans
        ((kernel_out m ρ c (p 0) (p 1)).symm.trans (congrArg _ (eq_ix2 p).symm))
    · rw [(hagree c).1, (hagree c).2.1, (hagree c).2.2.1, (hagree c).2.2.2]
      obtain ⟨hx, hW, ha⟩ := Cert.Gat.finite_of_pre _ _ _ _ (hpre c)
      refine (Cert.ReferenceIdeal.RefValue.attT_eq _ _ _ _).trans ?_
      funext p
      exact (Cert.Gat.attClosed_eq_attRow _ _ _ _ hx hW ha _ _).symm.trans
        ((kernel_att m ρ c (p 0) (p 1)).symm.trans (congrArg _ (eq_ix2 p).symm))

end Cert.KernelIdeal.Hand

end
-- ==== Proof.lean ====
/-
  One dense graph-attention layer: the kernel program (three kernel regions: the projection h = x W with the two
  halves of the logits, the row sums of the softmax weights, and the masked attention with its product against h)
  against the plain reference (softmax over each whole row, then the mask, then the product).

  The three programs run to the end, fault nowhere and leave their arguments as they were: the reference by its run
  read back operation by operation; the kernel program (read at words and read over the extended reals, the same
  text) by following its unscoped buffers through host stretches and regions. The idealization rewrote nothing. Over
  the extended reals the two results agree entry by entry: the kernel's row maximum leaky (src i + max dst) is the
  reference's maximum over the row because leaky is monotone, its leaky max (t, 0.2 t) is the reference's by cases,
  its sums over column tiles are the reference's sums over rows, and multiplying by 1 / l is dividing by l since the
  row sum l is a positive real when the inputs are finite.
-/
import proofs.«152824_j20873541058924_2_alg».proof.Defs
import proofs.«152824_j20873541058924_2_alg».proof.Proof.Gen.Kernel
import proofs.«152824_j20873541058924_2_alg».proof.Proof.Gen.KernelIdeal
import proofs.«152824_j20873541058924_2_alg».proof.Proof.Gen.ReferenceIdeal
import proofs.«152824_j20873541058924_2_alg».proof.Proof.Gen.Pre_finite_inputs
import proofs.«152824_j20873541058924_2_alg».proof.Proof.Run
import proofs.«152824_j20873541058924_2_alg».proof.Proof.Bits.Run
import proofs.«152824_j20873541058924_2_alg».proof.Proof.RefRun
import proofs.«152824_j20873541058924_2_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2.2) (Cert.ReferenceIdeal.Value.run (F := Ideal) m ρ),
  trivial,
  Cert.KernelIdeal.Hand.algebraic⟩

end Cert.Proof

end
